-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x40 : Shape := ⟨3, ![4096, 49, 40]⟩
abbrev S4096x1960 : Shape := ⟨2, ![4096, 1960]⟩
abbrev S4096x4096 : Shape := ⟨2, ![4096, 4096]⟩
abbrev S12x4096 : Shape := ⟨2, ![12, 4096]⟩
abbrev S4096 : Shape := ⟨1, ![4096]⟩
abbrev S_ : Shape := ⟨0, ![]⟩

class Facts : Prop where
  bcast_S_S4096x49x40 : S_.BroadcastsInDim S4096x49x40 (![] : Fin 0 → Fin S4096x49x40.rank)
  reducesTo_S4096x49x40_S_d0_1_2 : S4096x49x40.ReducesTo [0, 1, 2] S_
  h_S_ : 0 < S_.numel
  bcast_S_S4096x1960 : S_.BroadcastsInDim S4096x1960 (![] : Fin 0 → Fin S4096x1960.rank)
  reducesTo_S4096x1960_S_d0_1 : S4096x1960.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S12x4096 : S_.BroadcastsInDim S12x4096 (![] : Fin 0 → Fin S12x4096.rank)
  reducesTo_S12x4096_S_d0_1 : S12x4096.ReducesTo [0, 1] S_
  bcast_S_S4096 : S_.BroadcastsInDim S4096 (![] : Fin 0 → Fin S4096.rank)
  reducesTo_S4096_S_d0 : S4096.ReducesTo [0] S_
  reducesTo_S_S_d : S_.ReducesTo [] S_

variable [Facts]

def fn_part6 {F : FTy → Type} [FloatOps F] (main_arg8 : FVec F S4096 .f32) (main_arg12 : FVec F S4096 .f32) (main_arg16 : FVec F S4096 .f32) (main_v99 : IVec S_ 1) (main_v100 : FVec F S4096 .f32) : IVec S_ 1 :=
  let main_v101 : IVec S4096 1 := cmpf .oge main_arg8 main_v100
  let main_c_41 : IVec S_ 1 := constantI S_ 1 1#1
  let main_v102 : IVec S_ 1 := (fun x v => Host.reduce IntOp.andi x v reducesTo_S4096_S_d0 h_S_) main_v101 main_c_41
  let main_v103 : IVec S_ 1 := andi main_v99 main_v102
  let main_cst_42 : FVec F S_ .f32 := constant S_ .f32 0x00000000#32
  let main_v104 : FVec F S4096 .f32 := broadcastInDim S4096 ![] bcast_S_S4096 main_cst_42
  let main_v105 : IVec S4096 1 := cmpf .oge main_arg12 main_v104
  let main_c_43 : IVec S_ 1 := constantI S_ 1 1#1
  let main_v106 : IVec S_ 1 := (fun x v => Host.reduce IntOp.andi x v reducesTo_S4096_S_d0 h_S_) main_v105 main_c_43
  let main_v107 : IVec S_ 1 := andi main_v103 main_v106
  let main_cst_44 : FVec F S_ .f32 := constant S_ .f32 0x00000000#32
  let main_v108 : FVec F S4096 .f32 := broadcastInDim S4096 ![] bcast_S_S4096 main_cst_44
  let main_v109 : IVec S4096 1 := cmpf .oge main_arg16 main_v108
  let main_c_45 : IVec S_ 1 := constantI S_ 1 1#1
  let main_v110 : IVec S_ 1 := (fun x v => Host.reduce IntOp.andi x v reducesTo_S4096_S_d0 h_S_) main_v109 main_c_45
  let main_v111 : IVec S_ 1 := andi main_v107 main_v110
  main_v111

def fn_part5 {F : FTy → Type} [FloatOps F] (main_arg8 : FVec F S4096 .f32) (main_arg12 : FVec F S4096 .f32) (main_arg16 : FVec F S4096 .f32) (main_arg18 : FVec F S_ .f32) (main_arg19 : FVec F S_ .f32) (main_arg20 : FVec F S_ .f32) (main_v83 : IVec S_ 1) (main_v84 : FVec F S_ .f32) (main_cst_32 : FVec F S_ .f32) : IVec S_ 1 :=
  let main_v85 : IVec S_ 1 := cmpf .olt main_v84 main_cst_32
  let main_c_33 : IVec S_ 1 := constantI S_ 1 1#1
  let main_v86 : IVec S_ 1 := (fun x v => Host.reduce IntOp.andi x v reducesTo_S_S_d h_S_) main_v85 main_c_33
  let main_v87 : IVec S_ 1 := andi main_v83 main_v86
  let main_v88 : FVec F S_ .f32 := Host.absf main_arg18
  let main_cst_34 : FVec F S_ .f32 := constant S_ .f32 0x7F800000#32
  let main_v89 : IVec S_ 1 := cmpf .olt main_v88 main_cst_34
  let main_c_35 : IVec S_ 1 := constantI S_ 1 1#1
  let main_v90 : IVec S_ 1 := (fun x v => Host.reduce IntOp.andi x v reducesTo_S_S_d h_S_) main_v89 main_c_35
  let main_v91 : IVec S_ 1 := andi main_v87 main_v90
  let main_v92 : FVec F S_ .f32 := Host.absf main_arg19
  let main_cst_36 : FVec F S_ .f32 := constant S_ .f32 0x7F800000#32
  let main_v93 : IVec S_ 1 := cmpf .olt main_v92 main_cst_36
  let main_c_37 : IVec S_ 1 := constantI S_ 1 1#1
  let main_v94 : IVec S_ 1 := (fun x v => Host.reduce IntOp.andi x v reducesTo_S_S_d h_S_) main_v93 main_c_37
  let main_v95 : IVec S_ 1 := andi main_v91 main_v94
  let main_v96 : FVec F S_ .f32 := Host.absf main_arg20
  let main_cst_38 : FVec F S_ .f32 := constant S_ .f32 0x7F800000#32
  let main_v97 : IVec S_ 1 := cmpf .olt main_v96 main_cst_38
  let main_c_39 : IVec S_ 1 := constantI S_ 1 1#1
  let main_v98 : IVec S_ 1 := (fun x v => Host.reduce IntOp.andi x v reducesTo_S_S_d h_S_) main_v97 main_c_39
  let main_v99 : IVec S_ 1 := andi main_v95 main_v98
  let main_cst_40 : FVec F S_ .f32 := constant S_ .f32 0x00000000#32
  let main_v100 : FVec F S4096 .f32 := broadcastInDim S4096 ![] bcast_S_S4096 main_cst_40
  fn_part6 (F := F) main_arg8 main_arg12 main_arg16 main_v99 main_v100

def fn_part4 {F : FTy → Type} [FloatOps F] (main_arg8 : FVec F S4096 .f32) (main_arg12 : FVec F S4096 .f32) (main_arg14 : FVec F S4096 .f32) (main_arg15 : FVec F S4096 .f32) (main_arg16 : FVec F S4096 .f32) (main_arg17 : FVec F S_ .f32) (main_arg18 : FVec F S_ .f32) (main_arg19 : FVec F S_ .f32) (main_arg20 : FVec F S_ .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096 .f32 := Host.absf main_arg15
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S_ .f32 := Host.absf main_arg17
  let main_cst_32 : FVec F S_ .f32 := constant S_ .f32 0x7F800000#32
  fn_part5 (F := F) main_arg8 main_arg12 main_arg16 main_arg18 main_arg19 main_arg20 main_v83 main_v84 main_cst_32

def fn_part3 {F : FTy → Type} [FloatOps F] (main_arg8 : FVec F S4096 .f32) (main_arg11 : FVec F S4096 .f32) (main_arg12 : FVec F S4096 .f32) (main_arg13 : FVec F S4096 .f32) (main_arg14 : FVec F S4096 .f32) (main_arg15 : FVec F S4096 .f32) (main_arg16 : FVec F S4096 .f32) (main_arg17 : FVec F S_ .f32) (main_arg18 : FVec F S_ .f32) (main_arg19 : FVec F S_ .f32) (main_arg20 : FVec F S_ .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_arg8 main_arg12 main_arg14 main_arg15 main_arg16 main_arg17 main_arg18 main_arg19 main_arg20 main_v63 main_v67

def fn_part2 {F : FTy → Type} [FloatOps F] (main_arg7 : FVec F S4096 .f32) (main_arg8 : FVec F S4096 .f32) (main_arg9 : FVec F S4096 .f32) (main_arg10 : FVec F S4096 .f32) (main_arg11 : FVec F S4096 .f32) (main_arg12 : FVec F S4096 .f32) (main_arg13 : FVec F S4096 .f32) (main_arg14 : FVec F S4096 .f32) (main_arg15 : FVec F S4096 .f32) (main_arg16 : FVec F S4096 .f32) (main_arg17 : FVec F S_ .f32) (main_arg18 : FVec F S_ .f32) (main_arg19 : FVec F S_ .f32) (main_arg20 : FVec F S_ .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg8 main_arg11 main_arg12 main_arg13 main_arg14 main_arg15 main_arg16 main_arg17 main_arg18 main_arg19 main_arg20 main_v48 main_v49 main_v50

def fn_part1 {F : FTy → Type} [FloatOps F] (main_arg4 : FVec F S12x4096 .f32) (main_arg5 : FVec F S4096 .f32) (main_arg6 : FVec F S4096 .f32) (main_arg7 : FVec F S4096 .f32) (main_arg8 : FVec F S4096 .f32) (main_arg9 : FVec F S4096 .f32) (main_arg10 : FVec F S4096 .f32) (main_arg11 : FVec F S4096 .f32) (main_arg12 : FVec F S4096 .f32) (main_arg13 : FVec F S4096 .f32) (main_arg14 : FVec F S4096 .f32) (main_arg15 : FVec F S4096 .f32) (main_arg16 : FVec F S4096 .f32) (main_arg17 : FVec F S_ .f32) (main_arg18 : FVec F S_ .f32) (main_arg19 : FVec F S_ .f32) (main_arg20 : FVec F S_ .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S12x4096 .f32 := Host.absf main_arg4
  let main_cst_6 : FVec F S_ .f32 := constant S_ .f32 0x7F800000#32
  let main_v20 : FVec F S12x4096 .f32 := broadcastInDim S12x4096 ![] bcast_S_S12x4096 main_cst_6
  let main_v21 : IVec S12x4096 1 := cmpf .olt main_v19 main_v20
  let main_c_7 : IVec S_ 1 := constantI S_ 1 1#1
  let main_v22 : IVec S_ 1 := (fun x v => Host.reduce IntOp.andi x v reducesTo_S12x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x49x40 .f32) (main_arg1 : FVec F S4096x1960 .f32) (main_arg2 : FVec F S4096x4096 .f32) (main_arg3 : FVec F S4096x4096 .f32) (main_arg4 : FVec F S12x4096 .f32) (main_arg5 : FVec F S4096 .f32) (main_arg6 : FVec F S4096 .f32) (main_arg7 : FVec F S4096 .f32) (main_arg8 : FVec F S4096 .f32) (main_arg9 : FVec F S4096 .f32) (main_arg10 : FVec F S4096 .f32) (main_arg11 : FVec F S4096 .f32) (main_arg12 : FVec F S4096 .f32) (main_arg13 : FVec F S4096 .f32) (main_arg14 : FVec F S4096 .f32) (main_arg15 : FVec F S4096 .f32) (main_arg16 : FVec F S4096 .f32) (main_arg17 : FVec F S_ .f32) (main_arg18 : FVec F S_ .f32) (main_arg19 : FVec F S_ .f32) (main_arg20 : FVec F S_ .f32) : IVec S_ 1 :=
  let main_v0 : FVec F S4096x49x40 .f32 := Host.absf main_arg0
  let main_cst : FVec F S_ .f32 := constant S_ .f32 0x7F800000#32
  let main_v1 : FVec F S4096x49x40 .f32 := broadcastInDim S4096x49x40 ![] bcast_S_S4096x49x40 main_cst
  let main_v2 : IVec S4096x49x40 1 := cmpf .olt main_v0 main_v1
  let main_c : IVec S_ 1 := constantI S_ 1 1#1
  let main_v3 : IVec S_ 1 := (fun x v => Host.reduce IntOp.andi x v reducesTo_S4096x49x40_S_d0_1_2 h_S_) main_v2 main_c
  let main_v4 : FVec F S4096x1960 .f32 := Host.absf main_arg1
  let main_cst_0 : FVec F S_ .f32 := constant S_ .f32 0x7F800000#32
  let main_v5 : FVec F S4096x1960 .f32 := broadcastInDim S4096x1960 ![] bcast_S_S4096x1960 main_cst_0
  let main_v6 : IVec S4096x1960 1 := cmpf .olt main_v4 main_v5
  let main_c_1 : IVec S_ 1 := constantI S_ 1 1#1
  let main_v7 : IVec S_ 1 := (fun x v => Host.reduce IntOp.andi x v reducesTo_S4096x1960_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x49x40 : Shape := ⟨3, ![4096, 49, 40]⟩
abbrev S4096x1960 : Shape := ⟨2, ![4096, 1960]⟩
abbrev S4096x4096 : Shape := ⟨2, ![4096, 4096]⟩
abbrev S12x4096 : Shape := ⟨2, ![12, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x1 : Shape := ⟨2, ![1, 1]⟩
abbrev S1024x1960 : Shape := ⟨2, ![1024, 1960]⟩
abbrev S1x1024 : Shape := ⟨2, ![1, 1024]⟩
abbrev S1024x1024 : Shape := ⟨2, ![1024, 1024]⟩
abbrev S1024x4096 : Shape := ⟨2, ![1024, 4096]⟩
abbrev S4096x12 : Shape := ⟨2, ![4096, 12]⟩
abbrev S1024x12 : Shape := ⟨2, ![1024, 12]⟩

abbrev nBuf : Space → Nat
  | .hbm => 175
  | .vmem => 32
  | .smem => 0
  | _ => 0

abbrev hbmTy0_0 (i : Nat) : BufTy := match i % 128 with
  | 0 => ⟨S4096x49x40, .f32⟩
  | 1 => ⟨S4096x1960, .f32⟩
  | 2 => ⟨S4096x4096, .f32⟩
  | 3 => ⟨S4096x4096, .f32⟩
  | 4 => ⟨S12x4096, .f32⟩
  | 5 => ⟨S4096, .f32⟩
  | 6 => ⟨S4096, .f32⟩
  | 7 => ⟨S4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S4096, .f32⟩
  | 14 => ⟨S4096, .f32⟩
  | 15 => ⟨S4096, .f32⟩
  | 16 => ⟨S4096, .f32⟩
  | 17 => ⟨S_, .f32⟩
  | 18 => ⟨S_, .f32⟩
  | 19 => ⟨S_, .f32⟩
  | 20 => ⟨S_, .f32⟩
  | 21 => ⟨S4096x49x40, .f32⟩
  | 22 => ⟨S4096x49x40, .f32⟩
  | 23 => ⟨S_, .f32⟩
  | 24 => ⟨S4096x49x40, .f32⟩
  | 25 => ⟨S4096x49x40, .f32⟩
  | 26 => ⟨S4096x49x40, .f32⟩
  | 27 => ⟨S_, .f32⟩
  | 28 => ⟨S_, .f32⟩
  | 29 => ⟨S_, .f32⟩
  | 30 => ⟨S4096x49x40, .f32⟩
  | 31 => ⟨S4096x49x40, .f32⟩
  | 32 => ⟨S_, .f32⟩
  | 33 => ⟨S4096x49x40, .f32⟩
  | 34 => ⟨S4096x49x40, .f32⟩
  | 35 => ⟨S_, .f32⟩
  | 36 => ⟨S4096x49x40, .f32⟩
  | 37 => ⟨S4096x49x40, .f32⟩
  | 38 => ⟨S4096x49x40, .f32⟩
  | 39 => ⟨S4096x49x40, .f32⟩
  | 40 => ⟨S4096x1960, .f32⟩
  | 41 => ⟨S4096x1960, .bf16⟩
  | 42 => ⟨S4096x1960, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1960, .f32⟩
  | 53 => ⟨S4096x1960, .f32⟩
  | 54 => ⟨S4096x1960, .f32⟩
  | 55 => ⟨S_, .f32⟩
  | 56 => ⟨S_, .f32⟩
  | 57 => ⟨S_, .f32⟩
  | 58 => ⟨S4096x1960, .f32⟩
  | 59 => ⟨S4096x1960, .f32⟩
  | 60 => ⟨S_, .f32⟩
  | 61 => ⟨S4096x1960, .f32⟩
  | 62 => ⟨S4096x1960, .f32⟩
  | 63 => ⟨S4096x1960, .f32⟩
  | 64 => ⟨S4096x1960, .f32⟩
  | 65 => ⟨S_, .f32⟩
  | 66 => ⟨S4096, .f32⟩
  | 67 => ⟨S4096, .f32⟩
  | 68 => ⟨S4096, .f32⟩
  | 69 => ⟨S4096, .f32⟩
  | 70 => ⟨S4096, .f32⟩
  | 71 => ⟨S4096, .f32⟩
  | 72 => ⟨S4096x1, .f32⟩
  | 73 => ⟨S4096x1960, .f32⟩
  | 74 => ⟨S4096x1960, .f32⟩
  | 75 => ⟨S4096x1960, .bf16⟩
  | 76 => ⟨S1x4096, .f32⟩
  | 77 => ⟨S1x1, .f32⟩
  | 78 => ⟨S4096x4096, .bf16⟩
  | 79 => ⟨S4096x4096, .f32⟩
  | 80 => ⟨S_, .f32⟩
  | 81 => ⟨S4096, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x4096, .f32⟩
  | 90 => ⟨S4096x4096, .f32⟩
  | 91 => ⟨S4096x4096, .f32⟩
  | 92 => ⟨S_, .f32⟩
  | 93 => ⟨S_, .f32⟩
  | 94 => ⟨S_, .f32⟩
  | 95 => ⟨S4096x4096, .f32⟩
  | 96 => ⟨S4096x4096, .f32⟩
  | 97 => ⟨S_, .f32⟩
  | 98 => ⟨S4096x4096, .f32⟩
  | 99 => ⟨S4096x4096, .f32⟩
  | 100 => ⟨S4096x4096, .f32⟩
  | 101 => ⟨S4096x4096, .f32⟩
  | 102 => ⟨S_, .f32⟩
  | 103 => ⟨S4096, .f32⟩
  | 104 => ⟨S4096, .f32⟩
  | 105 => ⟨S4096, .f32⟩
  | 106 => ⟨S4096, .f32⟩
  | 107 => ⟨S4096, .f32⟩
  | 108 => ⟨S4096, .f32⟩
  | 109 => ⟨S4096x1, .f32⟩
  | 110 => ⟨S4096x4096, .f32⟩
  | 111 => ⟨S4096x4096, .f32⟩
  | 112 => ⟨S4096x4096, .bf16⟩
  | 113 => ⟨S1x4096, .f32⟩
  | 114 => ⟨S1x1, .f32⟩
  | 115 => ⟨S4096x4096, .bf16⟩
  | 116 => ⟨S4096x4096, .f32⟩
  | 117 => ⟨S_, .f32⟩
  | 118 => ⟨S4096, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096x1, .f32⟩
  | 125 => ⟨S4096x1, .f32⟩
  | 126 => ⟨S4096x4096, .f32⟩
  | 127 => ⟨S4096x4096, .f32⟩
  | _ => ⟨S4096x49x40, .f32⟩

abbrev hbmTy0_1 (i : Nat) : BufTy := match i % 128 with
  | 0 => ⟨S4096x4096, .f32⟩
  | 1 => ⟨S_, .f32⟩
  | 2 => ⟨S_, .f32⟩
  | 3 => ⟨S_, .f32⟩
  | 4 => ⟨S4096x4096, .f32⟩
  | 5 => ⟨S4096x4096, .f32⟩
  | 6 => ⟨S_, .f32⟩
  | 7 => ⟨S4096x4096, .f32⟩
  | 8 => ⟨S4096x4096, .f32⟩
  | 9 => ⟨S4096x4096, .f32⟩
  | 10 => ⟨S4096x4096, .f32⟩
  | 11 => ⟨S_, .f32⟩
  | 12 => ⟨S4096, .f32⟩
  | 13 => ⟨S4096, .f32⟩
  | 14 => ⟨S4096, .f32⟩
  | 15 => ⟨S4096, .f32⟩
  | 16 => ⟨S4096, .f32⟩
  | 17 => ⟨S4096, .f32⟩
  | 18 => ⟨S4096x1, .f32⟩
  | 19 => ⟨S4096x4096, .f32⟩
  | 20 => ⟨S4096x4096, .f32⟩
  | 21 => ⟨S4096x4096, .bf16⟩
  | 22 => ⟨S1x4096, .f32⟩
  | 23 => ⟨S1x1, .f32⟩
  | 24 => ⟨S4096x4096, .bf16⟩
  | 25 => ⟨S12x4096, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S12x4096, .f32⟩
  | 33 => ⟨S12x4096, .f32⟩
  | 34 => ⟨S12x4096, .f32⟩
  | 35 => ⟨S_, .f32⟩
  | 36 => ⟨S_, .f32⟩
  | 37 => ⟨S_, .f32⟩
  | 38 => ⟨S12x4096, .f32⟩
  | 39 => ⟨S12x4096, .f32⟩
  | 40 => ⟨S_, .f32⟩
  | 41 => ⟨S12x4096, .f32⟩
  | 42 => ⟨S12x4096, .f32⟩
  | 43 => ⟨S12x4096, .f32⟩
  | 44 => ⟨S12x4096, .f32⟩
  | 45 => ⟨S12x4096, .bf16⟩
  | 46 => ⟨S4096x12, .f32⟩
  | _ => ⟨S4096x49x40, .f32⟩

abbrev hbmTy (i : Nat) : BufTy := match i / 128 with
  | 0 => hbmTy0_0 i
  | 1 => hbmTy0_1 i
  | _ => ⟨S4096x49x40, .f32⟩

abbrev bufTy : (tb : Table) → Fin (tcTables nBuf tb) → BufTy
  | .hbm, ⟨i, _⟩ => hbmTy i
  | .local _ .vmem, ⟨0, _⟩ => ⟨S1024x1960, .bf16⟩
  | .local _ .vmem, ⟨1, _⟩ => ⟨S1024x1960, .bf16⟩
  | .local _ .vmem, ⟨2, _⟩ => ⟨S1024x1960, .bf16⟩
  | .local _ .vmem, ⟨3, _⟩ => ⟨S1024x1960, .bf16⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1024x1024, .bf16⟩
  | .local _ .vmem, ⟨8, _⟩ => ⟨S1024x1024, .bf16⟩
  | .local _ .vmem, ⟨9, _⟩ => ⟨S1024x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1024x4096, .bf16⟩
  | .local _ .vmem, ⟨13, _⟩ => ⟨S1x1024, .f32⟩
  | .local _ .vmem, ⟨14, _⟩ => ⟨S1x1024, .f32⟩
  | .local _ .vmem, ⟨15, _⟩ => ⟨S1x1, .f32⟩
  | .local _ .vmem, ⟨16, _⟩ => ⟨S1024x1024, .bf16⟩
  | .local _ .vmem, ⟨17, _⟩ => ⟨S1024x1024, .bf16⟩
  | .local _ .vmem, ⟨18, _⟩ => ⟨S1024x4096, .bf16⟩
  | .local _ .vmem, ⟨19, _⟩ => ⟨S1024x4096, .bf16⟩
  | .local _ .vmem, ⟨20, _⟩ => ⟨S1024x4096, .bf16⟩
  | .local _ .vmem, ⟨21, _⟩ => ⟨S1024x4096, .bf16⟩
  | .local _ .vmem, ⟨22, _⟩ => ⟨S1x1024, .f32⟩
  | .local _ .vmem, ⟨23, _⟩ => ⟨S1x1024, .f32⟩
  | .local _ .vmem, ⟨24, _⟩ => ⟨S1x1, .f32⟩
  | .local _ .vmem, ⟨25, _⟩ => ⟨S1024x1024, .bf16⟩
  | .local _ .vmem, ⟨26, _⟩ => ⟨S1024x1024, .bf16⟩
  | .local _ .vmem, ⟨27, _⟩ => ⟨S1024x4096, .bf16⟩
  | .local _ .vmem, ⟨28, _⟩ => ⟨S1024x4096, .bf16⟩
  | .local _ .vmem, ⟨29, _⟩ => ⟨S12x4096, .bf16⟩
  | .local _ .vmem, ⟨30, _⟩ => ⟨S1024x12, .f32⟩
  | .local _ .vmem, ⟨31, _⟩ => ⟨S1024x12, .f32⟩
  | _, _ => ⟨S4096x49x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_v13 : Ref sig .tc := ⟨.hbm, 44, rfl⟩
abbrev main_v14 : Ref sig .tc := ⟨.hbm, 45, rfl⟩
abbrev main_cst_4 : Ref sig .tc := ⟨.hbm, 46, rfl⟩
abbrev main_v15 : Ref sig .tc := ⟨.hbm, 47, rfl⟩
abbrev main_v16 : Ref sig .tc := ⟨.hbm, 48, rfl⟩
abbrev main_cst_5 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_6 : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_8 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_9 : Ref sig .tc := ⟨.hbm, 80, rfl⟩
abbrev main_v39 : Ref sig .tc := ⟨.hbm, 81, rfl⟩
abbrev main_v40 : Ref sig .tc := ⟨.hbm, 82, rfl⟩
abbrev main_cst_10 : Ref sig .tc := ⟨.hbm, 83, rfl⟩
abbrev main_v41 : Ref sig .tc := ⟨.hbm, 84, rfl⟩
abbrev main_v42 : Ref sig .tc := ⟨.hbm, 85, rfl⟩
abbrev main_cst_11 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_12 : Ref sig .tc := ⟨.hbm, 92, rfl⟩
abbrev main_cst_13 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_14 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_15 : Ref sig .tc := ⟨.hbm, 117, rfl⟩
abbrev main_v65 : Ref sig .tc := ⟨.hbm, 118, rfl⟩
abbrev main_v66 : Ref sig .tc := ⟨.hbm, 119, rfl⟩
abbrev main_cst_16 : Ref sig .tc := ⟨.hbm, 120, rfl⟩
abbrev main_v67 : Ref sig .tc := ⟨.hbm, 121, rfl⟩
abbrev main_v68 : Ref sig .tc := ⟨.hbm, 122, rfl⟩
abbrev main_cst_17 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_18 : Ref sig .tc := ⟨.hbm, 129, rfl⟩
abbrev main_cst_19 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_cst_20 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_cst_21 : Ref sig .tc := ⟨.hbm, 154, rfl⟩
abbrev main_v91 : Ref sig .tc := ⟨.hbm, 155, rfl⟩
abbrev main_cst_22 : Ref sig .tc := ⟨.hbm, 156, rfl⟩
abbrev main_v92 : Ref sig .tc := ⟨.hbm, 157, rfl⟩
abbrev main_cst_23 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_24 : Ref sig .tc := ⟨.hbm, 163, rfl⟩
abbrev main_cst_25 : Ref sig .tc := ⟨.hbm, 164, rfl⟩
abbrev main_call9_v0 : Ref sig .tc := ⟨.hbm, 165, rfl⟩
abbrev main_call9_v1 : Ref sig .tc := ⟨.hbm, 166, rfl⟩
abbrev main_call9_v2 : Ref sig .tc := ⟨.hbm, 167, rfl⟩
abbrev main_call9_v3 : Ref sig .tc := ⟨.hbm, 168, rfl⟩
abbrev main_call9_v4 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1960 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S12x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x12 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S4096x49x40 : S_.BroadcastsInDim S4096x49x40 (![] : Fin 0 → Fin S4096x49x40.rank)
  shapeCasts_S4096x49x40_S4096x1960 : S4096x49x40.ShapeCasts S4096x1960
  bitsLt_bf16_f32 : FTy.bits .bf16 < FTy.bits .f32
  reducesTo_S4096x1960_S4096_d1 : S4096x1960.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1960_0_1 : S4096x1.BroadcastsInDim S4096x1960 (![0, 1] : Fin 2 → Fin S4096x1960.rank)
  bcast_S_S4096x1960 : S_.BroadcastsInDim S4096x1960 (![] : Fin 0 → Fin S4096x1960.rank)
  bcast_S_S4096 : S_.BroadcastsInDim S4096 (![] : Fin 0 → Fin S4096.rank)
  shapeCasts_S4096_S1x4096 : S4096.ShapeCasts S1x4096
  shapeCasts_S_S1x1 : S_.ShapeCasts S1x1
  inb_S1024x1960_S1024x1960_0_0 : ∀ a, (![0, 0] : Fin 2 → Nat) a + S1024x1960.size a ≤ S1024x1960.size a
  h_S1024x1960 : 0 < S1024x1960.numel
  shapeCasts_S1024x1960_S1024x1960 : S1024x1960.ShapeCasts S1024x1960
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  reducesTo_S4096x4096_S4096_d1 : S4096x4096.ReducesTo [1] S4096
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  reducesTo_S12x4096_S_d0_1 : S12x4096.ReducesTo [0, 1] S_
  bcast_S_S12x4096 : S_.BroadcastsInDim S12x4096 (![] : Fin 0 → Fin S12x4096.rank)
  inb_S12x4096_S12x4096_0_0 : ∀ a, (![0, 0] : Fin 2 → Nat) a + S12x4096.size a ≤ S12x4096.size a
  h_S12x4096 : 0 < S12x4096.numel
  shapeCasts_S12x4096_S12x4096 : S12x4096.ShapeCasts S12x4096
  inb_S1024x12_S1024x12_0_0 : ∀ a, (![0, 0] : Fin 2 → Nat) a + S1024x12.size a ≤ S1024x12.size a
  h_S1024x12 : 0 < S1024x12.numel
  dot_S1024x1960_S1024x1960_S1024x1024_1_1_0_0_n_n_wf : DotDims.WF S1024x1960 S1024x1960 S1024x1024 [1] [1] [0] [0] [] []
  dot_S1024x4096_S1024x4096_S1024x1024_1_1_0_0_n_n_wf : DotDims.WF S1024x4096 S1024x4096 S1024x1024 [1] [1] [0] [0] [] []
  dot_S1024x4096_S12x4096_S1024x12_1_1_0_0_n_n_wf : DotDims.WF S1024x4096 S12x4096 S1024x12 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1960.size a ≤ S4096x1960.size a
  hwx0_0 : ∀ i : grid0.Coords, EltTy.bits .bf16 = 32 ∨ (Rect.block (s := S4096x1960) S1024x1960.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1960.size a ≤ S4096x1960.size a
  hwx0_1 : ∀ i : grid0.Coords, EltTy.bits .bf16 = 32 ∨ (Rect.block (s := S4096x1960) S1024x1960.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x4096.size a
  hwx1_4 : ∀ i : grid1.Coords, EltTy.bits .bf16 = 32 ∨ (Rect.block (s := S4096x4096) S1024x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S4096x4096.size a
  hwx2_0 : ∀ i : grid2.Coords, EltTy.bits .bf16 = 32 ∨ (Rect.block (s := S4096x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S4096x4096.size a
  hwx2_4 : ∀ i : grid2.Coords, EltTy.bits .bf16 = 32 ∨ (Rect.block (s := S4096x4096) S1024x1024.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x4096.size a ≤ S4096x4096.size a
  hwx3_0 : ∀ i : grid3.Coords, EltTy.bits .bf16 = 32 ∨ (Rect.block (s := S4096x4096) S1024x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S12x4096.size a ≤ S12x4096.size a
  hwx3_1 : ∀ i : grid3.Coords, EltTy.bits .bf16 = 32 ∨ (Rect.block (s := S12x4096) S12x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x12.size a ≤ S4096x12.size a
  hwx3_2 : ∀ i : grid3.Coords, EltTy.bits .f32 = 32 ∨ (Rect.block (s := S4096x12) S1024x12.size (cc3_transform_2 i) (hinb3_2 i)).WholeWords (EltTy.packing .f32)

variable [Facts₀]

def dot_S1024x1960_S1024x1960_S1024x1024_1_1_0_0_n_n : DotDims S1024x1960 S1024x1960 S1024x1024 where
  lhsContracting := [1]
  rhsContracting := [1]
  lhsNonContracting := [0]
  rhsNonContracting := [0]
  lhsBatch := []
  rhsBatch := []
  wf := dot_S1024x1960_S1024x1960_S1024x1024_1_1_0_0_n_n_wf
def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf
def dot_S1024x4096_S12x4096_S1024x12_1_1_0_0_n_n : DotDims S1024x4096 S12x4096 S1024x12 where
  lhsContracting := [1]
  rhsContracting := [1]
  lhsNonContracting := [0]
  rhsNonContracting := [0]
  lhsBatch := []
  rhsBatch := []
  wf := dot_S1024x4096_S12x4096_S1024x12_1_1_0_0_n_n_wf

abbrev win0_0 : Pipeline.Window sig grid0 :=
  Pipeline.Window.ofSpec (Memref.whole main_v11) S1024x1960.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1024x1960.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v63) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v86) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v88) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v89) S1024x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v100) S12x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v101) S1024x12.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x49x40 : Shape := ⟨3, ![4096, 49, 40]⟩
abbrev S4096x1960 : Shape := ⟨2, ![4096, 1960]⟩
abbrev S4096x4096 : Shape := ⟨2, ![4096, 4096]⟩
abbrev S12x4096 : Shape := ⟨2, ![12, 4096]⟩
abbrev S4096 : Shape := ⟨1, ![4096]⟩
abbrev S_ : Shape := ⟨0, ![]⟩
abbrev S4096x1 : Shape := ⟨2, ![4096, 1]⟩
abbrev S1960x4096 : Shape := ⟨2, ![1960, 4096]⟩
abbrev S1x4096 : Shape := ⟨2, ![1, 4096]⟩
abbrev S4096x12 : Shape := ⟨2, ![4096, 12]⟩

abbrev nBuf : Space → Nat
  | .hbm => 250
  | .vmem => 0
  | .smem => 0
  | _ => 0

abbrev hbmTy0_0 (i : Nat) : BufTy := match i % 128 with
  | 0 => ⟨S4096x49x40, .f32⟩
  | 1 => ⟨S4096x1960, .f32⟩
  | 2 => ⟨S4096x4096, .f32⟩
  | 3 => ⟨S4096x4096, .f32⟩
  | 4 => ⟨S12x4096, .f32⟩
  | 5 => ⟨S4096, .f32⟩
  | 6 => ⟨S4096, .f32⟩
  | 7 => ⟨S4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S4096, .f32⟩
  | 14 => ⟨S4096, .f32⟩
  | 15 => ⟨S4096, .f32⟩
  | 16 => ⟨S4096, .f32⟩
  | 17 => ⟨S_, .f32⟩
  | 18 => ⟨S_, .f32⟩
  | 19 => ⟨S_, .f32⟩
  | 20 => ⟨S_, .f32⟩
  | 21 => ⟨S4096x49x40, .f32⟩
  | 22 => ⟨S4096x49x40, .f32⟩
  | 23 => ⟨S_, .f32⟩
  | 24 => ⟨S4096x49x40, .f32⟩
  | 25 => ⟨S4096x49x40, .f32⟩
  | 26 => ⟨S4096x49x40, .f32⟩
  | 27 => ⟨S_, .f32⟩
  | 28 => ⟨S_, .f32⟩
  | 29 => ⟨S_, .f32⟩
  | 30 => ⟨S4096x49x40, .f32⟩
  | 31 => ⟨S4096x49x40, .f32⟩
  | 32 => ⟨S_, .f32⟩
  | 33 => ⟨S4096x49x40, .f32⟩
  | 34 => ⟨S4096x49x40, .f32⟩
  | 35 => ⟨S_, .f32⟩
  | 36 => ⟨S4096x49x40, .f32⟩
  | 37 => ⟨S4096x49x40, .f32⟩
  | 38 => ⟨S4096x49x40, .f32⟩
  | 39 => ⟨S4096x49x40, .f32⟩
  | 40 => ⟨S4096x49x40, .f32⟩
  | 41 => ⟨S4096x49x40, .f32⟩
  | 42 => ⟨S4096x1960, .f32⟩
  | 43 => ⟨S4096x1960, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1960, .f32⟩
  | 54 => ⟨S4096x1960, .f32⟩
  | 55 => ⟨S4096x1960, .f32⟩
  | 56 => ⟨S_, .f32⟩
  | 57 => ⟨S_, .f32⟩
  | 58 => ⟨S_, .f32⟩
  | 59 => ⟨S4096x1960, .f32⟩
  | 60 => ⟨S4096x1960, .f32⟩
  | 61 => ⟨S_, .f32⟩
  | 62 => ⟨S4096x1960, .f32⟩
  | 63 => ⟨S4096x1960, .f32⟩
  | 64 => ⟨S4096x1960, .f32⟩
  | 65 => ⟨S4096x1960, .f32⟩
  | 66 => ⟨S4096x1960, .f32⟩
  | 67 => ⟨S4096x1960, .f32⟩
  | 68 => ⟨S1960x4096, .f32⟩
  | 69 => ⟨S4096x4096, .f32⟩
  | 70 => ⟨S1x4096, .f32⟩
  | 71 => ⟨S4096x4096, .f32⟩
  | 72 => ⟨S4096x4096, .f32⟩
  | 73 => ⟨S1x4096, .f32⟩
  | 74 => ⟨S4096x4096, .f32⟩
  | 75 => ⟨S4096x4096, .f32⟩
  | 76 => ⟨S_, .f32⟩
  | 77 => ⟨S4096, .f32⟩
  | 78 => ⟨S4096, .f32⟩
  | 79 => ⟨S4096, .f32⟩
  | 80 => ⟨S1x4096, .f32⟩
  | 81 => ⟨S4096x4096, .f32⟩
  | 82 => ⟨S4096x4096, .f32⟩
  | 83 => ⟨S1x4096, .f32⟩
  | 84 => ⟨S4096x4096, .f32⟩
  | 85 => ⟨S4096x4096, .f32⟩
  | 86 => ⟨S_, .f32⟩
  | 87 => ⟨S4096x4096, .f32⟩
  | 88 => ⟨S4096x4096, .f32⟩
  | 89 => ⟨S4096x4096, .f32⟩
  | 90 => ⟨S4096x4096, .f32⟩
  | 91 => ⟨S4096x4096, .f32⟩
  | 92 => ⟨S_, .f32⟩
  | 93 => ⟨S_, .f32⟩
  | 94 => ⟨S_, .f32⟩
  | 95 => ⟨S4096x4096, .f32⟩
  | 96 => ⟨S4096x4096, .f32⟩
  | 97 => ⟨S_, .f32⟩
  | 98 => ⟨S4096x4096, .f32⟩
  | 99 => ⟨S4096x4096, .f32⟩
  | 100 => ⟨S4096x4096, .f32⟩
  | 101 => ⟨S4096x4096, .f32⟩
  | 102 => ⟨S4096x4096, .f32⟩
  | 103 => ⟨S4096x4096, .f32⟩
  | 104 => ⟨S4096x4096, .f32⟩
  | 105 => ⟨S_, .f32⟩
  | 106 => ⟨S4096, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096x1, .f32⟩
  | 113 => ⟨S4096x1, .f32⟩
  | 114 => ⟨S4096x4096, .f32⟩
  | 115 => ⟨S4096x4096, .f32⟩
  | 116 => ⟨S4096x4096, .f32⟩
  | 117 => ⟨S_, .f32⟩
  | 118 => ⟨S_, .f32⟩
  | 119 => ⟨S_, .f32⟩
  | 120 => ⟨S4096x4096, .f32⟩
  | 121 => ⟨S4096x4096, .f32⟩
  | 122 => ⟨S_, .f32⟩
  | 123 => ⟨S4096x4096, .f32⟩
  | 124 => ⟨S4096x4096, .f32⟩
  | 125 => ⟨S4096x4096, .f32⟩
  | 126 => ⟨S4096x4096, .f32⟩
  | 127 => ⟨S4096x4096, .f32⟩
  | _ => ⟨S4096x49x40, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S1x4096, .f32⟩
  | 4 => ⟨S4096x4096, .f32⟩
  | 5 => ⟨S4096x4096, .f32⟩
  | 6 => ⟨S1x4096, .f32⟩
  | 7 => ⟨S4096x4096, .f32⟩
  | 8 => ⟨S4096x4096, .f32⟩
  | 9 => ⟨S_, .f32⟩
  | 10 => ⟨S4096, .f32⟩
  | 11 => ⟨S4096, .f32⟩
  | 12 => ⟨S4096, .f32⟩
  | 13 => ⟨S1x4096, .f32⟩
  | 14 => ⟨S4096x4096, .f32⟩
  | 15 => ⟨S4096x4096, .f32⟩
  | 16 => ⟨S1x4096, .f32⟩
  | 17 => ⟨S4096x4096, .f32⟩
  | 18 => ⟨S4096x4096, .f32⟩
  | 19 => ⟨S_, .f32⟩
  | 20 => ⟨S4096x4096, .f32⟩
  | 21 => ⟨S4096x4096, .f32⟩
  | 22 => ⟨S4096x4096, .f32⟩
  | 23 => ⟨S4096x4096, .f32⟩
  | 24 => ⟨S4096x4096, .f32⟩
  | 25 => ⟨S_, .f32⟩
  | 26 => ⟨S_, .f32⟩
  | 27 => ⟨S_, .f32⟩
  | 28 => ⟨S4096x4096, .f32⟩
  | 29 => ⟨S4096x4096, .f32⟩
  | 30 => ⟨S_, .f32⟩
  | 31 => ⟨S4096x4096, .f32⟩
  | 32 => ⟨S4096x4096, .f32⟩
  | 33 => ⟨S4096x4096, .f32⟩
  | 34 => ⟨S4096x4096, .f32⟩
  | 35 => ⟨S4096x4096, .f32⟩
  | 36 => ⟨S4096x4096, .f32⟩
  | 37 => ⟨S4096x4096, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x4096, .f32⟩
  | 48 => ⟨S4096x4096, .f32⟩
  | 49 => ⟨S4096x4096, .f32⟩
  | 50 => ⟨S_, .f32⟩
  | 51 => ⟨S_, .f32⟩
  | 52 => ⟨S_, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S4096x4096, .f32⟩
  | 60 => ⟨S4096x4096, .f32⟩
  | 61 => ⟨S4096x4096, .f32⟩
  | 62 => ⟨S4096x4096, .f32⟩
  | 63 => ⟨S4096x4096, .f32⟩
  | 64 => ⟨S1x4096, .f32⟩
  | 65 => ⟨S4096x4096, .f32⟩
  | 66 => ⟨S4096x4096, .f32⟩
  | 67 => ⟨S1x4096, .f32⟩
  | 68 => ⟨S4096x4096, .f32⟩
  | 69 => ⟨S4096x4096, .f32⟩
  | 70 => ⟨S_, .f32⟩
  | 71 => ⟨S4096, .f32⟩
  | 72 => ⟨S4096, .f32⟩
  | 73 => ⟨S4096, .f32⟩
  | 74 => ⟨S1x4096, .f32⟩
  | 75 => ⟨S4096x4096, .f32⟩
  | 76 => ⟨S4096x4096, .f32⟩
  | 77 => ⟨S1x4096, .f32⟩
  | 78 => ⟨S4096x4096, .f32⟩
  | 79 => ⟨S4096x4096, .f32⟩
  | 80 => ⟨S_, .f32⟩
  | 81 => ⟨S4096x4096, .f32⟩
  | 82 => ⟨S4096x4096, .f32⟩
  | 83 => ⟨S4096x4096, .f32⟩
  | 84 => ⟨S4096x4096, .f32⟩
  | 85 => ⟨S4096x4096, .f32⟩
  | 86 => ⟨S_, .f32⟩
  | 87 => ⟨S_, .f32⟩
  | 88 => ⟨S_, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S4096x4096, .f32⟩
  | 95 => ⟨S4096x4096, .f32⟩
  | 96 => ⟨S4096x4096, .f32⟩
  | 97 => ⟨S4096x4096, .f32⟩
  | 98 => ⟨S12x4096, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S12x4096, .f32⟩
  | 106 => ⟨S12x4096, .f32⟩
  | 107 => ⟨S12x4096, .f32⟩
  | 108 => ⟨S_, .f32⟩
  | 109 => ⟨S_, .f32⟩
  | 110 => ⟨S_, .f32⟩
  | 111 => ⟨S12x4096, .f32⟩
  | 112 => ⟨S12x4096, .f32⟩
  | 113 => ⟨S_, .f32⟩
  | 114 => ⟨S12x4096, .f32⟩
  | 115 => ⟨S12x4096, .f32⟩
  | 116 => ⟨S12x4096, .f32⟩
  | 117 => ⟨S12x4096, .f32⟩
  | 118 => ⟨S12x4096, .f32⟩
  | 119 => ⟨S12x4096, .f32⟩
  | 120 => ⟨S4096x12, .f32⟩
  | 121 => ⟨S4096x12, .f32⟩
  | _ => ⟨S4096x49x40, .f32⟩

abbrev hbmTy (i : Nat) : BufTy := match i / 128 with
  | 0 => hbmTy0_0 i
  | 1 => hbmTy0_1 i
  | _ => ⟨S4096x49x40, .f32⟩

abbrev bufTy : (tb : Table) → Fin (tcTables nBuf tb) → BufTy
  | .hbm, ⟨i, _⟩ => hbmTy i
  | _, _ => ⟨S4096x49x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_cst_5 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_cst_7 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_8 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_call4_cst : Ref sig .tc := ⟨.hbm, 86, rfl⟩
abbrev main_call4_v0 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_9 : Ref sig .tc := ⟨.hbm, 92, rfl⟩
abbrev main_cst_10 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_11 : Ref sig .tc := ⟨.hbm, 105, rfl⟩
abbrev main_v55 : Ref sig .tc := ⟨.hbm, 106, rfl⟩
abbrev main_v56 : Ref sig .tc := ⟨.hbm, 107, rfl⟩
abbrev main_cst_12 : Ref sig .tc := ⟨.hbm, 108, rfl⟩
abbrev main_v57 : Ref sig .tc := ⟨.hbm, 109, rfl⟩
abbrev main_v58 : Ref sig .tc := ⟨.hbm, 110, rfl⟩
abbrev main_cst_13 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_14 : Ref sig .tc := ⟨.hbm, 117, rfl⟩
abbrev main_cst_15 : Ref sig .tc := ⟨.hbm, 118, rfl⟩
abbrev main_call8_v0 : Ref sig .tc := ⟨.hbm, 119, rfl⟩
abbrev main_call8_v1 : Ref sig .tc := ⟨.hbm, 120, rfl⟩
abbrev main_call8_v2 : Ref sig .tc := ⟨.hbm, 121, rfl⟩
abbrev main_call8_v3 : Ref sig .tc := ⟨.hbm, 122, rfl⟩
abbrev main_call8_v4 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_cst_16 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_call9_cst : Ref sig .tc := ⟨.hbm, 147, rfl⟩
abbrev main_call9_v0 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_17 : Ref sig .tc := ⟨.hbm, 153, rfl⟩
abbrev main_cst_18 : Ref sig .tc := ⟨.hbm, 154, rfl⟩
abbrev main_call11_v0 : Ref sig .tc := ⟨.hbm, 155, rfl⟩
abbrev main_call11_v1 : Ref sig .tc := ⟨.hbm, 156, rfl⟩
abbrev main_call11_v2 : Ref sig .tc := ⟨.hbm, 157, rfl⟩
abbrev main_call11_v3 : Ref sig .tc := ⟨.hbm, 158, rfl⟩
abbrev main_call11_v4 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_cst_19 : Ref sig .tc := ⟨.hbm, 166, rfl⟩
abbrev main_v96 : Ref sig .tc := ⟨.hbm, 167, rfl⟩
abbrev main_v97 : Ref sig .tc := ⟨.hbm, 168, rfl⟩
abbrev main_cst_20 : Ref sig .tc := ⟨.hbm, 169, rfl⟩
abbrev main_v98 : Ref sig .tc := ⟨.hbm, 170, rfl⟩
abbrev main_v99 : Ref sig .tc := ⟨.hbm, 171, rfl⟩
abbrev main_cst_21 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_22 : Ref sig .tc := ⟨.hbm, 178, rfl⟩
abbrev main_cst_23 : Ref sig .tc := ⟨.hbm, 179, rfl⟩
abbrev main_call13_v0 : Ref sig .tc := ⟨.hbm, 180, rfl⟩
abbrev main_call13_v1 : Ref sig .tc := ⟨.hbm, 181, rfl⟩
abbrev main_call13_v2 : Ref sig .tc := ⟨.hbm, 182, rfl⟩
abbrev main_call13_v3 : Ref sig .tc := ⟨.hbm, 183, rfl⟩
abbrev main_call13_v4 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_24 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_call14_cst : Ref sig .tc := ⟨.hbm, 208, rfl⟩
abbrev main_call14_v0 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_cst_25 : Ref sig .tc := ⟨.hbm, 214, rfl⟩
abbrev main_cst_26 : Ref sig .tc := ⟨.hbm, 215, rfl⟩
abbrev main_call16_v0 : Ref sig .tc := ⟨.hbm, 216, rfl⟩
abbrev main_call16_v1 : Ref sig .tc := ⟨.hbm, 217, rfl⟩
abbrev main_call16_v2 : Ref sig .tc := ⟨.hbm, 218, rfl⟩
abbrev main_call16_v3 : Ref sig .tc := ⟨.hbm, 219, rfl⟩
abbrev main_call16_v4 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_cst_27 : Ref sig .tc := ⟨.hbm, 227, rfl⟩
abbrev main_v137 : Ref sig .tc := ⟨.hbm, 228, rfl⟩
abbrev main_cst_28 : Ref sig .tc := ⟨.hbm, 229, rfl⟩
abbrev main_v138 : Ref sig .tc := ⟨.hbm, 230, rfl⟩
abbrev main_cst_29 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_cst_30 : Ref sig .tc := ⟨.hbm, 236, rfl⟩
abbrev main_cst_31 : Ref sig .tc := ⟨.hbm, 237, rfl⟩
abbrev main_call18_v0 : Ref sig .tc := ⟨.hbm, 238, rfl⟩
abbrev main_call18_v1 : Ref sig .tc := ⟨.hbm, 239, rfl⟩
abbrev main_call18_v2 : Ref sig .tc := ⟨.hbm, 240, rfl⟩
abbrev main_call18_v3 : Ref sig .tc := ⟨.hbm, 241, rfl⟩
abbrev main_call18_v4 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩

abbrev nD : Nat := 1
abbrev τ : Topo := Topo.v7x

variable {F : FTy → Type} [FloatOps F]

class Facts₀ : Prop where
  bcast_S_S4096x49x40 : S_.BroadcastsInDim S4096x49x40 (![] : Fin 0 → Fin S4096x49x40.rank)
  shapeCasts_S4096x49x40_S4096x1960 : S4096x49x40.ShapeCasts S4096x1960
  reducesTo_S4096x1960_S4096_d1 : S4096x1960.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1960_0_1 : S4096x1.BroadcastsInDim S4096x1960 (![0, 1] : Fin 2 → Fin S4096x1960.rank)
  bcast_S_S4096x1960 : S_.BroadcastsInDim S4096x1960 (![] : Fin 0 → Fin S4096x1960.rank)
  transposes_S4096x1960_S1960x4096_1_0 : S4096x1960.Transposes [1, 0] S1960x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096 : S_.BroadcastsInDim S4096 (![] : Fin 0 → Fin S4096.rank)
  bcast_S_S4096x4096 : S_.BroadcastsInDim S4096x4096 (![] : Fin 0 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  transposes_S4096x4096_S4096x4096_1_0 : S4096x4096.Transposes [1, 0] S4096x4096
  reducesTo_S12x4096_S_d0_1 : S12x4096.ReducesTo [0, 1] S_
  bcast_S_S12x4096 : S_.BroadcastsInDim S12x4096 (![] : Fin 0 → Fin S12x4096.rank)
  transposes_S12x4096_S4096x12_1_0 : S12x4096.Transposes [1, 0] S4096x12
  dot_S4096x1960_S1960x4096_S4096x4096_1_0_0_1_n_n_wf : DotDims.WF S4096x1960 S1960x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x12_S4096x12_1_0_0_1_n_n_wf : DotDims.WF S4096x4096 S4096x12 S4096x12 [1] [0] [0] [1] [] []

variable [Facts₀]

def dot_S4096x1960_S1960x4096_S4096x4096_1_0_0_1_n_n : DotDims S4096x1960 S1960x4096 S4096x4096 where
  lhsContracting := [1]
  rhsContracting := [0]
  lhsNonContracting := [0]
  rhsNonContracting := [1]
  lhsBatch := []
  rhsBatch := []
  wf := dot_S4096x1960_S1960x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x12_S4096x12_1_0_0_1_n_n : DotDims S4096x4096 S4096x12 S4096x12 where
  lhsContracting := [1]
  rhsContracting := [0]
  lhsNonContracting := [0]
  rhsNonContracting := [1]
  lhsBatch := []
  rhsBatch := []
  wf := dot_S4096x4096_S4096x12_S4096x12_1_0_0_1_n_n_wf

class Facts : Prop extends Facts₀ where

variable [Facts]
-- ==== Proof.LibQuantLayer.lean ====
/-
  A quantized linear layer with inference-time batch normalisation, at the ideal instance (extended reals).

  Two spellings of one layer  a ↦ q(relu(BN(a · wqᵀ))),  over abstract batch, input and output index types:

  * the FOLDED form `layerK`: the normalisation's scale  g · rsqrt(v + ε)  is multiplied into every weight and the
    shift  b − m · (g · rsqrt(v + ε))  is added after the product, then relu, then the activation quantiser
    clip(round(h / s), 0, 15) · s;
  * the UNFOLDED form `layerR`:  g · (a · wqᵀ − m) · rsqrt(v + ε) + b,  relu, and the quantiser written with a
    straight-through estimator  r + (q(r) − r).

  On the extended reals the two agree when every operand is a real number and the variance is non-negative
  (`layer_eq`): then  v + ε > 0,  so rsqrt is a positive real, distributivity of · over the finite sum holds, and
  r + (q − r) = q  because r is real (`ste_cancel`). Off that domain they differ: at  v + ε = 0  the scale is +∞,
  and  ∞ + (q − ∞)  is −∞ where the folded form has the finite q.

  Also here: the real-number closure facts used to carry finiteness through a network (`IsFin.*`, `isFin_clip`: a
  clipped value is real whatever was clipped).
-/
import Idealize.ShloMosaic.PureOps.Ideal

noncomputable section

namespace Cert.QuantLayer

open Idealize.ShloMosaic

/-! ## Extended reals that are real numbers -/

/-- `x` is a real number (neither infinity). -/
def IsFin (x : EReal) : Prop := ∃ r : ℝ, x = (r : EReal)

theorem IsFin.coe (r : ℝ) : IsFin (r : EReal) := ⟨r, rfl⟩

theorem IsFin.zero : IsFin (0 : EReal) := ⟨0, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

theorem IsFin.min {x y : EReal} (hx : IsFin x) (hy : IsFin y) : IsFin (min x y) := by
  rcases le_total x y with h | h
  · rw [min_eq_left h]; exact hx
  · rw [min_eq_right h]; exact hy

theorem IsFin.ne_top {x : EReal} (hx : IsFin x) : x ≠ ⊤ := by
  obtain ⟨a, rfl⟩ := hx; exact EReal.coe_ne_top a

theorem IsFin.ne_bot {x : EReal} (hx : IsFin x) : x ≠ ⊥ := by
  obtain ⟨a, rfl⟩ := hx; exact EReal.coe_ne_bot a

theorem isFin_of_ne {x : EReal} (h1 : x ≠ ⊤) (h2 : x ≠ ⊥) : IsFin x := by
  induction x using EReal.rec with
  | bot => exact absurd rfl h2
  | top => exact absurd rfl h1
  | coe r => exact ⟨r, rfl⟩

/-- Between two reals there are only reals. -/
theorem isFin_of_between {x lo hi : EReal} (hlo : IsFin lo) (hhi : IsFin hi) (h1 : lo ≤ x) (h2 : x ≤ hi) : IsFin x := by
  refine isFin_of_ne (fun e => ?_) (fun e => ?_)
  · subst e; exact hhi.ne_top (top_le_iff.mp h2)
  · subst e; exact hlo.ne_bot (le_bot_iff.mp h1)

/-- A clipped value is real, whatever was clipped (`min hi (max lo y)`, the bounds real). -/
theorem isFin_clip {lo hi : EReal} (hlo : IsFin lo) (hhi : IsFin hi) (y : EReal) : IsFin (min hi (max lo y)) := by
  rcases le_total hi (max lo y) with h | h
  · rw [min_eq_left h]; exact hhi
  · rw [min_eq_right h]; exact isFin_of_between hlo hhi (le_max_left _ _) h

/-- The larger of anything below +∞ and a real is real. -/
theorem isFin_max_of_ne_top {x t : EReal} (hx : x ≠ ⊤) (ht : IsFin t) : IsFin (max x t) := by
  rcases le_total x t with h | h
  · rw [max_eq_right h]; exact ht
  · rw [max_eq_left h]; exact isFin_of_ne hx (fun e => ht.ne_bot (le_bot_iff.mp (e ▸ h)))

/-- A finite sum of reals, as an extended real, is the real sum. -/
theorem coe_sum {K : Type*} (s : Finset K) (f : K → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem isFin_sum {K : Type*} (s : Finset K) (f : K → EReal) (hf : ∀ k, IsFin (f k)) : IsFin (∑ k ∈ s, f k) := by
  choose f' hf' using hf
  rw [show f = fun k => ((f' k : ℝ) : EReal) from funext hf', coe_sum]
  exact ⟨_, rfl⟩

/-- The straight-through form  x + (q − x)  is q when x is real (for every q, infinite or not). -/
theorem ste_cancel {x : EReal} (hx : IsFin x) (q : EReal) : x + (q - x) = q := by
  obtain ⟨r, rfl⟩ := hx
  induction q using EReal.rec with
  | bot => simp
  | top => simp
  | coe a => rw [← EReal.coe_sub, ← EReal.coe_add]; congr 1; ring

/-! ## The constants of the layer, as the reals their patterns denote -/

/-- round to nearest, ties to even, on the extended reals -/
abbrev rnd (x : EReal) : EReal := Ideal.liftRound Ideal.roundHalfEven x

abbrev z0 : EReal := Ideal.ofBits .f32 0x00000000#32
abbrev q15 : EReal := Ideal.ofBits .f32 0x41700000#32
/-- the batch normalisation's ε, the f32 nearest 1e-5 -/
abbrev eps : EReal := Ideal.ofBits .f32 0x3727C5AC#32

theorem z0_eq : z0 = 0 := by simp [z0, Ideal.ofBits, Ideal.ieee]

theorem q15_fin : IsFin q15 := by
  refine ⟨15, ?_⟩
  simp [q15, Ideal.ofBits, Ideal.ieee, -EReal.coe_mul]; norm_num

theorem eps_pos : ∃ e : ℝ, 0 < e ∧ eps = (e : EReal) := by
  refine ⟨(2 : ℝ)⁻¹ ^ 17 * (1 + 2606508 / 8388608), by positivity, ?_⟩
  simp [eps, Ideal.ofBits, Ideal.ieee, -EReal.coe_mul]; norm_num

/-- rsqrt of a positive real is a real. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-! ## The two forms of the layer -/

/-- The activation quantiser: clip(round(h / s), 0, 15) · s. -/
def actQ (h s : EReal) : EReal := min q15 (max z0 (rnd (Ideal.div h s))) * s

theorem actQ_fin (h : EReal) {s : EReal} (hs : IsFin s) : IsFin (actQ h s) :=
  (isFin_clip (z0_eq ▸ IsFin.zero) q15_fin _).mul hs

variable {B K H : ℕ}

/-- The folded form: scale in the weights, shift after the product. -/
def layerK (a : Fin B → Fin K → EReal) (wq : Fin H → Fin K → EReal) (g b m v : Fin H → EReal) (s : EReal)
    (i : Fin B) (j : Fin H) : EReal :=
  actQ (max ((∑ k, a i k * (wq j k * (g j * Ideal.rsqrt (v j + eps)))) + (b j - m j * (g j * Ideal.rsqrt (v j + eps)))) z0) s

/-- The unfolded form, its quantiser written with the straight-through estimator. -/
def layerR (a : Fin B → Fin K → EReal) (wq : Fin H → Fin K → EReal) (g b m v : Fin H → EReal) (s : EReal)
    (i : Fin B) (j : Fin H) : EReal :=
  max (g j * ((∑ k, a i k * wq j k) - m j) * Ideal.rsqrt (v j + eps) + b j) z0
    + (actQ (max (g j * ((∑ k, a i k * wq j k) - m j) * Ideal.rsqrt (v j + eps) + b j) z0) s
        - max (g j * ((∑ k, a i k * wq j k) - m j) * Ideal.rsqrt (v j + eps) + b j) z0)

theorem layerK_fin (a : Fin B → Fin K → EReal) (wq : Fin H → Fin K → EReal) (g b m v : Fin H → EReal) {s : EReal}
    (hs : IsFin s) (i : Fin B) (j : Fin H) : IsFin (layerK a wq g b m v s i j) := actQ_fin _ hs

/-- Distributing the normalisation over the product, on the reals. -/
theorem fold_real {ι : Type*} [Fintype ι] (a w : ι → ℝ) (g m r b : ℝ) :
    g * ((∑ k, a k * w k) - m) * r + b = (∑ k, a k * (w k * (g * r))) + (b - m * (g * r)) := by
  have h : ∑ k, a k * (w k * (g * r)) = (∑ k, a k * w k) * (g * r) := by
    rw [Finset.sum_mul]; exact Finset.sum_congr rfl (fun k _ => by ring)
  rw [h]; ring

/-- THE LAW: on real operands with a non-negative variance the unfolded layer is the folded one. -/
theorem layer_eq (a : Fin B → Fin K → EReal) (wq : Fin H → Fin K → EReal) (g b m v : Fin H → EReal) (s : EReal)
    (ha : ∀ i k, IsFin (a i k)) (hw : ∀ j k, IsFin (wq j k)) (hg : ∀ j, IsFin (g j)) (hb : ∀ j, IsFin (b j))
    (hm : ∀ j, IsFin (m j)) (hv : ∀ j, IsFin (v j)) (hv0 : ∀ j, 0 ≤ v j) (i : Fin B) (j : Fin H) :
    layerR a wq g b m v s i j = layerK a wq g b m v s i j := by
  obtain ⟨g', hg'⟩ := hg j; obtain ⟨b', hb'⟩ := hb j; obtain ⟨m', hm'⟩ := hm j; obtain ⟨v', hv'⟩ := hv j
  obtain ⟨e, he, hee⟩ := eps_pos
  choose a' ha' using ha
  choose w' hw' using hw
  have hv0' : 0 ≤ v' := by have := hv0 j; rw [hv'] at this; exact_mod_cast this
  have hr : Ideal.rsqrt (v j + eps) = (((Real.sqrt (v' + e))⁻¹ : ℝ) : EReal) := by
    rw [hv', hee, ← EReal.coe_add]; exact rsqrt_pos (by linarith)
  have hsum1 : (∑ k, a i k * wq j k) = ((∑ k, a' i k * w' j k : ℝ) : EReal) := by
    rw [← coe_sum]; exact Finset.sum_congr rfl (fun k _ => by rw [ha', hw', EReal.coe_mul])
  have hsum2 : (∑ k, a i k * (wq j k * (g j * Ideal.rsqrt (v j + eps))))
      = ((∑ k, a' i k * (w' j k * (g' * (Real.sqrt (v' + e))⁻¹)) : ℝ) : EReal) := by
    rw [← coe_sum]; exact Finset.sum_congr rfl (fun k _ => by rw [ha', hw', hg', hr]; norm_cast)
  have hin : g j * ((∑ k, a i k * wq j k) - m j) * Ideal.rsqrt (v j + eps) + b j
      = (∑ k, a i k * (wq j k * (g j * Ideal.rsqrt (v j + eps)))) + (b j - m j * (g j * Ideal.rsqrt (v j + eps))) := by
    rw [hsum1, hsum2, hr, hg', hb', hm']
    norm_cast
    exact fold_real (a' i) (w' j) g' m' _ b'
  have hfin : IsFin (max ((∑ k, a i k * (wq j k * (g j * Ideal.rsqrt (v j + eps)))) + (b j - m j * (g j * Ideal.rsqrt (v j + eps)))) z0) := by
    refine IsFin.max ?_ (z0_eq ▸ IsFin.zero)
    rw [hsum2, hr, hg', hb', hm']
    exact (IsFin.coe _).add ((IsFin.coe _).sub ((IsFin.coe _).mul ((IsFin.coe _).mul (IsFin.coe _))))
  unfold layerR layerK
  rw [hin]
  exact ste_cancel hfin _

end Cert.QuantLayer

end
-- ==== Proof.PreFacts.lean ====
/-
  The precondition, read back as facts about the argument arrays at the ideal instance (extended reals).

  The precondition is the conjunction, over the twenty-one float arguments a, of  all(|a| < +∞),  and then of
  all(a ≥ 0)  for the three variance arguments. It is stated as: that conjunction, a single bit, equals 1.

  * A bit  c ∧ d  is 1 exactly when both are, so the 24 conjuncts hold one by one.
  * An  all(p)  that is 1 had p = 1 at every index (the fold by ∧ from 1 met only 1s).
  * At one element:  +∞'s pattern denotes ⊤, and  |x| = max x (−x)  is ⊤ at both infinities, so  |x| < ⊤  leaves
    only the reals; the zero pattern denotes 0 and  x ≥ 0  is the order of the extended reals.
-/
import proofs.«116421_j48893907697790_1_alg».proof.Pre_finite_inputs
import proofs.«116421_j48893907697790_1_alg».proof.Proof.LibQuantLayer
import Idealize.ShloMosaic.Lib.ReduceAll
import Idealize.ShloMosaic.Lib.ValueIdx

noncomputable section

namespace Cert.PreFacts

open Idealize.ShloMosaic Cert.QuantLayer
open Cert.Pre_finite_inputs (S_)

/-- The scalar shape has one index. -/
instance : Subsingleton S_.Idx := ⟨fun a b => funext fun d => d.elim0⟩

/-! ## One element -/

/-- The pattern of +∞ denotes the top of the extended reals. -/
theorem inf_eq_top : Ideal.ofBits .f32 0x7F800000#32 = (⊤ : EReal) := by simp [Ideal.ofBits, Ideal.ieee]

/-- The zero pattern denotes 0. -/
theorem zero_eq : Ideal.ofBits .f32 0x00000000#32 = (0 : EReal) := by simp [Ideal.ofBits, Ideal.ieee]

/-- |x| < +∞ leaves only the reals: |x| = max x (−x) is ⊤ at −∞ and at +∞. -/
theorem isFin_of_abs_lt_top (x : EReal) (h : Ideal.cmp .olt (max x (-x)) ⊤ = 1#1) : IsFin x := by
  induction x using EReal.rec with
  | bot => simp [Ideal.cmp] at h
  | top => simp [Ideal.cmp] at h
  | coe r => exact ⟨r, rfl⟩

/-- x ≥ 0 as a comparison bit is the order of the extended reals. -/
theorem nonneg_of_oge_zero (x : EReal) (h : Ideal.cmp .oge x (Ideal.ofBits .f32 0x00000000#32) = 1#1) : 0 ≤ x := by
  rw [zero_eq] at h
  by_contra hn
  simp [Ideal.cmp, hn] at h

/-! ## One conjunct: all(·) over an array -/

/-- all(|a| < +∞) = 1, the bound broadcast from a scalar: every entry of a is a real. -/
theorem all_lt_inf {s : Shape} {axes : List (Fin s.rank)} (a : FVec Ideal s .f32)
    (d : Fin S_.rank → Fin s.rank) (hb : S_.BroadcastsInDim s d) (hr : s.ReducesTo axes S_) (hu : 0 < S_.numel)
    (e : Host.reduce IntOp.andi
          (cmpf .olt (Host.absf a) (broadcastInDim s d hb (constant (F := Ideal) S_ .f32 0x7F800000#32)))
          (constantI S_ 1 1#1) hr hu ValueIdx.ix0 = 1#1) (i : s.Idx) : IsFin (a i) := by
  have h := Host.reduce_andi_all _ _ hr hu _ e i
  have h' : Ideal.cmp .olt (max (a i) (-(a i))) (Ideal.ofBits .f32 0x7F800000#32) = 1#1 := h
  rw [inf_eq_top] at h'
  exact isFin_of_abs_lt_top _ h'

/-- The same for a scalar argument (no broadcast of the bound). -/
theorem all_lt_inf0 (a : FVec Ideal S_ .f32) (hr : S_.ReducesTo [] S_) (hu : 0 < S_.numel)
    (e : Host.reduce IntOp.andi
          (cmpf .olt (Host.absf a) (constant (F := Ideal) S_ .f32 0x7F800000#32))
          (constantI S_ 1 1#1) hr hu ValueIdx.ix0 = 1#1) (i : S_.Idx) : IsFin (a i) := by
  have h := Host.reduce_andi_all _ _ hr hu _ e i
  have h' : Ideal.cmp .olt (max (a i) (-(a i))) (Ideal.ofBits .f32 0x7F800000#32) = 1#1 := h
  rw [inf_eq_top] at h'
  exact isFin_of_abs_lt_top _ h'

/-- all(a ≥ 0) = 1, the zero broadcast from a scalar: every entry of a is non-negative. -/
theorem all_ge_zero {s : Shape} {axes : List (Fin s.rank)} (a : FVec Ideal s .f32)
    (d : Fin S_.rank → Fin s.rank) (hb : S_.BroadcastsInDim s d) (hr : s.ReducesTo axes S_) (hu : 0 < S_.numel)
    (e : Host.reduce IntOp.andi
          (cmpf .oge a (broadcastInDim s d hb (constant (F := Ideal) S_ .f32 0x00000000#32)))
          (constantI S_ 1 1#1) hr hu ValueIdx.ix0 = 1#1) (i : s.Idx) : (0 : EReal) ≤ a i := by
  have h := Host.reduce_andi_all _ _ hr hu _ e i
  exact nonneg_of_oge_zero _ h

/-! ## The whole precondition -/

/-- What the precondition says of the arguments: every entry a real, the three variances non-negative. -/
structure Facts (a0 : FVec Ideal Cert.Pre_finite_inputs.S4096x49x40 .f32) (a1 : FVec Ideal Cert.Pre_finite_inputs.S4096x1960 .f32) (a2 : FVec Ideal Cert.Pre_finite_inputs.S4096x4096 .f32) (a3 : FVec Ideal Cert.Pre_finite_inputs.S4096x4096 .f32) (a4 : FVec Ideal Cert.Pre_finite_inputs.S12x4096 .f32) (a5 : FVec Ideal Cert.Pre_finite_inputs.S4096 .f32) (a6 : FVec Ideal Cert.Pre_finite_inputs.S4096 .f32) (a7 : FVec Ideal Cert.Pre_finite_inputs.S4096 .f32) (a8 : FVec Ideal Cert.Pre_finite_inputs.S4096 .f32) (a9 : FVec Ideal Cert.Pre_finite_inputs.S4096 .f32) (a10 : FVec Ideal Cert.Pre_finite_inputs.S4096 .f32) (a11 : FVec Ideal Cert.Pre_finite_inputs.S4096 .f32) (a12 : FVec Ideal Cert.Pre_finite_inputs.S4096 .f32) (a13 : FVec Ideal Cert.Pre_finite_inputs.S4096 .f32) (a14 : FVec Ideal Cert.Pre_finite_inputs.S4096 .f32) (a15 : FVec Ideal Cert.Pre_finite_inputs.S4096 .f32) (a16 : FVec Ideal Cert.Pre_finite_inputs.S4096 .f32) (a17 : FVec Ideal Cert.Pre_finite_inputs.S_ .f32) (a18 : FVec Ideal Cert.Pre_finite_inputs.S_ .f32) (a19 : FVec Ideal Cert.Pre_finite_inputs.S_ .f32) (a20 : FVec Ideal Cert.Pre_finite_inputs.S_ .f32) : Prop where
  f0 : ∀ i, IsFin (a0 i)
  f1 : ∀ i, IsFin (a1 i)
  f2 : ∀ i, IsFin (a2 i)
  f3 : ∀ i, IsFin (a3 i)
  f4 : ∀ i, IsFin (a4 i)
  f5 : ∀ i, IsFin (a5 i)
  f6 : ∀ i, IsFin (a6 i)
  f7 : ∀ i, IsFin (a7 i)
  f8 : ∀ i, IsFin (a8 i)
  f9 : ∀ i, IsFin (a9 i)
  f10 : ∀ i, IsFin (a10 i)
  f11 : ∀ i, IsFin (a11 i)
  f12 : ∀ i, IsFin (a12 i)
  f13 : ∀ i, IsFin (a13 i)
  f14 : ∀ i, IsFin (a14 i)
  f15 : ∀ i, IsFin (a15 i)
  f16 : ∀ i, IsFin (a16 i)
  f17 : ∀ i, IsFin (a17 i)
  f18 : ∀ i, IsFin (a18 i)
  f19 : ∀ i, IsFin (a19 i)
  f20 : ∀ i, IsFin (a20 i)
  nn8 : ∀ i, (0 : EReal) ≤ a8 i
  nn12 : ∀ i, (0 : EReal) ≤ a12 i
  nn16 : ∀ i, (0 : EReal) ≤ a16 i

variable [Cert.Pre_finite_inputs.Facts]

open Cert.Pre_finite_inputs (fn fn_part1 fn_part2 fn_part3 fn_part4 fn_part5 fn_part6) in
/-- The precondition, all ones, gives the facts. -/
theorem facts_of_pre (a0 : FVec Ideal Cert.Pre_finite_inputs.S4096x49x40 .f32) (a1 : FVec Ideal Cert.Pre_finite_inputs.S4096x1960 .f32) (a2 : FVec Ideal Cert.Pre_finite_inputs.S4096x4096 .f32) (a3 : FVec Ideal Cert.Pre_finite_inputs.S4096x4096 .f32) (a4 : FVec Ideal Cert.Pre_finite_inputs.S12x4096 .f32) (a5 : FVec Ideal Cert.Pre_finite_inputs.S4096 .f32) (a6 : FVec Ideal Cert.Pre_finite_inputs.S4096 .f32) (a7 : FVec Ideal Cert.Pre_finite_inputs.S4096 .f32) (a8 : FVec Ideal Cert.Pre_finite_inputs.S4096 .f32) (a9 : FVec Ideal Cert.Pre_finite_inputs.S4096 .f32) (a10 : FVec Ideal Cert.Pre_finite_inputs.S4096 .f32) (a11 : FVec Ideal Cert.Pre_finite_inputs.S4096 .f32) (a12 : FVec Ideal Cert.Pre_finite_inputs.S4096 .f32) (a13 : FVec Ideal Cert.Pre_finite_inputs.S4096 .f32) (a14 : FVec Ideal Cert.Pre_finite_inputs.S4096 .f32) (a15 : FVec Ideal Cert.Pre_finite_inputs.S4096 .f32) (a16 : FVec Ideal Cert.Pre_finite_inputs.S4096 .f32) (a17 : FVec Ideal Cert.Pre_finite_inputs.S_ .f32) (a18 : FVec Ideal Cert.Pre_finite_inputs.S_ .f32) (a19 : FVec Ideal Cert.Pre_finite_inputs.S_ .f32) (a20 : FVec Ideal Cert.Pre_finite_inputs.S_ .f32)
    (h : Cert.Pre_finite_inputs.fn (F := Ideal) a0 a1 a2 a3 a4 a5 a6 a7 a8 a9 a10 a11 a12 a13 a14 a15 a16 a17 a18 a19 a20 = fun _ => 1#1) :
    Facts a0 a1 a2 a3 a4 a5 a6 a7 a8 a9 a10 a11 a12 a13 a14 a15 a16 a17 a18 a19 a20 := by
  have h0 := congrFun h ValueIdx.ix0
  dsimp only [fn, fn_part1, fn_part2, fn_part3, fn_part4, fn_part5, fn_part6, andi] at h0
  simp only [IntOp.andi_eq_one] at h0
  obtain ⟨⟨⟨⟨⟨⟨⟨⟨⟨⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩, c15⟩, c16⟩, c17⟩, c18⟩, c19⟩, c20⟩, n8⟩, n12⟩, n16⟩ := h0
  exact ⟨all_lt_inf _ _ _ _ _ c0, all_lt_inf _ _ _ _ _ c1, all_lt_inf _ _ _ _ _ c2, all_lt_inf _ _ _ _ _ c3, all_lt_inf _ _ _ _ _ c4, all_lt_inf _ _ _ _ _ c5, all_lt_inf _ _ _ _ _ c6, all_lt_inf _ _ _ _ _ c7, all_lt_inf _ _ _ _ _ c8, all_lt_inf _ _ _ _ _ c9, all_lt_inf _ _ _ _ _ c10, all_lt_inf _ _ _ _ _ c11, all_lt_inf _ _ _ _ _ c12, all_lt_inf _ _ _ _ _ c13, all_lt_inf _ _ _ _ _ c14, all_lt_inf _ _ _ _ _ c15, all_lt_inf _ _ _ _ _ c16, all_lt_inf0 _ _ _ c17, all_lt_inf0 _ _ _ c18, all_lt_inf0 _ _ _ c19, all_lt_inf0 _ _ _ c20,
    all_ge_zero _ _ _ _ _ n8, all_ge_zero _ _ _ _ _ n12, all_ge_zero _ _ _ _ _ n16⟩

end Cert.PreFacts

end
-- ==== Proof.NetSpec.lean ====
/-
  The network both programs compute, as ONE function of the argument arrays at the ideal instance.

  The quantised input and the quantised weights are taken as the reference's own stages BEFORE its straight-through
  step (the value  clip(round(x / s + 128), 0, 255) − 128) · s  of the input, and  clip(round(W / s_row), −7, 7) · s_row
  of each hidden weight, clip(round(W / s_all), −127, 127) · s_all  of the output weight): the kernel's host program
  computes the same terms. Over them: three folded layers (`Cert.QuantLayer.layerK`) and a final product
  out[i, c] = Σ_k h3[i, k] · wqo[c, k].
-/
import proofs.«116421_j48893907697790_1_alg».proof.Proof.Gen.ReferenceIdeal.Read
import proofs.«116421_j48893907697790_1_alg».proof.Proof.LibQuantLayer

noncomputable section

namespace Cert.NetSpec

open Cert.ReferenceIdeal Cert.ReferenceIdeal.Read Cert.QuantLayer Idealize.ShloMosaic Idealize.ShloMosaic.ValueIdx

variable (x0 : S4096x49x40.Idx → EReal) (x1 : S4096x1960.Idx → EReal) (x2 x3 : S4096x4096.Idx → EReal)
  (x4 : S12x4096.Idx → EReal) (x5 x6 x7 x8 x9 x10 x11 x12 x13 x14 x15 x16 : S4096.Idx → EReal)
  (x17 x18 x19 x20 : S_.Idx → EReal)

/-- The quantised input, flattened: sample `i`, feature `k` (feature k of a sample is entry (k / 40, k % 40)). -/
def actIn : Fin 4096 → Fin 1960 → EReal := fun i k => val_main_v9 (F := Ideal) x0 x17 (idx_main_v12 (ix2 i k))

/-- The quantised weights, output channel `j` (or class `c`), input `k`. -/
def wq1 : Fin 4096 → Fin 1960 → EReal := fun j k => val_main_v25 (F := Ideal) x1 (ix2 j k)
def wq2 : Fin 4096 → Fin 4096 → EReal := fun j k => val_main_v66 (F := Ideal) x2 (ix2 j k)
def wq3 : Fin 4096 → Fin 4096 → EReal := fun j k => val_main_v107 (F := Ideal) x3 (ix2 j k)
def wqo : Fin 12 → Fin 4096 → EReal := fun c k => val_main_v145 (F := Ideal) x4 (ix2 c k)

/-- A per-channel parameter vector read at a channel. -/
def vec (x : S4096.Idx → EReal) : Fin 4096 → EReal := fun j => x (ix1 j)

def h1 : Fin 4096 → Fin 4096 → EReal :=
  layerK (actIn x0 x17) (wq1 x1) (vec x5) (vec x6) (vec x7) (vec x8) (x18 ix0)
def h2 : Fin 4096 → Fin 4096 → EReal :=
  layerK (h1 x0 x1 x5 x6 x7 x8 x17 x18) (wq2 x2) (vec x9) (vec x10) (vec x11) (vec x12) (x19 ix0)
def h3 : Fin 4096 → Fin 4096 → EReal :=
  layerK (h2 x0 x1 x2 x5 x6 x7 x8 x9 x10 x11 x12 x17 x18 x19) (wq3 x3) (vec x13) (vec x14) (vec x15) (vec x16) (x20 ix0)

/-- The network's output: sample `i`, class `c`. -/
def net : Fin 4096 → Fin 12 → EReal := fun i c =>
  ∑ k, h3 x0 x1 x2 x3 x5 x6 x7 x8 x9 x10 x11 x12 x13 x14 x15 x16 x17 x18 x19 x20 i k * wqo x4 c k

end Cert.NetSpec

end
-- ==== Proof.RefValue.lean ====
/-
  The reference, read as the network of `Cert.NetSpec`.

  The reference is the input quantiser, three blocks  "quantise the weights, product, batch normalisation, relu,
  activation quantiser"  and an output product. Each quantiser is written with a straight-through estimator
  x + (q − x), which is q as soon as x is a real number; each block, read at an entry, is the unfolded layer
  `Cert.QuantLayer.layerR` over the incoming activation and the block's weights, and the layer law turns it into the
  folded layer `layerK` once every operand is real and the variance is non-negative. What has to be real: the
  arguments (hypotheses); the quantised input and weights (a clipped value times a real scale; a weight's scale
  is  max(rowmax / 7, 1e-8)  and a row maximum of real entries taken from −∞ is below +∞); the activations after
  the first block (a folded layer's output is a clipped value times the real activation scale).
-/
import proofs.«116421_j48893907697790_1_alg».proof.Proof.NetSpec

noncomputable section

namespace Cert.RefValue

open Cert.ReferenceIdeal Cert.ReferenceIdeal.Read Cert.QuantLayer Cert.NetSpec Idealize.ShloMosaic Idealize.ShloMosaic.ValueIdx

/-! ## Small facts on the extended reals -/

theorem max_ne_top {x y : EReal} (hx : x ≠ ⊤) (hy : y ≠ ⊤) : max x y ≠ ⊤ := by
  rcases le_total x y with h | h
  · rw [max_eq_right h]; exact hy
  · rw [max_eq_left h]; exact hx

/-- Anything below +∞ times a positive real stays below +∞. -/
theorem mul_coe_ne_top {M : EReal} (hM : M ≠ ⊤) {c : ℝ} (hc : 0 < c) : M * (c : EReal) ≠ ⊤ := by
  induction M using EReal.rec with
  | bot => rw [EReal.bot_mul_coe_of_pos hc]; exact bot_ne_top
  | top => exact absurd rfl hM
  | coe r => rw [← EReal.coe_mul]; exact EReal.coe_ne_top _

/-- A running maximum that starts below +∞ over values below +∞ ends below +∞. -/
theorem fold_max_ne_top {ι : Type} (s : Finset ι) (b : EReal) (f : ι → EReal) (hb : b ≠ ⊤) (hf : ∀ k, f k ≠ ⊤) :
    s.fold (FloatOps.maximumf (F := Ideal) (φ := .f32)) b f ≠ ⊤ := by
  classical
  induction s using Finset.induction_on with
  | empty => rw [Finset.fold_empty]; exact hb
  | insert a s ha ih => rw [Finset.fold_insert ha]; exact max_ne_top (hf a) ih

/-- |r| of a real is below +∞. -/
theorem abs_ne_top {x : EReal} (hx : IsFin x) : FloatOps.hostAbsf (F := Ideal) (φ := .f32) x ≠ ⊤ := by
  obtain ⟨r, rfl⟩ := hx
  show max (r : EReal) (-(r : EReal)) ≠ ⊤
  exact max_ne_top (EReal.coe_ne_top r) (by rw [← EReal.coe_neg]; exact EReal.coe_ne_top _)

/-! ## The literals of the quantisers, as the reals their patterns denote -/

theorem lit_ninf : Ideal.ofBits .f32 0xFF800000#32 = ⊥ := by simp [Ideal.ofBits, Ideal.ieee]

theorem lit128_fin : IsFin (Ideal.ofBits .f32 0x43000000#32) := by
  refine ⟨128, ?_⟩
  simp [Ideal.ofBits, Ideal.ieee, -EReal.coe_mul]; norm_num

theorem lit255_fin : IsFin (Ideal.ofBits .f32 0x437F0000#32) := by
  refine ⟨255, ?_⟩
  simp [Ideal.ofBits, Ideal.ieee, -EReal.coe_mul]; norm_num

theorem lit7 : Ideal.ofBits .f32 0x40E00000#32 = ((7 : ℝ) : EReal) := by
  simp [Ideal.ofBits, Ideal.ieee, -EReal.coe_mul]; norm_num

theorem litm7_fin : IsFin (Ideal.ofBits .f32 0xC0E00000#32) := by
  refine ⟨-7, ?_⟩
  simp [Ideal.ofBits, Ideal.ieee, -EReal.coe_mul]; norm_num

/-- the floor 1e-8 of a weight scale -/
theorem littiny_fin : IsFin (Ideal.ofBits .f32 0x322BCC77#32) := by
  refine ⟨(2 : ℝ)⁻¹ ^ 27 * (1 + 2870391 / 8388608), ?_⟩
  simp [Ideal.ofBits, Ideal.ieee, -EReal.coe_mul]; norm_num

/-- A row maximum of reals, divided by 7, is below +∞. -/
theorem div7_ne_top {M : EReal} (hM : M ≠ ⊤) : Ideal.div M (Ideal.ofBits .f32 0x40E00000#32) ≠ ⊤ := by
  rw [lit7, Ideal.div_coe (by norm_num)]
  exact mul_coe_ne_top hM (by norm_num)

theorem lit7_fin : IsFin (Ideal.ofBits .f32 0x40E00000#32) := ⟨7, lit7⟩

theorem lit0_fin : IsFin (Ideal.ofBits .f32 0x00000000#32) := by
  rw [show Ideal.ofBits .f32 0x00000000#32 = 0 from z0_eq]; exact IsFin.zero

variable (x0 : S4096x49x40.Idx → EReal) (x1 : S4096x1960.Idx → EReal) (x2 x3 : S4096x4096.Idx → EReal)
  (x4 : S12x4096.Idx → EReal) (x5 x6 x7 x8 x9 x10 x11 x12 x13 x14 x15 x16 : S4096.Idx → EReal)
  (x17 x18 x19 x20 : S_.Idx → EReal)

/-! ## The input quantiser -/

/-- The straight-through step of the input:  x + (q − x) = q  on a real input; the reshape reads the flattened entry. -/
theorem act_in (f0 : ∀ i, IsFin (x0 i)) (i : Fin 4096) (k : Fin 1960) :
    val_main_v12 (F := Ideal) x0 x17 (ix2 i k) = actIn x0 x17 i k := by
  rw [val_main_v12_apply, val_main_v11_apply, val_main_v10_apply, Ideal.addf_def, Ideal.subf_def]
  exact ste_cancel (f0 _) _

/-- The quantised input is real:  (clip(·, 0, 255) − 128) · s  with a real scale. -/
theorem actIn_fin (f17 : ∀ i, IsFin (x17 i)) (i : Fin 4096) (k : Fin 1960) : IsFin (actIn x0 x17 i k) := by
  unfold actIn
  rw [val_main_v9_apply, val_main_v7_apply, val_main_v5_apply, val_main_call1_v4_apply, val_main_call1_v3_apply, val_main_cst_1_apply,
    val_main_call1_v2_apply, val_main_call1_v1_apply, val_main_call1_v0_apply, val_main_cst_0_apply, val_main_v6_apply, val_main_cst_2_apply,
    val_main_v8_apply]
  simp only [Ideal.mulf_def, Ideal.subf_def, Ideal.minimumf_def, Ideal.maximumf_def, Ideal.ofBits_def]
  exact ((isFin_clip lit0_fin lit255_fin _).sub lit128_fin).mul (f17 _)

/-! ## Block 1 -/

/-- The straight-through step of the weights:  W + (q − W) = q  on real weights. -/
theorem w_st1 (f1 : ∀ i, IsFin (x1 i)) (j : Fin 4096) (k : Fin 1960) :
    val_main_v27 (F := Ideal) x1 (ix2 j k) = wq1 x1 j k := by
  rw [val_main_v27_apply, val_main_v26_apply, Ideal.addf_def, Ideal.subf_def]
  exact ste_cancel (f1 _) _

/-- A row maximum of |W|, taken from −∞ over real entries, is below +∞. -/
theorem rowmax1 (f1 : ∀ i, IsFin (x1 i)) (j : S4096.Idx) : val_main_v14 (F := Ideal) x1 j ≠ ⊤ := by
  unfold val_main_v14
  have h : S4096x1960.Reduces [1] S4096 := by decide
  rw [Host.reduce_eq_fold_single (FloatOps.maximumf (F := Ideal) (φ := .f32)) _ _ Facts₀.reducesTo_S4096x1960_S4096_d1 h Facts₀.h_S_]
  refine fold_max_ne_top _ _ _ ?_ (fun k => ?_)
  · rw [val_main_cst_3_apply, Ideal.ofBits_def, lit_ninf]; exact bot_ne_top
  · show FloatOps.hostAbsf (F := Ideal) (φ := .f32) (x1 _) ≠ ⊤
    exact abs_ne_top (f1 _)

/-- The quantised weights are real: a clipped value times a real scale  max(rowmax / 7, 1e-8). -/
theorem wq1_fin (f1 : ∀ i, IsFin (x1 i)) (j : Fin 4096) (k : Fin 1960) : IsFin (wq1 x1 j k) := by
  unfold wq1
  rw [val_main_v25_apply, val_main_v23_apply, val_main_call3_v4_apply, val_main_call3_v3_apply, val_main_cst_7_apply,
    val_main_call3_v2_apply, val_main_call3_v1_apply, val_main_call3_v0_apply, val_main_cst_6_apply,
    val_main_v24_apply, val_main_v19_apply, val_main_v17_apply, val_main_v18_apply, val_main_cst_5_apply, val_main_v16_apply, val_main_cst_4_apply, val_main_v15_apply]
  simp only [Ideal.mulf_def, Ideal.minimumf_def, Ideal.maximumf_def, Ideal.hostDivf_def, Ideal.ofBits_def]
  exact (isFin_clip litm7_fin lit7_fin _).mul (isFin_max_of_ne_top (div7_ne_top (rowmax1 x1 f1 _)) littiny_fin)

/-- Reading block 1 at an entry: the unfolded layer over the incoming activation and the weights after their
    straight-through step. No finiteness is used. -/
theorem read1 (i j : Fin 4096) :
    val_main_v53 (F := Ideal) x0 x1 x5 x6 x7 x8 x17 x18 (ix2 i j)
      = layerR (fun (i : Fin 4096) (k : Fin 1960) => val_main_v12 (F := Ideal) x0 x17 (ix2 i k))
          (fun (j : Fin 4096) (k : Fin 1960) => val_main_v27 (F := Ideal) x1 (ix2 j k))
          (vec x5) (vec x6) (vec x7) (vec x8) (x18 ix0) i j := by
  have hdot : val_main_v29 (F := Ideal) x0 x1 x17 (ix2 i j)
      = ∑ k : Fin 1960, val_main_v12 (F := Ideal) x0 x17 (ix2 i k) * val_main_v27 (F := Ideal) x1 (ix2 j k) := by
    rw [val_main_v29_apply]
    refine Finset.sum_congr rfl fun k _ => ?_
    rw [val_main_v28_apply]
    have el : lidx_main_v29 (ix2 i j) k = ix2 i k := funext fun a => match a with | ⟨0, _⟩ => rfl | ⟨1, _⟩ => rfl
    have er : idx_main_v28 (ridx_main_v29 (ix2 i j) k) = ix2 j k := funext fun a => match a with | ⟨0, _⟩ => rfl | ⟨1, _⟩ => rfl
    rw [el, er]
  have hm : val_main_v31 (F := Ideal) x7 (ix2 i j) = x7 (ix1 j) := by
    rw [val_main_v31_apply, val_main_v30_apply]; exact congrArg x7 (funext fun a => match a with | ⟨0, _⟩ => rfl)
  have hg : val_main_v34 (F := Ideal) x5 (ix2 i j) = x5 (ix1 j) := by
    rw [val_main_v34_apply, val_main_v33_apply]; exact congrArg x5 (funext fun a => match a with | ⟨0, _⟩ => rfl)
  have hb : val_main_v43 (F := Ideal) x6 (ix2 i j) = x6 (ix1 j) := by
    rw [val_main_v43_apply, val_main_v42_apply]; exact congrArg x6 (funext fun a => match a with | ⟨0, _⟩ => rfl)
  have hr : val_main_v40 (F := Ideal) x8 (ix2 i j) = Ideal.rsqrt (x8 (ix1 j) + eps) := by
    rw [val_main_v40_apply, val_main_v39_apply, val_main_v38_apply, val_main_v37_apply, val_main_v36_apply, val_main_cst_8_apply]
    have e : idx_main_v39 (idx_main_v40 (ix2 i j)) = ix1 j := funext fun a => match a with | ⟨0, _⟩ => rfl
    rw [e]; rfl
  have hz : val_main_call4_v0 (F := Ideal) (ix2 i j) = z0 := by
    rw [val_main_call4_v0_apply, val_main_call4_cst_apply]; rfl
  have hs1 : val_main_v46 (F := Ideal) x18 (ix2 i j) = x18 ix0 := by
    rw [val_main_v46_apply]
  have hs2 : val_main_v50 (F := Ideal) x18 (ix2 i j) = x18 ix0 := by
    rw [val_main_v50_apply]
  have hlo : val_main_call6_v1 (F := Ideal) (ix2 i j) = z0 := by
    rw [val_main_call6_v1_apply, val_main_call6_v0_apply, val_main_cst_9_apply]; rfl
  have hhi : val_main_call6_v4 (F := Ideal) (ix2 i j) = q15 := by
    rw [val_main_call6_v4_apply, val_main_call6_v3_apply, val_main_cst_10_apply]; rfl
  unfold layerR actQ vec
  rw [val_main_v53_apply, val_main_v52_apply, val_main_v51_apply, val_main_v49_apply, val_main_call6_v2_apply, val_main_v48_apply, val_main_v47_apply,
    val_main_v45_apply, val_main_v44_apply, val_main_v41_apply, val_main_v35_apply, val_main_v32_apply, hdot, hm, hg, hb, hr, hz, hs1, hs2, hlo, hhi]
  rfl

/-- BLOCK 1: on real arguments with a non-negative variance the reference's block is the folded layer. -/
theorem block1 (f0 : ∀ i, IsFin (x0 i)) (f1 : ∀ i, IsFin (x1 i)) (f5 : ∀ i, IsFin (x5 i)) (f6 : ∀ i, IsFin (x6 i)) (f7 : ∀ i, IsFin (x7 i)) (f8 : ∀ i, IsFin (x8 i)) (f17 : ∀ i, IsFin (x17 i)) (nn8 : ∀ i, 0 ≤ x8 i)
    (i j : Fin 4096) :
    val_main_v53 (F := Ideal) x0 x1 x5 x6 x7 x8 x17 x18 (ix2 i j) = h1 x0 x1 x5 x6 x7 x8 x17 x18 i j := by
  have ha : (fun (i : Fin 4096) (k : Fin 1960) => val_main_v12 (F := Ideal) x0 x17 (ix2 i k)) = actIn x0 x17 :=
    funext fun i => funext fun k => act_in x0 x17 f0 i k
  have hw : (fun (j : Fin 4096) (k : Fin 1960) => val_main_v27 (F := Ideal) x1 (ix2 j k)) = wq1 x1 :=
    funext fun j => funext fun k => w_st1 x1 f1 j k
  rw [read1, ha, hw]
  exact layer_eq _ _ _ _ _ _ _ (fun i k => actIn_fin x0 x17 f17 i k) (wq1_fin x1 f1) (fun _ => f5 _) (fun _ => f6 _)
    (fun _ => f7 _) (fun _ => f8 _) (fun _ => nn8 _) i j

/-! ## Block 2 -/

/-- The straight-through step of the weights:  W + (q − W) = q  on real weights. -/
theorem w_st2 (f2 : ∀ i, IsFin (x2 i)) (j : Fin 4096) (k : Fin 4096) :
    val_main_v68 (F := Ideal) x2 (ix2 j k) = wq2 x2 j k := by
  rw [val_main_v68_apply, val_main_v67_apply, Ideal.addf_def, Ideal.subf_def]
  exact ste_cancel (f2 _) _

/-- A row maximum of |W|, taken from −∞ over real entries, is below +∞. -/
theorem rowmax2 (f2 : ∀ i, IsFin (x2 i)) (j : S4096.Idx) : val_main_v55 (F := Ideal) x2 j ≠ ⊤ := by
  unfold val_main_v55
  have h : S4096x4096.Reduces [1] S4096 := by decide
  rw [Host.reduce_eq_fold_single (FloatOps.maximumf (F := Ideal) (φ := .f32)) _ _ Facts₀.reducesTo_S4096x4096_S4096_d1 h Facts₀.h_S_]
  refine fold_max_ne_top _ _ _ ?_ (fun k => ?_)
  · rw [val_main_cst_11_apply, Ideal.ofBits_def, lit_ninf]; exact bot_ne_top
  · show FloatOps.hostAbsf (F := Ideal) (φ := .f32) (x2 _) ≠ ⊤
    exact abs_ne_top (f2 _)

/-- The quantised weights are real: a clipped value times a real scale  max(rowmax / 7, 1e-8). -/
theorem wq2_fin (f2 : ∀ i, IsFin (x2 i)) (j : Fin 4096) (k : Fin 4096) : IsFin (wq2 x2 j k) := by
  unfold wq2
  rw [val_main_v66_apply, val_main_v64_apply, val_main_call8_v4_apply, val_main_call8_v3_apply, val_main_cst_15_apply,
    val_main_call8_v2_apply, val_main_call8_v1_apply, val_main_call8_v0_apply, val_main_cst_14_apply,
    val_main_v65_apply, val_main_v60_apply, val_main_v58_apply, val_main_v59_apply, val_main_cst_13_apply, val_main_v57_apply, val_main_cst_12_apply, val_main_v56_apply]
  simp only [Ideal.mulf_def, Ideal.minimumf_def, Ideal.maximumf_def, Ideal.hostDivf_def, Ideal.ofBits_def]
  exact (isFin_clip litm7_fin lit7_fin _).mul (isFin_max_of_ne_top (div7_ne_top (rowmax2 x2 f2 _)) littiny_fin)

/-- Reading block 2 at an entry: the unfolded layer over the incoming activation and the weights after their
    straight-through step. No finiteness is used. -/
theorem read2 (i j : Fin 4096) :
    val_main_v94 (F := Ideal) x0 x1 x2 x5 x6 x7 x8 x9 x10 x11 x12 x17 x18 x19 (ix2 i j)
      = layerR (fun (i : Fin 4096) (k : Fin 4096) => val_main_v53 (F := Ideal) x0 x1 x5 x6 x7 x8 x17 x18 (ix2 i k))
          (fun (j : Fin 4096) (k : Fin 4096) => val_main_v68 (F := Ideal) x2 (ix2 j k))
          (vec x9) (vec x10) (vec x11) (vec x12) (x19 ix0) i j := by
  have hdot : val_main_v70 (F := Ideal) x0 x1 x2 x5 x6 x7 x8 x17 x18 (ix2 i j)
      = ∑ k : Fin 4096, val_main_v53 (F := Ideal) x0 x1 x5 x6 x7 x8 x17 x18 (ix2 i k) * val_main_v68 (F := Ideal) x2 (ix2 j k) := by
    rw [val_main_v70_apply]
    refine Finset.sum_congr rfl fun k _ => ?_
    rw [val_main_v69_apply]
    have el : lidx_main_v70 (ix2 i j) k = ix2 i k := funext fun a => match a with | ⟨0, _⟩ => rfl | ⟨1, _⟩ => rfl
    have er : idx_main_v69 (ridx_main_v70 (ix2 i j) k) = ix2 j k := funext fun a => match a with | ⟨0, _⟩ => rfl | ⟨1, _⟩ => rfl
    rw [el, er]
  have hm : val_main_v72 (F := Ideal) x11 (ix2 i j) = x11 (ix1 j) := by
    rw [val_main_v72_apply, val_main_v71_apply]; exact congrArg x11 (funext fun a => match a with | ⟨0, _⟩ => rfl)
  have hg : val_main_v75 (F := Ideal) x9 (ix2 i j) = x9 (ix1 j) := by
    rw [val_main_v75_apply, val_main_v74_apply]; exact congrArg x9 (funext fun a => match a with | ⟨0, _⟩ => rfl)
  have hb : val_main_v84 (F := Ideal) x10 (ix2 i j) = x10 (ix1 j) := by
    rw [val_main_v84_apply, val_main_v83_apply]; exact congrArg x10 (funext fun a => match a with | ⟨0, _⟩ => rfl)
  have hr : val_main_v81 (F := Ideal) x12 (ix2 i j) = Ideal.rsqrt (x12 (ix1 j) + eps) := by
    rw [val_main_v81_apply, val_main_v80_apply, val_main_v79_apply, val_main_v78_apply, val_main_v77_apply, val_main_cst_16_apply]
    have e : idx_main_v80 (idx_main_v81 (ix2 i j)) = ix1 j := funext fun a => match a with | ⟨0, _⟩ => rfl
    rw [e]; rfl
  have hz : val_main_call9_v0 (F := Ideal) (ix2 i j) = z0 := by
    rw [val_main_call9_v0_apply, val_main_call9_cst_apply]; rfl
  have hs1 : val_main_v87 (F := Ideal) x19 (ix2 i j) = x19 ix0 := by
    rw [val_main_v87_apply]
  have hs2 : val_main_v91 (F := Ideal) x19 (ix2 i j) = x19 ix0 := by
    rw [val_main_v91_apply]
  have hlo : val_main_call11_v1 (F := Ideal) (ix2 i j) = z0 := by
    rw [val_main_call11_v1_apply, val_main_call11_v0_apply, val_main_cst_17_apply]; rfl
  have hhi : val_main_call11_v4 (F := Ideal) (ix2 i j) = q15 := by
    rw [val_main_call11_v4_apply, val_main_call11_v3_apply, val_main_cst_18_apply]; rfl
  unfold layerR actQ vec
  rw [val_main_v94_apply, val_main_v93_apply, val_main_v92_apply, val_main_v90_apply, val_main_call11_v2_apply, val_main_v89_apply, val_main_v88_apply,
    val_main_v86_apply, val_main_v85_apply, val_main_v82_apply, val_main_v76_apply, val_main_v73_apply, hdot, hm, hg, hb, hr, hz, hs1, hs2, hlo, hhi]
  rfl

/-- BLOCK 2: on real arguments with a non-negative variance the reference's block is the folded layer. -/
theorem block2 (f0 : ∀ i, IsFin (x0 i)) (f1 : ∀ i, IsFin (x1 i)) (f2 : ∀ i, IsFin (x2 i)) (f5 : ∀ i, IsFin (x5 i)) (f6 : ∀ i, IsFin (x6 i)) (f7 : ∀ i, IsFin (x7 i)) (f8 : ∀ i, IsFin (x8 i)) (f9 : ∀ i, IsFin (x9 i)) (f10 : ∀ i, IsFin (x10 i)) (f11 : ∀ i, IsFin (x11 i)) (f12 : ∀ i, IsFin (x12 i)) (f17 : ∀ i, IsFin (x17 i)) (f18 : ∀ i, IsFin (x18 i)) (nn8 : ∀ i, 0 ≤ x8 i) (nn12 : ∀ i, 0 ≤ x12 i)
    (i j : Fin 4096) :
    val_main_v94 (F := Ideal) x0 x1 x2 x5 x6 x7 x8 x9 x10 x11 x12 x17 x18 x19 (ix2 i j) = h2 x0 x1 x2 x5 x6 x7 x8 x9 x10 x11 x12 x17 x18 x19 i j := by
  have ha : (fun (i : Fin 4096) (k : Fin 4096) => val_main_v53 (F := Ideal) x0 x1 x5 x6 x7 x8 x17 x18 (ix2 i k)) = h1 x0 x1 x5 x6 x7 x8 x17 x18 :=
    funext fun i => funext fun k => block1 x0 x1 x5 x6 x7 x8 x17 x18 f0 f1 f5 f6 f7 f8 f17 nn8 i k
  have hw : (fun (j : Fin 4096) (k : Fin 4096) => val_main_v68 (F := Ideal) x2 (ix2 j k)) = wq2 x2 :=
    funext fun j => funext fun k => w_st2 x2 f2 j k
  rw [read2, ha, hw]
  exact layer_eq _ _ _ _ _ _ _ (fun i k => layerK_fin _ _ _ _ _ _ (f18 ix0) i k) (wq2_fin x2 f2) (fun _ => f9 _) (fun _ => f10 _)
    (fun _ => f11 _) (fun _ => f12 _) (fun _ => nn12 _) i j

/-! ## Block 3 -/

/-- The straight-through step of the weights:  W + (q − W) = q  on real weights. -/
theorem w_st3 (f3 : ∀ i, IsFin (x3 i)) (j : Fin 4096) (k : Fin 4096) :
    val_main_v109 (F := Ideal) x3 (ix2 j k) = wq3 x3 j k := by
  rw [val_main_v109_apply, val_main_v108_apply, Ideal.addf_def, Ideal.subf_def]
  exact ste_cancel (f3 _) _

/-- A row maximum of |W|, taken from −∞ over real entries, is below +∞. -/
theorem rowmax3 (f3 : ∀ i, IsFin (x3 i)) (j : S4096.Idx) : val_main_v96 (F := Ideal) x3 j ≠ ⊤ := by
  unfold val_main_v96
  have h : S4096x4096.Reduces [1] S4096 := by decide
  rw [Host.reduce_eq_fold_single (FloatOps.maximumf (F := Ideal) (φ := .f32)) _ _ Facts₀.reducesTo_S4096x4096_S4096_d1 h Facts₀.h_S_]
  refine fold_max_ne_top _ _ _ ?_ (fun k => ?_)
  · rw [val_main_cst_19_apply, Ideal.ofBits_def, lit_ninf]; exact bot_ne_top
  · show FloatOps.hostAbsf (F := Ideal) (φ := .f32) (x3 _) ≠ ⊤
    exact abs_ne_top (f3 _)

/-- The quantised weights are real: a clipped value times a real scale  max(rowmax / 7, 1e-8). -/
theorem wq3_fin (f3 : ∀ i, IsFin (x3 i)) (j : Fin 4096) (k : Fin 4096) : IsFin (wq3 x3 j k) := by
  unfold wq3
  rw [val_main_v107_apply, val_main_v105_apply, val_main_call13_v4_apply, val_main_call13_v3_apply, val_main_cst_23_apply,
    val_main_call13_v2_apply, val_main_call13_v1_apply, val_main_call13_v0_apply, val_main_cst_22_apply,
    val_main_v106_apply, val_main_v101_apply, val_main_v99_apply, val_main_v100_apply, val_main_cst_21_apply, val_main_v98_apply, val_main_cst_20_apply, val_main_v97_apply]
  simp only [Ideal.mulf_def, Ideal.minimumf_def, Ideal.maximumf_def, Ideal.hostDivf_def, Ideal.ofBits_def]
  exact (isFin_clip litm7_fin lit7_fin _).mul (isFin_max_of_ne_top (div7_ne_top (rowmax3 x3 f3 _)) littiny_fin)

/-- Reading block 3 at an entry: the unfolded layer over the incoming activation and the weights after their
    straight-through step. No finiteness is used. -/
theorem read3 (i j : Fin 4096) :
    val_main_v135 (F := Ideal) x0 x1 x2 x3 x5 x6 x7 x8 x9 x10 x11 x12 x13 x14 x15 x16 x17 x18 x19 x20 (ix2 i j)
      = layerR (fun (i : Fin 4096) (k : Fin 4096) => val_main_v94 (F := Ideal) x0 x1 x2 x5 x6 x7 x8 x9 x10 x11 x12 x17 x18 x19 (ix2 i k))
          (fun (j : Fin 4096) (k : Fin 4096) => val_main_v109 (F := Ideal) x3 (ix2 j k))
          (vec x13) (vec x14) (vec x15) (vec x16) (x20 ix0) i j := by
  have hdot : val_main_v111 (F := Ideal) x0 x1 x2 x3 x5 x6 x7 x8 x9 x10 x11 x12 x17 x18 x19 (ix2 i j)
      = ∑ k : Fin 4096, val_main_v94 (F := Ideal) x0 x1 x2 x5 x6 x7 x8 x9 x10 x11 x12 x17 x18 x19 (ix2 i k) * val_main_v109 (F := Ideal) x3 (ix2 j k) := by
    rw [val_main_v111_apply]
    refine Finset.sum_congr rfl fun k _ => ?_
    rw [val_main_v110_apply]
    have el : lidx_main_v111 (ix2 i j) k = ix2 i k := funext fun a => match a with | ⟨0, _⟩ => rfl | ⟨1, _⟩ => rfl
    have er : idx_main_v110 (ridx_main_v111 (ix2 i j) k) = ix2 j k := funext fun a => match a with | ⟨0, _⟩ => rfl | ⟨1, _⟩ => rfl
    rw [el, er]
  have hm : val_main_v113 (F := Ideal) x15 (ix2 i j) = x15 (ix1 j) := by
    rw [val_main_v113_apply, val_main_v112_apply]; exact congrArg x15 (funext fun a => match a with | ⟨0, _⟩ => rfl)
  have hg : val_main_v116 (F := Ideal) x13 (ix2 i j) = x13 (ix1 j) := by
    rw [val_main_v116_apply, val_main_v115_apply]; exact congrArg x13 (funext fun a => match a with | ⟨0, _⟩ => rfl)
  have hb : val_main_v125 (F := Ideal) x14 (ix2 i j) = x14 (ix1 j) := by
    rw [val_main_v125_apply, val_main_v124_apply]; exact congrArg x14 (funext fun a => match a with | ⟨0, _⟩ => rfl)
  have hr : val_main_v122 (F := Ideal) x16 (ix2 i j) = Ideal.rsqrt (x16 (ix1 j) + eps) := by
    rw [val_main_v122_apply, val_main_v121_apply, val_main_v120_apply, val_main_v119_apply, val_main_v118_apply, val_main_cst_24_apply]
    have e : idx_main_v121 (idx_main_v122 (ix2 i j)) = ix1 j := funext fun a => match a with | ⟨0, _⟩ => rfl
    rw [e]; rfl
  have hz : val_main_call14_v0 (F := Ideal) (ix2 i j) = z0 := by
    rw [val_main_call14_v0_apply, val_main_call14_cst_apply]; rfl
  have hs1 : val_main_v128 (F := Ideal) x20 (ix2 i j) = x20 ix0 := by
    rw [val_main_v128_apply]
  have hs2 : val_main_v132 (F := Ideal) x20 (ix2 i j) = x20 ix0 := by
    rw [val_main_v132_apply]
  have hlo : val_main_call16_v1 (F := Ideal) (ix2 i j) = z0 := by
    rw [val_main_call16_v1_apply, val_main_call16_v0_apply, val_main_cst_25_apply]; rfl
  have hhi : val_main_call16_v4 (F := Ideal) (ix2 i j) = q15 := by
    rw [val_main_call16_v4_apply, val_main_call16_v3_apply, val_main_cst_26_apply]; rfl
  unfold layerR actQ vec
  rw [val_main_v135_apply, val_main_v134_apply, val_main_v133_apply, val_main_v131_apply, val_main_call16_v2_apply, val_main_v130_apply, val_main_v129_apply,
    val_main_v127_apply, val_main_v126_apply, val_main_v123_apply, val_main_v117_apply, val_main_v114_apply, hdot, hm, hg, hb, hr, hz, hs1, hs2, hlo, hhi]
  rfl

/-- BLOCK 3: on real arguments with a non-negative variance the reference's block is the folded layer. -/
theorem block3 (f0 : ∀ i, IsFin (x0 i)) (f1 : ∀ i, IsFin (x1 i)) (f2 : ∀ i, IsFin (x2 i)) (f3 : ∀ i, IsFin (x3 i)) (f5 : ∀ i, IsFin (x5 i)) (f6 : ∀ i, IsFin (x6 i)) (f7 : ∀ i, IsFin (x7 i)) (f8 : ∀ i, IsFin (x8 i)) (f9 : ∀ i, IsFin (x9 i)) (f10 : ∀ i, IsFin (x10 i)) (f11 : ∀ i, IsFin (x11 i)) (f12 : ∀ i, IsFin (x12 i)) (f13 : ∀ i, IsFin (x13 i)) (f14 : ∀ i, IsFin (x14 i)) (f15 : ∀ i, IsFin (x15 i)) (f16 : ∀ i, IsFin (x16 i)) (f17 : ∀ i, IsFin (x17 i)) (f18 : ∀ i, IsFin (x18 i)) (f19 : ∀ i, IsFin (x19 i)) (nn8 : ∀ i, 0 ≤ x8 i) (nn12 : ∀ i, 0 ≤ x12 i) (nn16 : ∀ i, 0 ≤ x16 i)
    (i j : Fin 4096) :
    val_main_v135 (F := Ideal) x0 x1 x2 x3 x5 x6 x7 x8 x9 x10 x11 x12 x13 x14 x15 x16 x17 x18 x19 x20 (ix2 i j) = h3 x0 x1 x2 x3 x5 x6 x7 x8 x9 x10 x11 x12 x13 x14 x15 x16 x17 x18 x19 x20 i j := by
  have ha : (fun (i : Fin 4096) (k : Fin 4096) => val_main_v94 (F := Ideal) x0 x1 x2 x5 x6 x7 x8 x9 x10 x11 x12 x17 x18 x19 (ix2 i k)) = h2 x0 x1 x2 x5 x6 x7 x8 x9 x10 x11 x12 x17 x18 x19 :=
    funext fun i => funext fun k => block2 x0 x1 x2 x5 x6 x7 x8 x9 x10 x11 x12 x17 x18 x19 f0 f1 f2 f5 f6 f7 f8 f9 f10 f11 f12 f17 f18 nn8 nn12 i k
  have hw : (fun (j : Fin 4096) (k : Fin 4096) => val_main_v109 (F := Ideal) x3 (ix2 j k)) = wq3 x3 :=
    funext fun j => funext fun k => w_st3 x3 f3 j k
  rw [read3, ha, hw]
  exact layer_eq _ _ _ _ _ _ _ (fun i k => layerK_fin _ _ _ _ _ _ (f19 ix0) i k) (wq3_fin x3 f3) (fun _ => f13 _) (fun _ => f14 _)
    (fun _ => f15 _) (fun _ => f16 _) (fun _ => nn16 _) i j

/-! ## The output layer -/

/-- THE RESULT: on real arguments with non-negative variances the reference is the network `net`. The output weight's
    quantiser is not opened: only its straight-through step is removed. -/
theorem ref_net (f0 : ∀ i, IsFin (x0 i)) (f1 : ∀ i, IsFin (x1 i)) (f2 : ∀ i, IsFin (x2 i)) (f3 : ∀ i, IsFin (x3 i)) (f4 : ∀ i, IsFin (x4 i)) (f5 : ∀ i, IsFin (x5 i)) (f6 : ∀ i, IsFin (x6 i)) (f7 : ∀ i, IsFin (x7 i)) (f8 : ∀ i, IsFin (x8 i)) (f9 : ∀ i, IsFin (x9 i)) (f10 : ∀ i, IsFin (x10 i)) (f11 : ∀ i, IsFin (x11 i)) (f12 : ∀ i, IsFin (x12 i)) (f13 : ∀ i, IsFin (x13 i)) (f14 : ∀ i, IsFin (x14 i)) (f15 : ∀ i, IsFin (x15 i)) (f16 : ∀ i, IsFin (x16 i)) (f17 : ∀ i, IsFin (x17 i)) (f18 : ∀ i, IsFin (x18 i)) (f19 : ∀ i, IsFin (x19 i)) (f20 : ∀ i, IsFin (x20 i))
    (nn8 : ∀ i, 0 ≤ x8 i) (nn12 : ∀ i, 0 ≤ x12 i) (nn16 : ∀ i, 0 ≤ x16 i) (i : Fin 4096) (c : Fin 12) :
    val_main_v149 (F := Ideal) x0 x1 x2 x3 x4 x5 x6 x7 x8 x9 x10 x11 x12 x13 x14 x15 x16 x17 x18 x19 x20 (ix2 i c)
      = net x0 x1 x2 x3 x4 x5 x6 x7 x8 x9 x10 x11 x12 x13 x14 x15 x16 x17 x18 x19 x20 i c := by
  unfold net wqo
  rw [val_main_v149_apply]
  refine Finset.sum_congr rfl fun k _ => ?_
  have el : lidx_main_v149 (ix2 i c) k = ix2 i k := funext fun a => match a with | ⟨0, _⟩ => rfl | ⟨1, _⟩ => rfl
  have er : idx_main_v148 (ridx_main_v149 (ix2 i c) k) = ix2 c k := funext fun a => match a with | ⟨0, _⟩ => rfl | ⟨1, _⟩ => rfl
  rw [val_main_v148_apply, el, er, block3 x0 x1 x2 x3 x5 x6 x7 x8 x9 x10 x11 x12 x13 x14 x15 x16 x17 x18 x19 x20 f0 f1 f2 f3 f5 f6 f7 f8 f9 f10 f11 f12 f13 f14 f15 f16 f17 f18 f19 nn8 nn12 nn16 i k,
    val_main_v147_apply, val_main_v146_apply, Ideal.addf_def, Ideal.subf_def, ste_cancel (f4 _)]

end Cert.RefValue

end
-- ==== Proof.KernelRun.lean ====
/-
  The idealized kernel program's run with its RESULT named.

  The program is four kernel regions among stretches of host operations. Every weakly fair execution terminates
  without a fault, and in every final state each unscoped buffer of each core holds the contents the fold of the
  segments leaves there (`W28`: a stretch of host operations applies them in order; a region leaves in each of its arrays
  what its grid points wrote back, and every other buffer as it found it). In particular the result buffer holds
  `W28 … main_v101` and each argument what it was launched with.
-/
import proofs.«116421_j48893907697790_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the fold's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W28 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h => h)

/-- The result buffer ends at the fold's contents there, and every argument as launched. -/
theorem run_value : θ_run defs (onTc (τ := τ) (main (F := F))) ⟨m, fun _ => 0, ρ⟩ (fun r => ∀ c : Dev nD,
      r.2.mem ((c.tc : Thread nD τ).loc main_v101) = W28 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨h c _ (mem_uc main_v101 (by decide)),
     (h c _ (mem_uc main_arg0 (by decide))).trans (W28_main_arg0 m ρ c),
     (h c _ (mem_uc main_arg1 (by decide))).trans (W28_main_arg1 m ρ c),
     (h c _ (mem_uc main_arg2 (by decide))).trans (W28_main_arg2 m ρ c),
     (h c _ (mem_uc main_arg3 (by decide))).trans (W28_main_arg3 m ρ c),
     (h c _ (mem_uc main_arg4 (by decide))).trans (W28_main_arg4 m ρ c),
     (h c _ (mem_uc main_arg5 (by decide))).trans (W28_main_arg5 m ρ c),
     (h c _ (mem_uc main_arg6 (by decide))).trans (W28_main_arg6 m ρ c),
     (h c _ (mem_uc main_arg7 (by decide))).trans (W28_main_arg7 m ρ c),
     (h c _ (mem_uc main_arg8 (by decide))).trans (W28_main_arg8 m ρ c),
     (h c _ (mem_uc main_arg9 (by decide))).trans (W28_main_arg9 m ρ c),
     (h c _ (mem_uc main_arg10 (by decide))).trans (W28_main_arg10 m ρ c),
     (h c _ (mem_uc main_arg11 (by decide))).trans (W28_main_arg11 m ρ c),
     (h c _ (mem_uc main_arg12 (by decide))).trans (W28_main_arg12 m ρ c),
     (h c _ (mem_uc main_arg13 (by decide))).trans (W28_main_arg13 m ρ c),
     (h c _ (mem_uc main_arg14 (by decide))).trans (W28_main_arg14 m ρ c),
     (h c _ (mem_uc main_arg15 (by decide))).trans (W28_main_arg15 m ρ c),
     (h c _ (mem_uc main_arg16 (by decide))).trans (W28_main_arg16 m ρ c),
     (h c _ (mem_uc main_arg17 (by decide))).trans (W28_main_arg17 m ρ c),
     (h c _ (mem_uc main_arg18 (by decide))).trans (W28_main_arg18 m ρ c),
     (h c _ (mem_uc main_arg19 (by decide))).trans (W28_main_arg19 m ρ c),
     (h c _ (mem_uc main_arg20 (by decide))).trans (W28_main_arg20 m ρ c)⟩) (run_all m ρ)

end Cert.KernelRun

end
-- ==== Proof.KernelSpec.lean ====
/-
  The idealized kernel program's result as an array-level term: what each of its four regions leaves in its output
  array as a function of the region's operand arrays (`G0` … `G3`), and the operand arrays the host operations
  prepare — the flattened quantised input, each quantised weight with the normalisation's scale multiplied into its
  rows, the shift as a row vector, the activation scale as a [1, 1] array. The quantised input and weights are the
  reference's own stages before its straight-through step: the host operations that compute them are the same.
-/
import proofs.«116421_j48893907697790_1_alg».proof.KernelIdeal
import proofs.«116421_j48893907697790_1_alg».proof.Proof.Gen.KernelIdeal
import proofs.«116421_j48893907697790_1_alg».proof.Proof.Gen.ReferenceIdeal.Read
import proofs.«116421_j48893907697790_1_alg».proof.Proof.LibQuantLayer
import Idealize.ShloMosaic.Lib.ValueIdx

noncomputable section

namespace Cert.KernelSpec

open Cert.KernelIdeal Cert.KernelIdeal.Gen Cert.QuantLayer Idealize.ShloMosaic Idealize.ShloMosaic.ValueIdx

/-- Fused block 0's output array as one function of its four operand arrays: entry (r, s) is the quantised relu of
    Σ_k A[r, k] · B[s, k] + C[0, s]. -/
def G0 (A B : S4096x1960.Idx → EReal) (C : S1x4096.Idx → EReal) (D : S1x1.Idx → EReal) : S4096x4096.Idx → EReal :=
  fun ij => actQ (max ((∑ k : Fin 1960, A (ix2 (ij 0) k) * B (ix2 (ij 1) k)) + C (ix2 0 (ij 1))) z0) (D (ix2 0 0))

/-- Fused block 1's output array as one function of its four operand arrays: entry (r, s) is the quantised relu of
    Σ_k A[r, k] · B[s, k] + C[0, s]. -/
def G1 (A B : S4096x4096.Idx → EReal) (C : S1x4096.Idx → EReal) (D : S1x1.Idx → EReal) : S4096x4096.Idx → EReal :=
  fun ij => actQ (max ((∑ k : Fin 4096, A (ix2 (ij 0) k) * B (ix2 (ij 1) k)) + C (ix2 0 (ij 1))) z0) (D (ix2 0 0))

/-- Fused block 2's output array as one function of its four operand arrays: entry (r, s) is the quantised relu of
    Σ_k A[r, k] · B[s, k] + C[0, s]. -/
def G2 (A B : S4096x4096.Idx → EReal) (C : S1x4096.Idx → EReal) (D : S1x1.Idx → EReal) : S4096x4096.Idx → EReal :=
  fun ij => actQ (max ((∑ k : Fin 4096, A (ix2 (ij 0) k) * B (ix2 (ij 1) k)) + C (ix2 0 (ij 1))) z0) (D (ix2 0 0))

/-- The final region's output array: entry (r, c) is  Σ_k A[r, k] · B[c, k]. -/
def G3 (A : S4096x4096.Idx → EReal) (B : S12x4096.Idx → EReal) : S4096x12.Idx → EReal :=
  fun ic => ∑ k : Fin 4096, A (ix2 (ic 0) k) * B (ix2 (ic 1) k)

/-- The normalisation's scale per channel:  g · rsqrt(v + ε). -/
def bnScale (g v : FVec Ideal S4096 .f32) : FVec Ideal S4096 .f32 :=
  mulf g (Host.rsqrt (addf v (broadcastInDim S4096 ![] bcast_S_S4096 (constant S_ .f32 0x3727C5AC#32))))

/-- The normalisation's shift as a row vector:  b − m · scale. -/
def bnShift (b mm g v : FVec Ideal S4096 .f32) : FVec Ideal S1x4096 .f32 :=
  shapeCast S1x4096 (subf b (mulf mm (bnScale g v))) shapeCasts_S4096_S1x4096

/-- A quantised [4096, 1960] weight with each row multiplied by its channel's scale. -/
def foldW1960 (wq : FVec Ideal S4096x1960 .f32) (g v : FVec Ideal S4096 .f32) : FVec Ideal S4096x1960 .bf16 :=
  truncf .bf16 (mulf wq (broadcastInDim S4096x1960 ![0, 1] bcast_S4096x1_S4096x1960_0_1
    (broadcastInDim S4096x1 ![0] bcast_S4096_S4096x1_0 (bnScale g v)))) bitsLt_bf16_f32

/-- The same for a [4096, 4096] weight. -/
def foldW4096 (wq : FVec Ideal S4096x4096 .f32) (g v : FVec Ideal S4096 .f32) : FVec Ideal S4096x4096 .bf16 :=
  truncf .bf16 (mulf wq (broadcastInDim S4096x4096 ![0, 1] bcast_S4096x1_S4096x4096_0_1
    (broadcastInDim S4096x1 ![0] bcast_S4096_S4096x1_0 (bnScale g v)))) bitsLt_bf16_f32

/-- The quantised input flattened to [4096, 1960]. -/
def actArr (x0 : FVec Ideal S4096x49x40 .f32) (x17 : FVec Ideal S_ .f32) : FVec Ideal S4096x1960 .bf16 :=
  truncf .bf16 (shapeCast S4096x1960 (Cert.ReferenceIdeal.Read.val_main_v9 (F := Ideal) x0 x17) shapeCasts_S4096x49x40_S4096x1960) bitsLt_bf16_f32

/-- An activation scale as a [1, 1] array. -/
def scArr (s : FVec Ideal S_ .f32) : FVec Ideal S1x1 .f32 := shapeCast S1x1 s shapeCasts_S_S1x1

/-- The quantised output weight. -/
def outW (x4 : FVec Ideal S12x4096 .f32) : FVec Ideal S12x4096 .bf16 :=
  truncf .bf16 (Cert.ReferenceIdeal.Read.val_main_v145 (F := Ideal) x4) bitsLt_bf16_f32

variable (x0 : FVec Ideal S4096x49x40 .f32) (x1 : FVec Ideal S4096x1960 .f32) (x2 x3 : FVec Ideal S4096x4096 .f32)
  (x4 : FVec Ideal S12x4096 .f32) (x5 x6 x7 x8 x9 x10 x11 x12 x13 x14 x15 x16 : FVec Ideal S4096 .f32)
  (x17 x18 x19 x20 : FVec Ideal S_ .f32)

/-- The first block's output array. -/
def arr1 : S4096x4096.Idx → EReal :=
  G0 (actArr x0 x17) (foldW1960 (Cert.ReferenceIdeal.Read.val_main_v25 (F := Ideal) x1) x5 x8) (bnShift x6 x7 x5 x8) (scArr x18)
/-- The second block's. -/
def arr2 : S4096x4096.Idx → EReal :=
  G1 (arr1 x0 x1 x5 x6 x7 x8 x17 x18) (foldW4096 (Cert.ReferenceIdeal.Read.val_main_v66 (F := Ideal) x2) x9 x12) (bnShift x10 x11 x9 x12) (scArr x19)
/-- The third block's. -/
def arr3 : S4096x4096.Idx → EReal :=
  G2 (arr2 x0 x1 x2 x5 x6 x7 x8 x9 x10 x11 x12 x17 x18 x19) (foldW4096 (Cert.ReferenceIdeal.Read.val_main_v107 (F := Ideal) x3) x13 x16) (bnShift x14 x15 x13 x16) (scArr x20)
/-- The program's result array. -/
def out : S4096x12.Idx → EReal :=
  G3 (arr3 x0 x1 x2 x3 x5 x6 x7 x8 x9 x10 x11 x12 x13 x14 x15 x16 x17 x18 x19 x20) (outW x4)

end Cert.KernelSpec

end
-- ==== Proof.KernelPay.lean ====
/-
  The four kernel bodies' stored values read at an element of the output block, at the ideal instance.

  Each fused-block body multiplies a [1024, K] block of activations by a [1024, K] block of weights over their shared
  second axis (so entry (p, q) is  Σ_k x0[p, k] · x1[q, k]), adds the [1, 1024] shift's column q, takes max with 0, and
  applies the quantiser  clip(round(h / s), 0, 15) · s  with s the [1, 1] scale. The last body is the bare product of a
  [1024, 4096] block by the whole [12, 4096] weight.
-/
import proofs.«116421_j48893907697790_1_alg».proof.Proof.Gen.KernelIdeal.Skeleton
import proofs.«116421_j48893907697790_1_alg».proof.Proof.LibQuantLayer
import Idealize.ShloMosaic.Lib.ValueIdx
import Idealize.ShloMosaic.Lib.Pipeline.Value
import Idealize.ShloMosaic.PureOps.Ideal.Laws

set_option maxRecDepth 16384

noncomputable section

namespace Cert.KernelPay

open Cert.KernelIdeal Cert.KernelIdeal.Gen Cert.QuantLayer Idealize.ShloMosaic Idealize.ShloMosaic.ValueIdx

/-- Rounding a vector rounds each element. -/
theorem roundeven_at {s : Shape} {φ : FTy} (v : FVec Ideal s φ) (i : s.Idx) : roundeven v i = rnd (v i) := rfl

/-- The one element of a [1, 1] vector. -/
theorem extract00 {α : Type} (x3 : S1x1.Idx → α) : extractAt ![0, 0] x3 inpos_S1x1_p0_0 = x3 (ix2 0 0) := by
  unfold extractAt
  exact congrArg x3 (funext fun a => Fin.ext (by
    match a with
    | ⟨0, _⟩ => rfl
    | ⟨1, _⟩ => rfl))

/-! ## Region 0: a [1024, 1960] by [1024, 1960] product over the shared axis, shift, relu, quantiser -/

abbrev D0 := dot_S1024x1960_S1024x1960_S1024x1024_1_1_0_0_n_n

theorem d0_lhs0 (i : S1024x1024.Idx) (q : D0.contr.Idx) : (D0.lhsIdx i q 0).val = (i 0).val := by
  unfold DotDims.lhsIdx
  rw [dif_neg (show ¬(0 : Fin S1024x1960.rank) ∈ D0.lhsBatch by decide), dif_pos (show (0 : Fin S1024x1960.rank) ∈ D0.lhsNonContracting by decide)]
  rfl
theorem d0_lhs1 (i : S1024x1024.Idx) (q : D0.contr.Idx) : (D0.lhsIdx i q 1).val = (q ⟨0, by decide⟩).val :=
  D0.lhsIdx_val_of_single rfl i q
theorem d0_rhs0 (i : S1024x1024.Idx) (q : D0.contr.Idx) : (D0.rhsIdx i q 0).val = (i 1).val := by
  unfold DotDims.rhsIdx
  rw [dif_neg (show ¬(0 : Fin S1024x1960.rank) ∈ D0.rhsBatch by decide), dif_pos (show (0 : Fin S1024x1960.rank) ∈ D0.rhsNonContracting by decide)]
  rfl
theorem d0_rhs1 (i : S1024x1024.Idx) (q : D0.contr.Idx) : (D0.rhsIdx i q 1).val = (q ⟨0, by decide⟩).val :=
  D0.rhsIdx_val_of_single rfl i q

/-- The block product onto a zero accumulator, at row `p` and column `q`: the sum over the shared axis of the two rows'
    products (both operands are indexed row-first: the second is used transposed). -/
theorem matmul0_apply (x0 x1 : FVec Ideal S1024x1960 .bf16) (p q : Fin 1024) :
    matmul D0 none x0 x1 (constant (F := Ideal) S1024x1024 .f32 0x00000000#32) (ix2 p q) = ∑ k : Fin 1960, x0 (ix2 p k) * x1 (ix2 q k) := by
  simp only [matmul]
  rw [Ideal.matmul_constant_zero_apply, ← Equiv.sum_comp (contrEquiv1 D0 1960 rfl rfl).symm]
  refine Finset.sum_congr rfl fun k _ => ?_
  have hk := contrEquiv1_symm_val D0 1960 rfl rfl k
  have el : D0.lhsIdx (ix2 p q) ((contrEquiv1 D0 1960 rfl rfl).symm k) = ix2 p k := funext fun a => Fin.ext (by
    match a with
    | ⟨0, _⟩ => exact d0_lhs0 _ _
    | ⟨1, _⟩ => exact (d0_lhs1 _ _).trans hk)
  have er : D0.rhsIdx (ix2 p q) ((contrEquiv1 D0 1960 rfl rfl).symm k) = ix2 q k := funext fun a => Fin.ext (by
    match a with
    | ⟨0, _⟩ => exact d0_rhs0 _ _
    | ⟨1, _⟩ => exact (d0_rhs1 _ _).trans hk)
  rw [el, er]

/-- The body's stored value at row `p`, column `q` of the output block: the product row·row, plus the column's shift,
    relu, then the activation quantiser at the block's scale. -/
theorem pay0_apply (x0 x1 : Vec Ideal S1024x1960 .bf16) (x2 : Vec Ideal S1x1024 .f32) (x3 : Vec Ideal S1x1 .f32) (p q : Fin 1024) :
    k0_pay1 (F := Ideal) x0 x1 x2 x3 (ix2 p q)
      = actQ (max ((∑ k : Fin 1960, x0 (ix2 p k) * x1 (ix2 q k)) + x2 (ix2 0 q)) z0) (x3 (ix2 0 0)) := by
  unfold k0_pay1
  rw [shapeCast_self, shapeCast_self, shapeCast_self]
  simp only [truncf_apply, mulf_apply, minimumf_apply, maximumf_apply, divf_apply, addf_apply, broadcast_apply, roundeven_at, extract00]
  rw [matmul0_apply]
  rw [broadcastTo_apply x2 broadcasts_S1x1024_S1024x1024 (ix2 p q) (ix2 0 q) (fun a => by
    match a with
    | ⟨0, _⟩ => rfl
    | ⟨1, _⟩ => rfl)]
  rfl

/-! ## Region 1: a [1024, 4096] by [1024, 4096] product over the shared axis, shift, relu, quantiser -/

abbrev D1 := dot_S1024x4096_S1024x4096_S1024x1024_1_1_0_0_n_n

theorem d1_lhs0 (i : S1024x1024.Idx) (q : D1.contr.Idx) : (D1.lhsIdx i q 0).val = (i 0).val := by
  unfold DotDims.lhsIdx
  rw [dif_neg (show ¬(0 : Fin S1024x4096.rank) ∈ D1.lhsBatch by decide), dif_pos (show (0 : Fin S1024x4096.rank) ∈ D1.lhsNonContracting by decide)]
  rfl
theorem d1_lhs1 (i : S1024x1024.Idx) (q : D1.contr.Idx) : (D1.lhsIdx i q 1).val = (q ⟨0, by decide⟩).val :=
  D1.lhsIdx_val_of_single rfl i q
theorem d1_rhs0 (i : S1024x1024.Idx) (q : D1.contr.Idx) : (D1.rhsIdx i q 0).val = (i 1).val := by
  unfold DotDims.rhsIdx
  rw [dif_neg (show ¬(0 : Fin S1024x4096.rank) ∈ D1.rhsBatch by decide), dif_pos (show (0 : Fin S1024x4096.rank) ∈ D1.rhsNonContracting by decide)]
  rfl
theorem d1_rhs1 (i : S1024x1024.Idx) (q : D1.contr.Idx) : (D1.rhsIdx i q 1).val = (q ⟨0, by decide⟩).val :=
  D1.rhsIdx_val_of_single rfl i q

/-- The block product onto a zero accumulator, at row `p` and column `q`: the sum over the shared axis of the two rows'
    products (both operands are indexed row-first: the second is used transposed). -/
theorem matmul1_apply (x0 x1 : FVec Ideal S1024x4096 .bf16) (p q : Fin 1024) :
    matmul D1 none x0 x1 (constant (F := Ideal) S1024x1024 .f32 0x00000000#32) (ix2 p q) = ∑ k : Fin 4096, x0 (ix2 p k) * x1 (ix2 q k) := by
  simp only [matmul]
  rw [Ideal.matmul_constant_zero_apply, ← Equiv.sum_comp (contrEquiv1 D1 4096 rfl rfl).symm]
  refine Finset.sum_congr rfl fun k _ => ?_
  have hk := contrEquiv1_symm_val D1 4096 rfl rfl k
  have el : D1.lhsIdx (ix2 p q) ((contrEquiv1 D1 4096 rfl rfl).symm k) = ix2 p k := funext fun a => Fin.ext (by
    match a with
    | ⟨0, _⟩ => exact d1_lhs0 _ _
    | ⟨1, _⟩ => exact (d1_lhs1 _ _).trans hk)
  have er : D1.rhsIdx (ix2 p q) ((contrEquiv1 D1 4096 rfl rfl).symm k) = ix2 q k := funext fun a => Fin.ext (by
    match a with
    | ⟨0, _⟩ => exact d1_rhs0 _ _
    | ⟨1, _⟩ => exact (d1_rhs1 _ _).trans hk)
  rw [el, er]

/-- The body's stored value at row `p`, column `q` of the output block: the product row·row, plus the column's shift,
    relu, then the activation quantiser at the block's scale. -/
theorem pay1_apply (x0 x1 : Vec Ideal S1024x4096 .bf16) (x2 : Vec Ideal S1x1024 .f32) (x3 : Vec Ideal S1x1 .f32) (p q : Fin 1024) :
    k1_pay1 (F := Ideal) x0 x1 x2 x3 (ix2 p q)
      = actQ (max ((∑ k : Fin 4096, x0 (ix2 p k) * x1 (ix2 q k)) + x2 (ix2 0 q)) z0) (x3 (ix2 0 0)) := by
  unfold k1_pay1
  rw [shapeCast_self, shapeCast_self, shapeCast_self]
  simp only [truncf_apply, mulf_apply, minimumf_apply, maximumf_apply, divf_apply, addf_apply, broadcast_apply, roundeven_at, extract00]
  rw [matmul1_apply]
  rw [broadcastTo_apply x2 broadcasts_S1x1024_S1024x1024 (ix2 p q) (ix2 0 q) (fun a => by
    match a with
    | ⟨0, _⟩ => rfl
    | ⟨1, _⟩ => rfl)]
  rfl

/-! ## Region 2: a [1024, 4096] by [1024, 4096] product over the shared axis, shift, relu, quantiser -/

abbrev D2 := dot_S1024x4096_S1024x4096_S1024x1024_1_1_0_0_n_n

theorem d2_lhs0 (i : S1024x1024.Idx) (q : D2.contr.Idx) : (D2.lhsIdx i q 0).val = (i 0).val := by
  unfold DotDims.lhsIdx
  rw [dif_neg (show ¬(0 : Fin S1024x4096.rank) ∈ D2.lhsBatch by decide), dif_pos (show (0 : Fin S1024x4096.rank) ∈ D2.lhsNonContracting by decide)]
  rfl
theorem d2_lhs1 (i : S1024x1024.Idx) (q : D2.contr.Idx) : (D2.lhsIdx i q 1).val = (q ⟨0, by decide⟩).val :=
  D2.lhsIdx_val_of_single rfl i q
theorem d2_rhs0 (i : S1024x1024.Idx) (q : D2.contr.Idx) : (D2.rhsIdx i q 0).val = (i 1).val := by
  unfold DotDims.rhsIdx
  rw [dif_neg (show ¬(0 : Fin S1024x4096.rank) ∈ D2.rhsBatch by decide), dif_pos (show (0 : Fin S1024x4096.rank) ∈ D2.rhsNonContracting by decide)]
  rfl
theorem d2_rhs1 (i : S1024x1024.Idx) (q : D2.contr.Idx) : (D2.rhsIdx i q 1).val = (q ⟨0, by decide⟩).val :=
  D2.rhsIdx_val_of_single rfl i q

/-- The block product onto a zero accumulator, at row `p` and column `q`: the sum over the shared axis of the two rows'
    products (both operands are indexed row-first: the second is used transposed). -/
theorem matmul2_apply (x0 x1 : FVec Ideal S1024x4096 .bf16) (p q : Fin 1024) :
    matmul D2 none x0 x1 (constant (F := Ideal) S1024x1024 .f32 0x00000000#32) (ix2 p q) = ∑ k : Fin 4096, x0 (ix2 p k) * x1 (ix2 q k) := by
  simp only [matmul]
  rw [Ideal.matmul_constant_zero_apply, ← Equiv.sum_comp (contrEquiv1 D2 4096 rfl rfl).symm]
  refine Finset.sum_congr rfl fun k _ => ?_
  have hk := contrEquiv1_symm_val D2 4096 rfl rfl k
  have el : D2.lhsIdx (ix2 p q) ((contrEquiv1 D2 4096 rfl rfl).symm k) = ix2 p k := funext fun a => Fin.ext (by
    match a with
    | ⟨0, _⟩ => exact d2_lhs0 _ _
    | ⟨1, _⟩ => exact (d2_lhs1 _ _).trans hk)
  have er : D2.rhsIdx (ix2 p q) ((contrEquiv1 D2 4096 rfl rfl).symm k) = ix2 q k := funext fun a => Fin.ext (by
    match a with
    | ⟨0, _⟩ => exact d2_rhs0 _ _
    | ⟨1, _⟩ => exact (d2_rhs1 _ _).trans hk)
  rw [el, er]

/-- The body's stored value at row `p`, column `q` of the output block: the product row·row, plus the column's shift,
    relu, then the activation quantiser at the block's scale. -/
theorem pay2_apply (x0 x1 : Vec Ideal S1024x4096 .bf16) (x2 : Vec Ideal S1x1024 .f32) (x3 : Vec Ideal S1x1 .f32) (p q : Fin 1024) :
    k2_pay1 (F := Ideal) x0 x1 x2 x3 (ix2 p q)
      = actQ (max ((∑ k : Fin 4096, x0 (ix2 p k) * x1 (ix2 q k)) + x2 (ix2 0 q)) z0) (x3 (ix2 0 0)) := by
  unfold k2_pay1
  rw [shapeCast_self, shapeCast_self, shapeCast_self]
  simp only [truncf_apply, mulf_apply, minimumf_apply, maximumf_apply, divf_apply, addf_apply, broadcast_apply, roundeven_at, extract00]
  rw [matmul2_apply]
  rw [broadcastTo_apply x2 broadcasts_S1x1024_S1024x1024 (ix2 p q) (ix2 0 q) (fun a => by
    match a with
    | ⟨0, _⟩ => rfl
    | ⟨1, _⟩ => rfl)]
  rfl

/-! ## Region 3: the bare product of a [1024, 4096] block by the [12, 4096] weight over the shared axis -/

abbrev D3 := dot_S1024x4096_S12x4096_S1024x12_1_1_0_0_n_n

theorem d3_lhs0 (i : S1024x12.Idx) (q : D3.contr.Idx) : (D3.lhsIdx i q 0).val = (i 0).val := by
  unfold DotDims.lhsIdx
  rw [dif_neg (show ¬(0 : Fin S1024x4096.rank) ∈ D3.lhsBatch by decide), dif_pos (show (0 : Fin S1024x4096.rank) ∈ D3.lhsNonContracting by decide)]
  rfl
theorem d3_lhs1 (i : S1024x12.Idx) (q : D3.contr.Idx) : (D3.lhsIdx i q 1).val = (q ⟨0, by decide⟩).val :=
  D3.lhsIdx_val_of_single rfl i q
theorem d3_rhs0 (i : S1024x12.Idx) (q : D3.contr.Idx) : (D3.rhsIdx i q 0).val = (i 1).val := by
  unfold DotDims.rhsIdx
  rw [dif_neg (show ¬(0 : Fin S12x4096.rank) ∈ D3.rhsBatch by decide), dif_pos (show (0 : Fin S12x4096.rank) ∈ D3.rhsNonContracting by decide)]
  rfl
theorem d3_rhs1 (i : S1024x12.Idx) (q : D3.contr.Idx) : (D3.rhsIdx i q 1).val = (q ⟨0, by decide⟩).val :=
  D3.rhsIdx_val_of_single rfl i q

/-- Entry (p, c) of the block product: the sum over the shared axis of row p of the activations times row c of the weight. -/
theorem matmul3_apply (x0 : FVec Ideal S1024x4096 .bf16) (x1 : FVec Ideal S12x4096 .bf16) (p : Fin 1024) (cc : Fin 12) :
    matmul D3 none x0 x1 (constant (F := Ideal) S1024x12 .f32 0x00000000#32) (ix2 p cc) = ∑ k : Fin 4096, x0 (ix2 p k) * x1 (ix2 cc k) := by
  simp only [matmul]
  rw [Ideal.matmul_constant_zero_apply, ← Equiv.sum_comp (contrEquiv1 D3 4096 rfl rfl).symm]
  refine Finset.sum_congr rfl fun k _ => ?_
  have hk := contrEquiv1_symm_val D3 4096 rfl rfl k
  have el : D3.lhsIdx (ix2 p cc) ((contrEquiv1 D3 4096 rfl rfl).symm k) = ix2 p k := funext fun a => Fin.ext (by
    match a with
    | ⟨0, _⟩ => exact d3_lhs0 _ _
    | ⟨1, _⟩ => exact (d3_lhs1 _ _).trans hk)
  have er : D3.rhsIdx (ix2 p cc) ((contrEquiv1 D3 4096 rfl rfl).symm k) = ix2 cc k := funext fun a => Fin.ext (by
    match a with
    | ⟨0, _⟩ => exact d3_rhs0 _ _
    | ⟨1, _⟩ => exact (d3_rhs1 _ _).trans hk)
  rw [el, er]

theorem pay3_apply (x0 : Vec Ideal S1024x4096 .bf16) (x1 : Vec Ideal S12x4096 .bf16) (p : Fin 1024) (cc : Fin 12) :
    k3_pay1 (F := Ideal) x0 x1 (ix2 p cc) = ∑ k : Fin 4096, x0 (ix2 p k) * x1 (ix2 cc k) := by
  unfold k3_pay1
  rw [shapeCast_self, shapeCast_self]
  exact matmul3_apply x0 x1 p cc

end Cert.KernelPay

end
-- ==== Proof.KernelRegion0.lean ====
/-
  Kernel region 0, from blocks to the whole output array: all its grid points' blocks are restrictions of ONE function of the
  region's operand arrays, and the blocks tile the output.
-/
import proofs.«116421_j48893907697790_1_alg».proof.Proof.Gen.KernelIdeal.Frame
import proofs.«116421_j48893907697790_1_alg».proof.Proof.KernelPay
import proofs.«116421_j48893907697790_1_alg».proof.Proof.KernelSpec

set_option maxRecDepth 16384

noncomputable section

namespace Cert.KernelRegion0

open Cert.KernelIdeal Cert.KernelIdeal.Gen Cert.KernelPay Cert.KernelSpec Cert.QuantLayer
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: output block (i, j) of a 4 × 4 grid from activation rows i, weight rows j, shift columns j -/

/-- The printed index maps over the grid: the activations move with the output's row block, the weights and the shift
    with its column block, the scale not at all. -/
theorem idx_facts0 : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = 0
    ∧ win0_4.index t (0 : Fin 2) ≤ 3 ∧ win0_4.index t (1 : Fin 2) ≤ 3 :=
  (by decide +kernel : ∀ t : Fin grid0.N, _)

/-- Every block of the output is some point's. -/
theorem idx_onto0 : ∀ (q0 q1 : Fin 4), ∃ t : Fin cfg0.N, win0_4.index t = ![q0.val, q1.val] :=
  (by decide +kernel : ∀ (q0 q1 : Fin 4), ∃ t : Fin grid0.N, win0_4.index t = ![q0.val, q1.val])

set_option maxHeartbeats 1000000 in
/-- What point `t` writes back is block `t` of `G0` of the operand arrays as the region finds them. -/
theorem flushed0_eq (c : Dev nD) (t : Fin cfg0.N) :
    (dat0 V c).flushed 4 t = ((cfg0.win 4).blk t).view.read (Elt Ideal)
      (G0 (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S1024x1960) hz, View.ld_unit_zero (S := S1x1024) hz, View.ld_unit_zero (S := S1x1) hz]
  have hfacts := idx_facts0 t
  have e0 := hfacts.1
  have e1 := hfacts.2.1
  have e2 := hfacts.2.2.1
  have e3 := hfacts.2.2.2.1
  have e4 := hfacts.2.2.2.2.1
  have e5 := hfacts.2.2.2.2.2.1
  have e6 := hfacts.2.2.2.2.2.2.1
  have e7 := hfacts.2.2.2.2.2.2.2.1
  have e8 := hfacts.2.2.2.2.2.2.2.2.1
  have e9 := hfacts.2.2.2.2.2.2.2.2.2
  funext y
  obtain ⟨p, q, rfl⟩ : ∃ (p q : Fin 1024), y = ix2 p q := ⟨y 0, y 1, eq_ix2 y⟩
  show k0_pay1 (F := Ideal) (iblk0 V c 0 t) (iblk0 V c 1 t) (iblk0 V c 2 t) (iblk0 V c 3 t) (ix2 p q)
    = G0 (V c (Pipeline.arrRef spec0 0)) (V c (Pipeline.arrRef spec0 1)) (V c (Pipeline.arrRef spec0 2)) (V c (Pipeline.arrRef spec0 3))
        (((cfg0.win 4).blk t).view.emb (ix2 p q))
  refine (pay0_apply _ _ _ _ p q).trans ?_
  unfold G0
  have r0 : ∀ k : Fin 1960, iblk0 V c 0 t (ix2 p k)
      = V c (Pipeline.arrRef spec0 0) (ix2 ((((cfg0.win 4).blk t).view.emb (ix2 p q)) 0) k) := fun k => by
    show V c (Pipeline.arrRef spec0 0) (((cfg0.win 0).blk t).view.emb (ix2 p k)) = _
    refine congrArg _ (funext fun a => Fin.ext ?_)
    match a with
    | ⟨0, _⟩ => show win0_0.index t (0 : Fin 2) * 1024 + 1 * p.val = win0_4.index t (0 : Fin 2) * 1024 + 1 * p.val; omega
    | ⟨1, _⟩ => show win0_0.index t (1 : Fin 2) * 1960 + 1 * k.val = k.val; omega
  have r1 : ∀ k : Fin 1960, iblk0 V c 1 t (ix2 q k)
      = V c (Pipeline.arrRef spec0 1) (ix2 ((((cfg0.win 4).blk t).view.emb (ix2 p q)) 1) k) := fun k => by
    show V c (Pipeline.arrRef spec0 1) (((cfg0.win 1).blk t).view.emb (ix2 q k)) = _
    refine congrArg _ (funext fun a => Fin.ext ?_)
    match a with
    | ⟨0, _⟩ => show win0_1.index t (0 : Fin 2) * 1024 + 1 * q.val = win0_4.index t (1 : Fin 2) * 1024 + 1 * q.val; omega
    | ⟨1, _⟩ => show win0_1.index t (1 : Fin 2) * 1960 + 1 * k.val = k.val; omega
  have r2 : iblk0 V c 2 t (ix2 0 q)
      = V c (Pipeline.arrRef spec0 2) (ix2 0 ((((cfg0.win 4).blk t).view.emb (ix2 p q)) 1)) := by
    show V c (Pipeline.arrRef spec0 2) (((cfg0.win 2).blk t).view.emb (ix2 0 q)) = _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = win0_4.index t (1 : Fin 2) * 1024 + 1 * q.val; omega
  have r3 : iblk0 V c 3 t (ix2 0 0) = V c (Pipeline.arrRef spec0 3) (ix2 0 0) := by
    show V c (Pipeline.arrRef spec0 3) (((cfg0.win 3).blk t).view.emb (ix2 0 0)) = _
    refine congrArg _ (funext fun a => Fin.ext ?_)
    match a with
    | ⟨0, _⟩ => show win0_3.index t (0 : Fin 2) * 1 + 1 * 0 = 0; omega
    | ⟨1, _⟩ => show win0_3.index t (1 : Fin 2) * 1 + 1 * 0 = 0; omega
  simp only [r0, r1, r2, r3]

/-- An index of the output array is in point `t`'s block iff each coordinate is in the block's range on its axis. -/
theorem mem_blk0 (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v37).slice (win0_4.rect t)).set ↔ _
  rw [View.set_slice_whole, Rect.mem_set_unit]
  exact Iff.rfl

/-- The sixteen blocks cover the output array: entry (r, s) is in the block of point (r / 1024, s / 1024). -/
theorem cover0 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto0 ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk0]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The region's output array after all its points: `G0` of the operand arrays as the region found them. -/
theorem final0 (c : Dev nD) : (dat0 V c).arrAt 4 cfg0.N
    = G0 (V c (Pipeline.arrRef spec0 0)) (V c (Pipeline.arrRef spec0 1)) (V c (Pipeline.arrRef spec0 2)) (V c (Pipeline.arrRef spec0 3)) :=
  (dat0 V c).arrAt_eq_of_cover 4 _ (fun t _ => flushed0_eq V c t) (cover0)

end Cert.KernelRegion0

end
-- ==== Proof.KernelRegion1.lean ====
/-
  Kernel region 1, from blocks to the whole output array: all its grid points' blocks are restrictions of ONE function of the
  region's operand arrays, and the blocks tile the output.
-/
import proofs.«116421_j48893907697790_1_alg».proof.Proof.Gen.KernelIdeal.Frame
import proofs.«116421_j48893907697790_1_alg».proof.Proof.KernelPay
import proofs.«116421_j48893907697790_1_alg».proof.Proof.KernelSpec

set_option maxRecDepth 16384

noncomputable section

namespace Cert.KernelRegion1

open Cert.KernelIdeal Cert.KernelIdeal.Gen Cert.KernelPay Cert.KernelSpec Cert.QuantLayer
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 1: output block (i, j) of a 4 × 4 grid from activation rows i, weight rows j, shift columns j -/

/-- The printed index maps over the grid: the activations move with the output's row block, the weights and the shift
    with its column block, the scale not at all. -/
theorem idx_facts1 : ∀ t : Fin cfg1.N,
    win1_0.index t (0 : Fin 2) = win1_4.index t (0 : Fin 2) ∧ win1_0.index t (1 : Fin 2) = 0
    ∧ win1_1.index t (0 : Fin 2) = win1_4.index t (1 : Fin 2) ∧ win1_1.index t (1 : Fin 2) = 0
    ∧ win1_2.index t (0 : Fin 2) = 0 ∧ win1_2.index t (1 : Fin 2) = win1_4.index t (1 : Fin 2)
    ∧ win1_3.index t (0 : Fin 2) = 0 ∧ win1_3.index t (1 : Fin 2) = 0
    ∧ win1_4.index t (0 : Fin 2) ≤ 3 ∧ win1_4.index t (1 : Fin 2) ≤ 3 :=
  (by decide +kernel : ∀ t : Fin grid1.N, _)

/-- Every block of the output is some point's. -/
theorem idx_onto1 : ∀ (q0 q1 : Fin 4), ∃ t : Fin cfg1.N, win1_4.index t = ![q0.val, q1.val] :=
  (by decide +kernel : ∀ (q0 q1 : Fin 4), ∃ t : Fin grid1.N, win1_4.index t = ![q0.val, q1.val])

set_option maxHeartbeats 1000000 in
/-- What point `t` writes back is block `t` of `G1` of the operand arrays as the region finds them. -/
theorem flushed1_eq (c : Dev nD) (t : Fin cfg1.N) :
    (dat1 V c).flushed 4 t = ((cfg1.win 4).blk t).view.read (Elt Ideal)
      (G1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S1024x4096) hz, View.ld_unit_zero (S := S1x1024) hz, View.ld_unit_zero (S := S1x1) hz]
  have hfacts := idx_facts1 t
  have e0 := hfacts.1
  have e1 := hfacts.2.1
  have e2 := hfacts.2.2.1
  have e3 := hfacts.2.2.2.1
  have e4 := hfacts.2.2.2.2.1
  have e5 := hfacts.2.2.2.2.2.1
  have e6 := hfacts.2.2.2.2.2.2.1
  have e7 := hfacts.2.2.2.2.2.2.2.1
  have e8 := hfacts.2.2.2.2.2.2.2.2.1
  have e9 := hfacts.2.2.2.2.2.2.2.2.2
  funext y
  obtain ⟨p, q, rfl⟩ : ∃ (p q : Fin 1024), y = ix2 p q := ⟨y 0, y 1, eq_ix2 y⟩
  show k1_pay1 (F := Ideal) (iblk1 V c 0 t) (iblk1 V c 1 t) (iblk1 V c 2 t) (iblk1 V c 3 t) (ix2 p q)
    = G1 (V c (Pipeline.arrRef spec1 0)) (V c (Pipeline.arrRef spec1 1)) (V c (Pipeline.arrRef spec1 2)) (V c (Pipeline.arrRef spec1 3))
        (((cfg1.win 4).blk t).view.emb (ix2 p q))
  refine (pay1_apply _ _ _ _ p q).trans ?_
  unfold G1
  have r0 : ∀ k : Fin 4096, iblk1 V c 0 t (ix2 p k)
      = V c (Pipeline.arrRef spec1 0) (ix2 ((((cfg1.win 4).blk t).view.emb (ix2 p q)) 0) k) := fun k => by
    show V c (Pipeline.arrRef spec1 0) (((cfg1.win 0).blk t).view.emb (ix2 p k)) = _
    refine congrArg _ (funext fun a => Fin.ext ?_)
    match a with
    | ⟨0, _⟩ => show win1_0.index t (0 : Fin 2) * 1024 + 1 * p.val = win1_4.index t (0 : Fin 2) * 1024 + 1 * p.val; omega
    | ⟨1, _⟩ => show win1_0.index t (1 : Fin 2) * 4096 + 1 * k.val = k.val; omega
  have r1 : ∀ k : Fin 4096, iblk1 V c 1 t (ix2 q k)
      = V c (Pipeline.arrRef spec1 1) (ix2 ((((cfg1.win 4).blk t).view.emb (ix2 p q)) 1) k) := fun k => by
    show V c (Pipeline.arrRef spec1 1) (((cfg1.win 1).blk t).view.emb (ix2 q k)) = _
    refine congrArg _ (funext fun a => Fin.ext ?_)
    match a with
    | ⟨0, _⟩ => show win1_1.index t (0 : Fin 2) * 1024 + 1 * q.val = win1_4.index t (1 : Fin 2) * 1024 + 1 * q.val; omega
    | ⟨1, _⟩ => show win1_1.index t (1 : Fin 2) * 4096 + 1 * k.val = k.val; omega
  have r2 : iblk1 V c 2 t (ix2 0 q)
      = V c (Pipeline.arrRef spec1 2) (ix2 0 ((((cfg1.win 4).blk t).view.emb (ix2 p q)) 1)) := by
    show V c (Pipeline.arrRef spec1 2) (((cfg1.win 2).blk t).view.emb (ix2 0 q)) = _
    refine congrArg _ (funext fun a => Fin.ext ?_)
    match a with
    | ⟨0, _⟩ => show win1_2.index t (0 : Fin 2) * 1 + 1 * 0 = 0; omega
    | ⟨1, _⟩ => show win1_2.index t (1 : Fin 2) * 1024 + 1 * q.val = win1_4.index t (1 : Fin 2) * 1024 + 1 * q.val; omega
  have r3 : iblk1 V c 3 t (ix2 0 0) = V c (Pipeline.arrRef spec1 3) (ix2 0 0) := by
    show V c (Pipeline.arrRef spec1 3) (((cfg1.win 3).blk t).view.emb (ix2 0 0)) = _
    refine congrArg _ (funext fun a => Fin.ext ?_)
    match a with
    | ⟨0, _⟩ => show win1_3.index t (0 : Fin 2) * 1 + 1 * 0 = 0; omega
    | ⟨1, _⟩ => show win1_3.index t (1 : Fin 2) * 1 + 1 * 0 = 0; omega
  simp only [r0, r1, r2, r3]

/-- An index of the output array is in point `t`'s block iff each coordinate is in the block's range on its axis. -/
theorem mem_blk1 (t : Fin cfg1.N) (i : S4096x4096.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v63).slice (win1_4.rect t)).set ↔ _
  rw [View.set_slice_whole, Rect.mem_set_unit]
  exact Iff.rfl

/-- The sixteen blocks cover the output array: entry (r, s) is in the block of point (r / 1024, s / 1024). -/
theorem cover1 (i : S4096x4096.Idx) : ∃ t : Fin cfg1.N, (cfg1.win 4).flush t = true ∧ i ∈ ((cfg1.win 4).blk t).view.set := by
  have hi0 : (i 0).val < 4096 := (i 0).isLt
  have hi1 : (i 1).val < 4096 := (i 1).isLt
  obtain ⟨t, ht⟩ := idx_onto1 ⟨(i 0).val / 1024, by omega⟩ ⟨(i 1).val / 1024, by omega⟩
  have q0 : win1_4.index t (0 : Fin 2) = (i 0).val / 1024 := congrFun ht 0
  have q1 : win1_4.index t (1 : Fin 2) = (i 1).val / 1024 := congrFun ht 1
  refine ⟨t, flush1_4 t, ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1024 ≤ (i 1).val ∧ (i 1).val < win1_4.index t (1 : Fin 2) * 1024 + 1024; omega

/-- The region's output array after all its points: `G1` of the operand arrays as the region found them. -/
theorem final1 (c : Dev nD) : (dat1 V c).arrAt 4 cfg1.N
    = G1 (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_eq V c t) (cover1)

end Cert.KernelRegion1

end
-- ==== Proof.KernelRegion2.lean ====
/-
  Kernel region 2, from blocks to the whole output array: all its grid points' blocks are restrictions of ONE function of the
  region's operand arrays, and the blocks tile the output.
-/
import proofs.«116421_j48893907697790_1_alg».proof.Proof.Gen.KernelIdeal.Frame
import proofs.«116421_j48893907697790_1_alg».proof.Proof.KernelPay
import proofs.«116421_j48893907697790_1_alg».proof.Proof.KernelSpec

set_option maxRecDepth 16384

noncomputable section

namespace Cert.KernelRegion2

open Cert.KernelIdeal Cert.KernelIdeal.Gen Cert.KernelPay Cert.KernelSpec Cert.QuantLayer
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 2: output block (i, j) of a 4 × 4 grid from activation rows i, weight rows j, shift columns j -/

/-- The printed index maps over the grid: the activations move with the output's row block, the weights and the shift
    with its column block, the scale not at all. -/
theorem idx_facts2 : ∀ t : Fin cfg2.N,
    win2_0.index t (0 : Fin 2) = win2_4.index t (0 : Fin 2) ∧ win2_0.index t (1 : Fin 2) = 0
    ∧ win2_1.index t (0 : Fin 2) = win2_4.index t (1 : Fin 2) ∧ win2_1.index t (1 : Fin 2) = 0
    ∧ win2_2.index t (0 : Fin 2) = 0 ∧ win2_2.index t (1 : Fin 2) = win2_4.index t (1 : Fin 2)
    ∧ win2_3.index t (0 : Fin 2) = 0 ∧ win2_3.index t (1 : Fin 2) = 0
    ∧ win2_4.index t (0 : Fin 2) ≤ 3 ∧ win2_4.index t (1 : Fin 2) ≤ 3 :=
  (by decide +kernel : ∀ t : Fin grid2.N, _)

/-- Every block of the output is some point's. -/
theorem idx_onto2 : ∀ (q0 q1 : Fin 4), ∃ t : Fin cfg2.N, win2_4.index t = ![q0.val, q1.val] :=
  (by decide +kernel : ∀ (q0 q1 : Fin 4), ∃ t : Fin grid2.N, win2_4.index t = ![q0.val, q1.val])

set_option maxHeartbeats 1000000 in
/-- What point `t` writes back is block `t` of `G2` of the operand arrays as the region finds them. -/
theorem flushed2_eq (c : Dev nD) (t : Fin cfg2.N) :
    (dat2 V c).flushed 4 t = ((cfg2.win 4).blk t).view.read (Elt Ideal)
      (G2 (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S1024x4096) hz, View.ld_unit_zero (S := S1x1024) hz, View.ld_unit_zero (S := S1x1) hz]
  have hfacts := idx_facts2 t
  have e0 := hfacts.1
  have e1 := hfacts.2.1
  have e2 := hfacts.2.2.1
  have e3 := hfacts.2.2.2.1
  have e4 := hfacts.2.2.2.2.1
  have e5 := hfacts.2.2.2.2.2.1
  have e6 := hfacts.2.2.2.2.2.2.1
  have e7 := hfacts.2.2.2.2.2.2.2.1
  have e8 := hfacts.2.2.2.2.2.2.2.2.1
  have e9 := hfacts.2.2.2.2.2.2.2.2.2
  funext y
  obtain ⟨p, q, rfl⟩ : ∃ (p q : Fin 1024), y = ix2 p q := ⟨y 0, y 1, eq_ix2 y⟩
  show k2_pay1 (F := Ideal) (iblk2 V c 0 t) (iblk2 V c 1 t) (iblk2 V c 2 t) (iblk2 V c 3 t) (ix2 p q)
    = G2 (V c (Pipeline.arrRef spec2 0)) (V c (Pipeline.arrRef spec2 1)) (V c (Pipeline.arrRef spec2 2)) (V c (Pipeline.arrRef spec2 3))
        (((cfg2.win 4).blk t).view.emb (ix2 p q))
  refine (pay2_apply _ _ _ _ p q).trans ?_
  unfold G2
  have r0 : ∀ k : Fin 4096, iblk2 V c 0 t (ix2 p k)
      = V c (Pipeline.arrRef spec2 0) (ix2 ((((cfg2.win 4).blk t).view.emb (ix2 p q)) 0) k) := fun k => by
    show V c (Pipeline.arrRef spec2 0) (((cfg2.win 0).blk t).view.emb (ix2 p k)) = _
    refine congrArg _ (funext fun a => Fin.ext ?_)
    match a with
    | ⟨0, _⟩ => show win2_0.index t (0 : Fin 2) * 1024 + 1 * p.val = win2_4.index t (0 : Fin 2) * 1024 + 1 * p.val; omega
    | ⟨1, _⟩ => show win2_0.index t (1 : Fin 2) * 4096 + 1 * k.val = k.val; omega
  have r1 : ∀ k : Fin 4096, iblk2 V c 1 t (ix2 q k)
      = V c (Pipeline.arrRef spec2 1) (ix2 ((((cfg2.win 4).blk t).view.emb (ix2 p q)) 1) k) := fun k => by
    show V c (Pipeline.arrRef spec2 1) (((cfg2.win 1).blk t).view.emb (ix2 q k)) = _
    refine congrArg _ (funext fun a => Fin.ext ?_)
    match a with
    | ⟨0, _⟩ => show win2_1.index t (0 : Fin 2) * 1024 + 1 * q.val = win2_4.index t (1 : Fin 2) * 1024 + 1 * q.val; omega
    | ⟨1, _⟩ => show win2_1.index t (1 : Fin 2) * 4096 + 1 * k.val = k.val; omega
  have r2 : iblk2 V c 2 t (ix2 0 q)
      = V c (Pipeline.arrRef spec2 2) (ix2 0 ((((cfg2.win 4).blk t).view.emb (ix2 p q)) 1)) := by
    show V c (Pipeline.arrRef spec2 2) (((cfg2.win 2).blk t).view.emb (ix2 0 q)) = _
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * q.val = win2_4.index t (1 : Fin 2) * 1024 + 1 * q.val; omega
  have r3 : iblk2 V c 3 t (ix2 0 0) = V c (Pipeline.arrRef spec2 3) (ix2 0 0) := by
    show V c (Pipeline.arrRef spec2 3) (((cfg2.win 3).blk t).view.emb (ix2 0 0)) = _
    refine congrArg _ (funext fun a => Fin.ext ?_)
    match a with
    | ⟨0, _⟩ => show win2_3.index t (0 : Fin 2) * 1 + 1 * 0 = 0; omega
    | ⟨1, _⟩ => show win2_3.index t (1 : Fin 2) * 1 + 1 * 0 = 0; omega
  simp only [r0, r1, r2, r3]

/-- An index of the output array is in point `t`'s block iff each coordinate is in the block's range on its axis. -/
theorem mem_blk2 (t : Fin cfg2.N) (i : S4096x4096.Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v89).slice (win2_4.rect t)).set ↔ _
  rw [View.set_slice_whole, Rect.mem_set_unit]
  exact Iff.rfl

/-- The sixteen blocks cover the output array: entry (r, s) is in the block of point (r / 1024, s / 1024). -/
theorem cover2 (i : S4096x4096.Idx) : ∃ t : Fin cfg2.N, (cfg2.win 4).flush t = true ∧ i ∈ ((cfg2.win 4).blk t).view.set := by
  have hi0 : (i 0).val < 4096 := (i 0).isLt
  have hi1 : (i 1).val < 4096 := (i 1).isLt
  obtain ⟨t, ht⟩ := idx_onto2 ⟨(i 0).val / 1024, by omega⟩ ⟨(i 1).val / 1024, by omega⟩
  have q0 : win2_4.index t (0 : Fin 2) = (i 0).val / 1024 := congrFun ht 0
  have q1 : win2_4.index t (1 : Fin 2) = (i 1).val / 1024 := congrFun ht 1
  refine ⟨t, flush2_4 t, ?_⟩
  rw [mem_blk2]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 1024 ≤ (i 1).val ∧ (i 1).val < win2_4.index t (1 : Fin 2) * 1024 + 1024; omega

/-- The region's output array after all its points: `G2` of the operand arrays as the region found them. -/
theorem final2 (c : Dev nD) : (dat2 V c).arrAt 4 cfg2.N
    = G2 (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_eq V c t) (cover2)

end Cert.KernelRegion2

end
-- ==== Proof.KernelRegion3.lean ====
/-
  Kernel region 3 (the final product), from blocks to the whole output array.
-/
import proofs.«116421_j48893907697790_1_alg».proof.Proof.Gen.KernelIdeal.Frame
import proofs.«116421_j48893907697790_1_alg».proof.Proof.KernelPay
import proofs.«116421_j48893907697790_1_alg».proof.Proof.KernelSpec

set_option maxRecDepth 16384

noncomputable section

namespace Cert.KernelRegion3

open Cert.KernelIdeal Cert.KernelIdeal.Gen Cert.KernelPay Cert.KernelSpec Cert.QuantLayer
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 3: output rows 1024·i … of the [4096, 12] result from activation rows 1024·i … and the whole weight -/

theorem idx_facts3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 3 :=
  (by decide +kernel : ∀ t : Fin grid3.N, _)

theorem idx_onto3 : ∀ (q0 : Fin 4), ∃ t : Fin cfg3.N, win3_2.index t = ![q0.val, 0] :=
  (by decide +kernel : ∀ (q0 : Fin 4), ∃ t : Fin grid3.N, win3_2.index t = ![q0.val, 0])

theorem flushed3_eq (c : Dev nD) (t : Fin cfg3.N) :
    (dat3 V c).flushed 2 t = ((cfg3.win 2).blk t).view.read (Elt Ideal)
      (G3 (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S1024x4096) hz, View.ld_unit_zero (S := S12x4096) hz]
  obtain ⟨e0, e1, e2, e3, e4, e5⟩ := idx_facts3 t
  funext y
  obtain ⟨p, cc, rfl⟩ : ∃ (p : Fin 1024) (cc : Fin 12), y = ix2 p cc := ⟨y 0, y 1, eq_ix2 y⟩
  show k3_pay1 (F := Ideal) (iblk3 V c 0 t) (iblk3 V c 1 t) (ix2 p cc)
    = G3 (V c (Pipeline.arrRef spec3 0)) (V c (Pipeline.arrRef spec3 1)) (((cfg3.win 2).blk t).view.emb (ix2 p cc))
  refine (pay3_apply _ _ p cc).trans ?_
  unfold G3
  have r0 : ∀ k : Fin 4096, iblk3 V c 0 t (ix2 p k)
      = V c (Pipeline.arrRef spec3 0) (ix2 ((((cfg3.win 2).blk t).view.emb (ix2 p cc)) 0) k) := fun k => by
    show V c (Pipeline.arrRef spec3 0) (((cfg3.win 0).blk t).view.emb (ix2 p k)) = _
    refine congrArg _ (funext fun a => Fin.ext ?_)
    match a with
    | ⟨0, _⟩ => show win3_0.index t (0 : Fin 2) * 1024 + 1 * p.val = win3_2.index t (0 : Fin 2) * 1024 + 1 * p.val; omega
    | ⟨1, _⟩ => show win3_0.index t (1 : Fin 2) * 4096 + 1 * k.val = k.val; omega
  have r1 : ∀ k : Fin 4096, iblk3 V c 1 t (ix2 cc k)
      = V c (Pipeline.arrRef spec3 1) (ix2 ((((cfg3.win 2).blk t).view.emb (ix2 p cc)) 1) k) := fun k => by
    show V c (Pipeline.arrRef spec3 1) (((cfg3.win 1).blk t).view.emb (ix2 cc k)) = _
    refine congrArg _ (funext fun a => Fin.ext ?_)
    match a with
    | ⟨0, _⟩ => show win3_1.index t (0 : Fin 2) * 12 + 1 * cc.val = win3_2.index t (1 : Fin 2) * 12 + 1 * cc.val; omega
    | ⟨1, _⟩ => show win3_1.index t (1 : Fin 2) * 4096 + 1 * k.val = k.val; omega
  simp only [r0, r1]

theorem mem_blk3 (t : Fin cfg3.N) (i : S4096x12.Idx) :
    i ∈ ((cfg3.win 2).blk t).view.set ↔ ∀ a : Fin 2, win3_2.index t a * S1024x12.size a ≤ (i a).val ∧ (i a).val < win3_2.index t a * S1024x12.size a + S1024x12.size a := by
  show i ∈ ((View.whole main_v101).slice (win3_2.rect t)).set ↔ _
  rw [View.set_slice_whole, Rect.mem_set_unit]
  exact Iff.rfl

theorem cover3 (i : S4096x12.Idx) : ∃ t : Fin cfg3.N, (cfg3.win 2).flush t = true ∧ i ∈ ((cfg3.win 2).blk t).view.set := by
  have hi0 : (i 0).val < 4096 := (i 0).isLt
  have hi1 : (i 1).val < 12 := (i 1).isLt
  obtain ⟨t, ht⟩ := idx_onto3 ⟨(i 0).val / 1024, by omega⟩
  have q0 : win3_2.index t (0 : Fin 2) = (i 0).val / 1024 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 12 ≤ (i 1).val ∧ (i 1).val < win3_2.index t (1 : Fin 2) * 12 + 12; omega

theorem final3 (c : Dev nD) : (dat3 V c).arrAt 2 cfg3.N = G3 (V c (Pipeline.arrRef spec3 0)) (V c (Pipeline.arrRef spec3 1)) :=
  (dat3 V c).arrAt_eq_of_cover 2 _ (fun t _ => flushed3_eq V c t) (cover3)

end Cert.KernelRegion3

end
-- ==== Proof.KernelHost.lean ====
/-
  The idealized kernel program's result buffer, read back through the program's segments to the argument arrays.

  A stretch of host operations applies them in order, so a buffer it does not write keeps its contents and a buffer it
  writes holds the operations' composed term; a region leaves in its output array the whole-array function of its
  operands (the region modules) and every other buffer as it found it. Walking the 28 segments: the arguments reach
  every later stretch unchanged; each region's four operands are the terms of `Cert.KernelSpec` (the quantised input
  flattened, each quantised weight with the normalisation's scale folded in, the shift, the scale), each block's
  activation operand is the previous region's output array, and the result is `Cert.KernelSpec.out` of the arguments.
-/
import proofs.«116421_j48893907697790_1_alg».proof.Proof.Gen.KernelIdeal.Frame
import proofs.«116421_j48893907697790_1_alg».proof.Proof.KernelSpec
import proofs.«116421_j48893907697790_1_alg».proof.Proof.KernelRegion0
import proofs.«116421_j48893907697790_1_alg».proof.Proof.KernelRegion1
import proofs.«116421_j48893907697790_1_alg».proof.Proof.KernelRegion2
import proofs.«116421_j48893907697790_1_alg».proof.Proof.KernelRegion3
import Idealize.ShloMosaic.Lib.StableHlo.Run

set_option maxRecDepth 16384

noncomputable section

namespace Cert.KernelHost

open Cert.KernelIdeal Cert.KernelIdeal.Gen Cert.KernelSpec
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The arguments at the later boundaries -/

theorem a10_2 : W10 m ρ c (Proc.devRef .tc main_arg2) = m ((c : Thread nD τ).loc main_arg2) :=
  (W10_of_ne m ρ c main_arg2 (by decide)).trans (by
    show StableHlo.after hostOps0_8 (W8 m ρ c) (Proc.devRef .tc main_arg2) = _
    simp only [hostOps0, hostOps0_1, hostOps0_2, hostOps0_3, hostOps0_4, hostOps0_5, hostOps0_6, hostOps0_7, hostOps0_8]
    after_results_simp
    all_goals rfl)

theorem a10_3 : W10 m ρ c (Proc.devRef .tc main_arg3) = m ((c : Thread nD τ).loc main_arg3) :=
  (W10_of_ne m ρ c main_arg3 (by decide)).trans (by
    show StableHlo.after hostOps0_8 (W8 m ρ c) (Proc.devRef .tc main_arg3) = _
    simp only [hostOps0, hostOps0_1, hostOps0_2, hostOps0_3, hostOps0_4, hostOps0_5, hostOps0_6, hostOps0_7, hostOps0_8]
    after_results_simp
    all_goals rfl)

theorem a10_4 : W10 m ρ c (Proc.devRef .tc main_arg4) = m ((c : Thread nD τ).loc main_arg4) :=
  (W10_of_ne m ρ c main_arg4 (by decide)).trans (by
    show StableHlo.after hostOps0_8 (W8 m ρ c) (Proc.devRef .tc main_arg4) = _
    simp only [hostOps0, hostOps0_1, hostOps0_2, hostOps0_3, hostOps0_4, hostOps0_5, hostOps0_6, hostOps0_7, hostOps0_8]
    after_results_simp
    all_goals rfl)

theorem a10_9 : W10 m ρ c (Proc.devRef .tc main_arg9) = m ((c : Thread nD τ).loc main_arg9) :=
  (W10_of_ne m ρ c main_arg9 (by decide)).trans (by
    show StableHlo.after hostOps0_8 (W8 m ρ c) (Proc.devRef .tc main_arg9) = _
    simp only [hostOps0, hostOps0_1, hostOps0_2, hostOps0_3, hostOps0_4, hostOps0_5, hostOps0_6, hostOps0_7, hostOps0_8]
    after_results_simp
    all_goals rfl)

theorem a10_10 : W10 m ρ c (Proc.devRef .tc main_arg10) = m ((c : Thread nD τ).loc main_arg10) :=
  (W10_of_ne m ρ c main_arg10 (by decide)).trans (by
    show StableHlo.after hostOps0_8 (W8 m ρ c) (Proc.devRef .tc main_arg10) = _
    simp only [hostOps0, hostOps0_1, hostOps0_2, hostOps0_3, hostOps0_4, hostOps0_5, hostOps0_6, hostOps0_7, hostOps0_8]
    after_results_simp
    all_goals rfl)

theorem a10_11 : W10 m ρ c (Proc.devRef .tc main_arg11) = m ((c : Thread nD τ).loc main_arg11) :=
  (W10_of_ne m ρ c main_arg11 (by decide)).trans (by
    show StableHlo.after hostOps0_8 (W8 m ρ c) (Proc.devRef .tc main_arg11) = _
    simp only [hostOps0, hostOps0_1, hostOps0_2, hostOps0_3, hostOps0_4, hostOps0_5, hostOps0_6, hostOps0_7, hostOps0_8]
    after_results_simp
    all_goals rfl)

theorem a10_12 : W10 m ρ c (Proc.devRef .tc main_arg12) = m ((c : Thread nD τ).loc main_arg12) :=
  (W10_of_ne m ρ c main_arg12 (by decide)).trans (by
    show StableHlo.after hostOps0_8 (W8 m ρ c) (Proc.devRef .tc main_arg12) = _
    simp only [hostOps0, hostOps0_1, hostOps0_2, hostOps0_3, hostOps0_4, hostOps0_5, hostOps0_6, hostOps0_7, hostOps0_8]
    after_results_simp
    all_goals rfl)

theorem a10_13 : W10 m ρ c (Proc.devRef .tc main_arg13) = m ((c : Thread nD τ).loc main_arg13) :=
  (W10_of_ne m ρ c main_arg13 (by decide)).trans (by
    show StableHlo.after hostOps0_8 (W8 m ρ c) (Proc.devRef .tc main_arg13) = _
    simp only [hostOps0, hostOps0_1, hostOps0_2, hostOps0_3, hostOps0_4, hostOps0_5, hostOps0_6, hostOps0_7, hostOps0_8]
    after_results_simp
    all_goals rfl)

theorem a10_14 : W10 m ρ c (Proc.devRef .tc main_arg14) = m ((c : Thread nD τ).loc main_arg14) :=
  (W10_of_ne m ρ c main_arg14 (by decide)).trans (by
    show StableHlo.after hostOps0_8 (W8 m ρ c) (Proc.devRef .tc main_arg14) = _
    simp only [hostOps0, hostOps0_1, hostOps0_2, hostOps0_3, hostOps0_4, hostOps0_5, hostOps0_6, hostOps0_7, hostOps0_8]
    after_results_simp
    all_goals rfl)

theorem a10_15 : W10 m ρ c (Proc.devRef .tc main_arg15) = m ((c : Thread nD τ).loc main_arg15) :=
  (W10_of_ne m ρ c main_arg15 (by decide)).trans (by
    show StableHlo.after hostOps0_8 (W8 m ρ c) (Proc.devRef .tc main_arg15) = _
    simp only [hostOps0, hostOps0_1, hostOps0_2, hostOps0_3, hostOps0_4, hostOps0_5, hostOps0_6, hostOps0_7, hostOps0_8]
    after_results_simp
    all_goals rfl)

theorem a10_16 : W10 m ρ c (Proc.devRef .tc main_arg16) = m ((c : Thread nD τ).loc main_arg16) :=
  (W10_of_ne m ρ c main_arg16 (by decide)).trans (by
    show StableHlo.after hostOps0_8 (W8 m ρ c) (Proc.devRef .tc main_arg16) = _
    simp only [hostOps0, hostOps0_1, hostOps0_2, hostOps0_3, hostOps0_4, hostOps0_5, hostOps0_6, hostOps0_7, hostOps0_8]
    after_results_simp
    all_goals rfl)

theorem a10_19 : W10 m ρ c (Proc.devRef .tc main_arg19) = m ((c : Thread nD τ).loc main_arg19) :=
  (W10_of_ne m ρ c main_arg19 (by decide)).trans (by
    show StableHlo.after hostOps0_8 (W8 m ρ c) (Proc.devRef .tc main_arg19) = _
    simp only [hostOps0, hostOps0_1, hostOps0_2, hostOps0_3, hostOps0_4, hostOps0_5, hostOps0_6, hostOps0_7, hostOps0_8]
    after_results_simp
    all_goals rfl)

theorem a10_20 : W10 m ρ c (Proc.devRef .tc main_arg20) = m ((c : Thread nD τ).loc main_arg20) :=
  (W10_of_ne m ρ c main_arg20 (by decide)).trans (by
    show StableHlo.after hostOps0_8 (W8 m ρ c) (Proc.devRef .tc main_arg20) = _
    simp only [hostOps0, hostOps0_1, hostOps0_2, hostOps0_3, hostOps0_4, hostOps0_5, hostOps0_6, hostOps0_7, hostOps0_8]
    after_results_simp
    all_goals rfl)

theorem a16_3 : W16 m ρ c (Proc.devRef .tc main_arg3) = m ((c : Thread nD τ).loc main_arg3) :=
  (W16_of_ne m ρ c main_arg3 (by decide)).trans ((show StableHlo.after hostOps1_4 (W14 m ρ c) (Proc.devRef .tc main_arg3) = W10 m ρ c (Proc.devRef .tc main_arg3) from by
    simp only [hostOps1, hostOps1_1, hostOps1_2, hostOps1_3, hostOps1_4]
    after_results_simp
    all_goals rfl).trans (a10_3 m ρ c))

theorem a16_4 : W16 m ρ c (Proc.devRef .tc main_arg4) = m ((c : Thread nD τ).loc main_arg4) :=
  (W16_of_ne m ρ c main_arg4 (by decide)).trans ((show StableHlo.after hostOps1_4 (W14 m ρ c) (Proc.devRef .tc main_arg4) = W10 m ρ c (Proc.devRef .tc main_arg4) from by
    simp only [hostOps1, hostOps1_1, hostOps1_2, hostOps1_3, hostOps1_4]
    after_results_simp
    all_goals rfl).trans (a10_4 m ρ c))

theorem a16_13 : W16 m ρ c (Proc.devRef .tc main_arg13) = m ((c : Thread nD τ).loc main_arg13) :=
  (W16_of_ne m ρ c main_arg13 (by decide)).trans ((show StableHlo.after hostOps1_4 (W14 m ρ c) (Proc.devRef .tc main_arg13) = W10 m ρ c (Proc.devRef .tc main_arg13) from by
    simp only [hostOps1, hostOps1_1, hostOps1_2, hostOps1_3, hostOps1_4]
    after_results_simp
    all_goals rfl).trans (a10_13 m ρ c))

theorem a16_14 : W16 m ρ c (Proc.devRef .tc main_arg14) = m ((c : Thread nD τ).loc main_arg14) :=
  (W16_of_ne m ρ c main_arg14 (by decide)).trans ((show StableHlo.after hostOps1_4 (W14 m ρ c) (Proc.devRef .tc main_arg14) = W10 m ρ c (Proc.devRef .tc main_arg14) from by
    simp only [hostOps1, hostOps1_1, hostOps1_2, hostOps1_3, hostOps1_4]
    after_results_simp
    all_goals rfl).trans (a10_14 m ρ c))

theorem a16_15 : W16 m ρ c (Proc.devRef .tc main_arg15) = m ((c : Thread nD τ).loc main_arg15) :=
  (W16_of_ne m ρ c main_arg15 (by decide)).trans ((show StableHlo.after hostOps1_4 (W14 m ρ c) (Proc.devRef .tc main_arg15) = W10 m ρ c (Proc.devRef .tc main_arg15) from by
    simp only [hostOps1, hostOps1_1, hostOps1_2, hostOps1_3, hostOps1_4]
    after_results_simp
    all_goals rfl).trans (a10_15 m ρ c))

theorem a16_16 : W16 m ρ c (Proc.devRef .tc main_arg16) = m ((c : Thread nD τ).loc main_arg16) :=
  (W16_of_ne m ρ c main_arg16 (by decide)).trans ((show StableHlo.after hostOps1_4 (W14 m ρ c) (Proc.devRef .tc main_arg16) = W10 m ρ c (Proc.devRef .tc main_arg16) from by
    simp only [hostOps1, hostOps1_1, hostOps1_2, hostOps1_3, hostOps1_4]
    after_results_simp
    all_goals rfl).trans (a10_16 m ρ c))

theorem a16_20 : W16 m ρ c (Proc.devRef .tc main_arg20) = m ((c : Thread nD τ).loc main_arg20) :=
  (W16_of_ne m ρ c main_arg20 (by decide)).trans ((show StableHlo.after hostOps1_4 (W14 m ρ c) (Proc.devRef .tc main_arg20) = W10 m ρ c (Proc.devRef .tc main_arg20) from by
    simp only [hostOps1, hostOps1_1, hostOps1_2, hostOps1_3, hostOps1_4]
    after_results_simp
    all_goals rfl).trans (a10_20 m ρ c))

theorem a22_4 : W22 m ρ c (Proc.devRef .tc main_arg4) = m ((c : Thread nD τ).loc main_arg4) :=
  (W22_of_ne m ρ c main_arg4 (by decide)).trans ((show StableHlo.after hostOps2_4 (W20 m ρ c) (Proc.devRef .tc main_arg4) = W16 m ρ c (Proc.devRef .tc main_arg4) from by
    simp only [hostOps2, hostOps2_1, hostOps2_2, hostOps2_3, hostOps2_4]
    after_results_simp
    all_goals rfl).trans (a16_4 m ρ c))

/-! ## Region 0's operands (after the first nine stretches) -/

theorem op0_0 : V9 m ρ c (Pipeline.arrRef spec0 0) = actArr (m ((c : Thread nD τ).loc main_arg0)) (m ((c : Thread nD τ).loc main_arg17)) := by
  show StableHlo.after hostOps0_8 (W8 m ρ c) (Proc.devRef .tc main_v11) = _
  simp only [hostOps0, hostOps0_1, hostOps0_2, hostOps0_3, hostOps0_4, hostOps0_5, hostOps0_6, hostOps0_7, hostOps0_8]
  after_results_simp
  rfl

theorem op0_1 : V9 m ρ c (Pipeline.arrRef spec0 1) = foldW1960 (Cert.ReferenceIdeal.Read.val_main_v25 (F := Ideal) (m ((c : Thread nD τ).loc main_arg1))) (m ((c : Thread nD τ).loc main_arg5)) (m ((c : Thread nD τ).loc main_arg8)) := by
  show StableHlo.after hostOps0_8 (W8 m ρ c) (Proc.devRef .tc main_v34) = _
  simp only [hostOps0, hostOps0_1, hostOps0_2, hostOps0_3, hostOps0_4, hostOps0_5, hostOps0_6, hostOps0_7, hostOps0_8]
  after_results_simp
  rfl

theorem op0_2 : V9 m ρ c (Pipeline.arrRef spec0 2) = bnShift (m ((c : Thread nD τ).loc main_arg6)) (m ((c : Thread nD τ).loc main_arg7)) (m ((c : Thread nD τ).loc main_arg5)) (m ((c : Thread nD τ).loc main_arg8)) := by
  show StableHlo.after hostOps0_8 (W8 m ρ c) (Proc.devRef .tc main_v35) = _
  simp only [hostOps0, hostOps0_1, hostOps0_2, hostOps0_3, hostOps0_4, hostOps0_5, hostOps0_6, hostOps0_7, hostOps0_8]
  after_results_simp
  rfl

theorem op0_3 : V9 m ρ c (Pipeline.arrRef spec0 3) = scArr (m ((c : Thread nD τ).loc main_arg18)) := by
  show StableHlo.after hostOps0_8 (W8 m ρ c) (Proc.devRef .tc main_v36) = _
  simp only [hostOps0, hostOps0_1, hostOps0_2, hostOps0_3, hostOps0_4, hostOps0_5, hostOps0_6, hostOps0_7, hostOps0_8]
  after_results_simp
  rfl

/-! ## Region 1's operands -/

theorem act15 : V15 m ρ c (Pipeline.arrRef spec1 0) = (dat0 (V9 m ρ) c).arrAt 4 cfg0.N := by
  show StableHlo.after hostOps1_4 (W14 m ρ c) (Proc.devRef .tc main_v37) = _
  simp only [hostOps1, hostOps1_1, hostOps1_2, hostOps1_3, hostOps1_4]
  after_results_simp
  exact W10_arr m ρ c 4

theorem op1_1 : V15 m ρ c (Pipeline.arrRef spec1 1) = foldW4096 (Cert.ReferenceIdeal.Read.val_main_v66 (F := Ideal) (m ((c : Thread nD τ).loc main_arg2))) (m ((c : Thread nD τ).loc main_arg9)) (m ((c : Thread nD τ).loc main_arg12)) := by
  show StableHlo.after hostOps1_4 (W14 m ρ c) (Proc.devRef .tc main_v60) = _
  simp only [hostOps1, hostOps1_1, hostOps1_2, hostOps1_3, hostOps1_4]
  after_results_simp
  rw [a10_2 m ρ c, a10_9 m ρ c, a10_12 m ρ c]
  rfl

theorem op1_2 : V15 m ρ c (Pipeline.arrRef spec1 2) = bnShift (m ((c : Thread nD τ).loc main_arg10)) (m ((c : Thread nD τ).loc main_arg11)) (m ((c : Thread nD τ).loc main_arg9)) (m ((c : Thread nD τ).loc main_arg12)) := by
  show StableHlo.after hostOps1_4 (W14 m ρ c) (Proc.devRef .tc main_v61) = _
  simp only [hostOps1, hostOps1_1, hostOps1_2, hostOps1_3, hostOps1_4]
  after_results_simp
  rw [a10_10 m ρ c, a10_11 m ρ c, a10_9 m ρ c, a10_12 m ρ c]
  rfl

theorem op1_3 : V15 m ρ c (Pipeline.arrRef spec1 3) = scArr (m ((c : Thread nD τ).loc main_arg19)) := by
  show StableHlo.after hostOps1_4 (W14 m ρ c) (Proc.devRef .tc main_v62) = _
  simp only [hostOps1, hostOps1_1, hostOps1_2, hostOps1_3, hostOps1_4]
  after_results_simp
  rw [a10_19 m ρ c]
  rfl

/-! ## Region 2's operands -/

theorem act21 : V21 m ρ c (Pipeline.arrRef spec2 0) = (dat1 (V15 m ρ) c).arrAt 4 cfg1.N := by
  show StableHlo.after hostOps2_4 (W20 m ρ c) (Proc.devRef .tc main_v63) = _
  simp only [hostOps2, hostOps2_1, hostOps2_2, hostOps2_3, hostOps2_4]
  after_results_simp
  exact W16_arr m ρ c 4

theorem op2_1 : V21 m ρ c (Pipeline.arrRef spec2 1) = foldW4096 (Cert.ReferenceIdeal.Read.val_main_v107 (F := Ideal) (m ((c : Thread nD τ).loc main_arg3))) (m ((c : Thread nD τ).loc main_arg13)) (m ((c : Thread nD τ).loc main_arg16)) := by
  show StableHlo.after hostOps2_4 (W20 m ρ c) (Proc.devRef .tc main_v86) = _
  simp only [hostOps2, hostOps2_1, hostOps2_2, hostOps2_3, hostOps2_4]
  after_results_simp
  rw [a16_3 m ρ c, a16_13 m ρ c, a16_16 m ρ c]
  rfl

theorem op2_2 : V21 m ρ c (Pipeline.arrRef spec2 2) = bnShift (m ((c : Thread nD τ).loc main_arg14)) (m ((c : Thread nD τ).loc main_arg15)) (m ((c : Thread nD τ).loc main_arg13)) (m ((c : Thread nD τ).loc main_arg16)) := by
  show StableHlo.after hostOps2_4 (W20 m ρ c) (Proc.devRef .tc main_v87) = _
  simp only [hostOps2, hostOps2_1, hostOps2_2, hostOps2_3, hostOps2_4]
  after_results_simp
  rw [a16_14 m ρ c, a16_15 m ρ c, a16_13 m ρ c, a16_16 m ρ c]
  rfl

theorem op2_3 : V21 m ρ c (Pipeline.arrRef spec2 3) = scArr (m ((c : Thread nD τ).loc main_arg20)) := by
  show StableHlo.after hostOps2_4 (W20 m ρ c) (Proc.devRef .tc main_v88) = _
  simp only [hostOps2, hostOps2_1, hostOps2_2, hostOps2_3, hostOps2_4]
  after_results_simp
  rw [a16_20 m ρ c]
  rfl

/-! ## Region 3's operands -/

theorem act27 : V27 m ρ c (Pipeline.arrRef spec3 0) = (dat2 (V21 m ρ) c).arrAt 4 cfg2.N := by
  show StableHlo.after hostOps3_4 (W26 m ρ c) (Proc.devRef .tc main_v89) = _
  simp only [hostOps3, hostOps3_1, hostOps3_2, hostOps3_3, hostOps3_4]
  after_results_simp
  exact W22_arr m ρ c 4

theorem op3_1 : V27 m ρ c (Pipeline.arrRef spec3 1) = outW (m ((c : Thread nD τ).loc main_arg4)) := by
  show StableHlo.after hostOps3_4 (W26 m ρ c) (Proc.devRef .tc main_v100) = _
  simp only [hostOps3, hostOps3_1, hostOps3_2, hostOps3_3, hostOps3_4]
  after_results_simp
  rw [a22_4 m ρ c]
  rfl

/-! ## The result -/

/-- Region 0 leaves the first block's output array. -/
theorem arr1_eq : (dat0 (V9 m ρ) c).arrAt 4 cfg0.N = arr1 (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg17)) (m ((c : Thread nD τ).loc main_arg18)) := by
  have e := Cert.KernelRegion0.final0 (V9 m ρ) c
  rw [op0_0 m ρ c, op0_1 m ρ c, op0_2 m ρ c, op0_3 m ρ c] at e
  exact e

/-- Region 1 leaves the second block's. -/
theorem arr2_eq : (dat1 (V15 m ρ) c).arrAt 4 cfg1.N = arr2 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) := by
  have e := Cert.KernelRegion1.final1 (V15 m ρ) c
  rw [act15 m ρ c, arr1_eq m ρ c, op1_1 m ρ c, op1_2 m ρ c, op1_3 m ρ c] at e
  exact e

/-- Region 2 leaves the third block's. -/
theorem arr3_eq : (dat2 (V21 m ρ) c).arrAt 4 cfg2.N = arr3 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have e := Cert.KernelRegion2.final2 (V21 m ρ) c
  rw [act21 m ρ c, arr2_eq m ρ c, op2_1 m ρ c, op2_2 m ρ c, op2_3 m ρ c] at e
  exact e

/-- The result buffer's final contents: the array-level term of the arguments. -/
theorem value : W28 m ρ c (Proc.devRef .tc main_v101) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have e := Cert.KernelRegion3.final3 (V27 m ρ) c
  rw [act27 m ρ c, arr3_eq m ρ c, op3_1 m ρ c] at e
  exact (W28_arr m ρ c 2).trans e

end Cert.KernelHost

end
-- ==== Proof.KernelNet.lean ====
/-
  The kernel program's result array, read entry by entry, is the network of `Cert.NetSpec`.

  Pure reading, no finiteness: each operand array the host operations prepare is read at explicit coordinates
  (a scalar broadcast is the scalar; a column broadcast [4096] → [4096, 1] → [4096, K] reads the channel's entry; a
  reshape reads the entry with the same row-major position; a change of format is the identity on the extended
  reals), and then a fused block's entry (i, j) is, term by term, the folded layer `Cert.QuantLayer.layerK` at (i, j):
  Σ_k a[i, k] · (wq[j, k] · scale[j]) + (b[j] − m[j] · scale[j]),  relu, activation quantiser.
-/
import proofs.«116421_j48893907697790_1_alg».proof.Proof.KernelSpec
import proofs.«116421_j48893907697790_1_alg».proof.Proof.NetSpec
import Idealize.ShloMosaic.Lib.Pipeline.Value
import Idealize.ShloMosaic.Lib.ValueIdx

noncomputable section

namespace Cert.KernelNet

open Cert.KernelIdeal Cert.KernelIdeal.Gen Cert.KernelSpec Cert.NetSpec Cert.QuantLayer Idealize.ShloMosaic Idealize.ShloMosaic.ValueIdx

/-! ## The operand arrays at an entry -/

/-- A scalar broadcast to any shape reads the scalar. -/
theorem bcast_scalar_apply {t : Shape} (h : S_.BroadcastsInDim t ![]) (x : S_.Idx → EReal) (j : t.Idx) :
    broadcastInDim t ![] h x j = x ix0 :=
  broadcastInDim_apply _ h x j ix0 (fun a => a.elim0)

/-- The column broadcast [4096] → [4096, 1] reads the row's entry. -/
theorem bcast_col_apply (h : S4096.BroadcastsInDim S4096x1 ![0]) (x : S4096.Idx → EReal) (j : Fin 4096) :
    broadcastInDim S4096x1 ![0] h x (ix2 j 0) = x (ix1 j) :=
  broadcastInDim_apply _ h x (ix2 j 0) (ix1 j) (fun a => match a with
    | ⟨0, _⟩ => by show j.val = if (4096 : Nat) = 1 then 0 else j.val; rw [if_neg (by decide)])

/-- The broadcast [4096, 1] → [4096, 1960] along the rows reads the row's one entry. -/
theorem bcast_row1960_apply (h : S4096x1.BroadcastsInDim S4096x1960 ![0, 1]) (x : S4096x1.Idx → EReal) (j : Fin 4096) (k : Fin 1960) :
    broadcastInDim S4096x1960 ![0, 1] h x (ix2 j k) = x (ix2 j 0) :=
  broadcastInDim_apply _ h x (ix2 j k) (ix2 j 0) (fun a => match a with
    | ⟨0, _⟩ => by show j.val = if (4096 : Nat) = 1 then 0 else j.val; rw [if_neg (by decide)]
    | ⟨1, _⟩ => by show 0 = if (1 : Nat) = 1 then 0 else k.val; rw [if_pos rfl])

/-- The same to [4096, 4096]. -/
theorem bcast_row4096_apply (h : S4096x1.BroadcastsInDim S4096x4096 ![0, 1]) (x : S4096x1.Idx → EReal) (j : Fin 4096) (k : Fin 4096) :
    broadcastInDim S4096x4096 ![0, 1] h x (ix2 j k) = x (ix2 j 0) :=
  broadcastInDim_apply _ h x (ix2 j k) (ix2 j 0) (fun a => match a with
    | ⟨0, _⟩ => by show j.val = if (4096 : Nat) = 1 then 0 else j.val; rw [if_neg (by decide)]
    | ⟨1, _⟩ => by show 0 = if (1 : Nat) = 1 then 0 else k.val; rw [if_pos rfl])

/-- The normalisation's scale at a channel:  g · rsqrt(v + ε). -/
theorem bnScale_apply (g v : FVec Ideal S4096 .f32) (j : Fin 4096) :
    bnScale g v (ix1 j) = g (ix1 j) * Ideal.rsqrt (v (ix1 j) + eps) := by
  unfold bnScale
  show g (ix1 j) * Ideal.rsqrt (v (ix1 j) + broadcastInDim S4096 ![] bcast_S_S4096 (constant (F := Ideal) S_ .f32 0x3727C5AC#32) (ix1 j)) = _
  rw [bcast_scalar_apply]
  rfl

/-- The shift as a row vector at a channel:  b − m · scale. -/
theorem bnShift_apply (b mm g v : FVec Ideal S4096 .f32) (j : Fin 4096) :
    bnShift b mm g v (ix2 0 j) = b (ix1 j) - mm (ix1 j) * bnScale g v (ix1 j) := by
  unfold bnShift
  rw [shapeCast_apply _ shapeCasts_S4096_S1x4096 (ix2 0 j) (ix1 j)
    (by rewrite [Shape.rowMajor_val_one, Shape.rowMajor_val_two]; show j.val = 0 * 4096 + j.val; omega)]
  rfl

/-- A folded [4096, 1960] weight at an entry: the quantised weight times its row's scale. -/
theorem foldW1960_apply (wq : FVec Ideal S4096x1960 .f32) (g v : FVec Ideal S4096 .f32) (j : Fin 4096) (k : Fin 1960) :
    foldW1960 wq g v (ix2 j k) = wq (ix2 j k) * bnScale g v (ix1 j) := by
  unfold foldW1960
  show wq (ix2 j k) * broadcastInDim S4096x1960 ![0, 1] bcast_S4096x1_S4096x1960_0_1
    (broadcastInDim S4096x1 ![0] bcast_S4096_S4096x1_0 (bnScale g v)) (ix2 j k) = _
  rw [bcast_row1960_apply, bcast_col_apply]

/-- A folded [4096, 4096] weight at an entry. -/
theorem foldW4096_apply (wq : FVec Ideal S4096x4096 .f32) (g v : FVec Ideal S4096 .f32) (j : Fin 4096) (k : Fin 4096) :
    foldW4096 wq g v (ix2 j k) = wq (ix2 j k) * bnScale g v (ix1 j) := by
  unfold foldW4096
  show wq (ix2 j k) * broadcastInDim S4096x4096 ![0, 1] bcast_S4096x1_S4096x4096_0_1
    (broadcastInDim S4096x1 ![0] bcast_S4096_S4096x1_0 (bnScale g v)) (ix2 j k) = _
  rw [bcast_row4096_apply, bcast_col_apply]

/-- The flattened quantised input at (i, k) is the quantised input at the entry with the same row-major position. -/
theorem actArr_apply (x0 : FVec Ideal S4096x49x40 .f32) (x17 : FVec Ideal S_ .f32) (i : Fin 4096) (k : Fin 1960) :
    actArr x0 x17 (ix2 i k) = actIn x0 x17 i k := by
  unfold actArr actIn
  show shapeCast S4096x1960 (Cert.ReferenceIdeal.Read.val_main_v9 (F := Ideal) x0 x17) shapeCasts_S4096x49x40_S4096x1960 (ix2 i k) = _
  exact shapeCast_apply _ shapeCasts_S4096x49x40_S4096x1960 (ix2 i k) (Cert.ReferenceIdeal.Read.idx_main_v12 (ix2 i k))
    (by rewrite [Shape.rowMajor_val_three, Shape.rowMajor_val_two]
        have h0 : i.val < 4096 := i.isLt
        have h1 : k.val < 1960 := k.isLt
        show ((i.val * 1960 + k.val) / 1960 * 49 + (i.val * 1960 + k.val) / 40 % 49) * 40 + (i.val * 1960 + k.val) % 40 = i.val * 1960 + k.val
        omega)

/-- The activation scale as a [1, 1] array reads the scalar. -/
theorem scArr_apply (s : FVec Ideal S_ .f32) : scArr s (ix2 0 0) = s ix0 := by
  unfold scArr
  exact shapeCast_apply _ shapeCasts_S_S1x1 (ix2 0 0) ix0
    (by rewrite [Shape.rowMajor_val_two]; exact Shape.rowMajorPi_zero _ _)

variable (x0 : FVec Ideal S4096x49x40 .f32) (x1 : FVec Ideal S4096x1960 .f32) (x2 x3 : FVec Ideal S4096x4096 .f32)
  (x4 : FVec Ideal S12x4096 .f32) (x5 x6 x7 x8 x9 x10 x11 x12 x13 x14 x15 x16 : FVec Ideal S4096 .f32)
  (x17 x18 x19 x20 : FVec Ideal S_ .f32)

/-! ## The blocks -/

/-- Block 1's output array at (i, j) is the folded layer there. -/
theorem arr1_apply (i j : Fin 4096) :
    arr1 x0 x1 x5 x6 x7 x8 x17 x18 (ix2 i j) = h1 x0 x1 x5 x6 x7 x8 x17 x18 i j := by
  have hs : ∀ k : Fin 1960, actArr x0 x17 (ix2 i k) * foldW1960 (Cert.ReferenceIdeal.Read.val_main_v25 (F := Ideal) x1) x5 x8 (ix2 j k)
      = actIn x0 x17 i k * (wq1 x1 j k * (vec x5 j * Ideal.rsqrt (vec x8 j + eps))) := fun k => by
    rw [actArr_apply, foldW1960_apply, bnScale_apply]; rfl
  have hsum : (∑ k : Fin 1960, actArr x0 x17 (ix2 i k) * foldW1960 (Cert.ReferenceIdeal.Read.val_main_v25 (F := Ideal) x1) x5 x8 (ix2 j k))
      = ∑ k : Fin 1960, actIn x0 x17 i k * (wq1 x1 j k * (vec x5 j * Ideal.rsqrt (vec x8 j + eps))) :=
    Finset.sum_congr rfl (fun k _ => hs k)
  show actQ (max ((∑ k : Fin 1960, actArr x0 x17 (ix2 i k) * foldW1960 (Cert.ReferenceIdeal.Read.val_main_v25 (F := Ideal) x1) x5 x8 (ix2 j k))
      + bnShift x6 x7 x5 x8 (ix2 0 j)) z0) (scArr x18 (ix2 0 0))
    = layerK (actIn x0 x17) (wq1 x1) (vec x5) (vec x6) (vec x7) (vec x8) (x18 ix0) i j
  rw [hsum, bnShift_apply, bnScale_apply, scArr_apply]
  rfl

/-- Block 2's output array at (i, j) is the folded layer there. -/
theorem arr2_apply (i j : Fin 4096) :
    arr2 x0 x1 x2 x5 x6 x7 x8 x9 x10 x11 x12 x17 x18 x19 (ix2 i j) = h2 x0 x1 x2 x5 x6 x7 x8 x9 x10 x11 x12 x17 x18 x19 i j := by
  have hs : ∀ k : Fin 4096, arr1 x0 x1 x5 x6 x7 x8 x17 x18 (ix2 i k) * foldW4096 (Cert.ReferenceIdeal.Read.val_main_v66 (F := Ideal) x2) x9 x12 (ix2 j k)
      = h1 x0 x1 x5 x6 x7 x8 x17 x18 i k * (wq2 x2 j k * (vec x9 j * Ideal.rsqrt (vec x12 j + eps))) := fun k => by
    rw [arr1_apply, foldW4096_apply, bnScale_apply]; rfl
  have hsum : (∑ k : Fin 4096, arr1 x0 x1 x5 x6 x7 x8 x17 x18 (ix2 i k) * foldW4096 (Cert.ReferenceIdeal.Read.val_main_v66 (F := Ideal) x2) x9 x12 (ix2 j k))
      = ∑ k : Fin 4096, h1 x0 x1 x5 x6 x7 x8 x17 x18 i k * (wq2 x2 j k * (vec x9 j * Ideal.rsqrt (vec x12 j + eps))) :=
    Finset.sum_congr rfl (fun k _ => hs k)
  show actQ (max ((∑ k : Fin 4096, arr1 x0 x1 x5 x6 x7 x8 x17 x18 (ix2 i k) * foldW4096 (Cert.ReferenceIdeal.Read.val_main_v66 (F := Ideal) x2) x9 x12 (ix2 j k))
      + bnShift x10 x11 x9 x12 (ix2 0 j)) z0) (scArr x19 (ix2 0 0))
    = layerK (h1 x0 x1 x5 x6 x7 x8 x17 x18) (wq2 x2) (vec x9) (vec x10) (vec x11) (vec x12) (x19 ix0) i j
  rw [hsum, bnShift_apply, bnScale_apply, scArr_apply]
  rfl

/-- Block 3's output array at (i, j) is the folded layer there. -/
theorem arr3_apply (i j : Fin 4096) :
    arr3 x0 x1 x2 x3 x5 x6 x7 x8 x9 x10 x11 x12 x13 x14 x15 x16 x17 x18 x19 x20 (ix2 i j) = h3 x0 x1 x2 x3 x5 x6 x7 x8 x9 x10 x11 x12 x13 x14 x15 x16 x17 x18 x19 x20 i j := by
  have hs : ∀ k : Fin 4096, arr2 x0 x1 x2 x5 x6 x7 x8 x9 x10 x11 x12 x17 x18 x19 (ix2 i k) * foldW4096 (Cert.ReferenceIdeal.Read.val_main_v107 (F := Ideal) x3) x13 x16 (ix2 j k)
      = h2 x0 x1 x2 x5 x6 x7 x8 x9 x10 x11 x12 x17 x18 x19 i k * (wq3 x3 j k * (vec x13 j * Ideal.rsqrt (vec x16 j + eps))) := fun k => by
    rw [arr2_apply, foldW4096_apply, bnScale_apply]; rfl
  have hsum : (∑ k : Fin 4096, arr2 x0 x1 x2 x5 x6 x7 x8 x9 x10 x11 x12 x17 x18 x19 (ix2 i k) * foldW4096 (Cert.ReferenceIdeal.Read.val_main_v107 (F := Ideal) x3) x13 x16 (ix2 j k))
      = ∑ k : Fin 4096, h2 x0 x1 x2 x5 x6 x7 x8 x9 x10 x11 x12 x17 x18 x19 i k * (wq3 x3 j k * (vec x13 j * Ideal.rsqrt (vec x16 j + eps))) :=
    Finset.sum_congr rfl (fun k _ => hs k)
  show actQ (max ((∑ k : Fin 4096, arr2 x0 x1 x2 x5 x6 x7 x8 x9 x10 x11 x12 x17 x18 x19 (ix2 i k) * foldW4096 (Cert.ReferenceIdeal.Read.val_main_v107 (F := Ideal) x3) x13 x16 (ix2 j k))
      + bnShift x14 x15 x13 x16 (ix2 0 j)) z0) (scArr x20 (ix2 0 0))
    = layerK (h2 x0 x1 x2 x5 x6 x7 x8 x9 x10 x11 x12 x17 x18 x19) (wq3 x3) (vec x13) (vec x14) (vec x15) (vec x16) (x20 ix0) i j
  rw [hsum, bnShift_apply, bnScale_apply, scArr_apply]
  rfl

/-- THE RESULT: the kernel program's result array at (i, c) is the network's output there. -/
theorem kernel_net (i : Fin 4096) (c : Fin 12) :
    out x0 x1 x2 x3 x4 x5 x6 x7 x8 x9 x10 x11 x12 x13 x14 x15 x16 x17 x18 x19 x20 (ix2 i c)
      = net x0 x1 x2 x3 x4 x5 x6 x7 x8 x9 x10 x11 x12 x13 x14 x15 x16 x17 x18 x19 x20 i c := by
  show (∑ k : Fin 4096, arr3 x0 x1 x2 x3 x5 x6 x7 x8 x9 x10 x11 x12 x13 x14 x15 x16 x17 x18 x19 x20 (ix2 i k) * outW x4 (ix2 c k))
    = ∑ k : Fin 4096, h3 x0 x1 x2 x3 x5 x6 x7 x8 x9 x10 x11 x12 x13 x14 x15 x16 x17 x18 x19 x20 i k * wqo x4 c k
  exact Finset.sum_congr rfl (fun k _ => by rw [arr3_apply]; rfl)

end Cert.KernelNet

end
-- ==== Proof.lean ====
/-
  The proof of `Cert.Claim`: a four-layer quantised network (input quantiser; three blocks "4-bit weight quantiser,
  linear layer, batch normalisation at inference, relu, 4-bit activation quantiser"; an 8-bit-weight output layer),
  computed by a kernel program of four matrix-product regions against its plain reference, equal as extended reals.

  The kernel program folds each block's normalisation into the weights and a shift,
      Σ_k a_k · (wq_jk · (g_j · r_j)) + (b_j − m_j · (g_j · r_j)),   r_j = rsqrt(v_j + ε),
  where the reference computes  g_j · (Σ_k a_k · wq_jk − m_j) · r_j + b_j,  and the reference writes every quantiser with a
  straight-through step  x + (q − x).  Both are identities on the reals and fail at infinities, so the statement carries
  the domain on which the reference is finite: every float input finite and each variance v ≥ 0 (then v + ε > 0).
  Under it: the straight-through steps cancel (`x` real), the quantised weights and activations are real (a clipped
  value times a real scale; a row's max-abs is below +∞), and distributivity gives the fold (`Cert.QuantLayer.layer_eq`).

  The kernel's result is read off its run (`KernelRun`: the program's segments launched, every buffer's final
  contents kept), walked back through the host operations and the four regions to an array-level term of the
  arguments (`KernelHost.value`, over the regions' whole-array functions), and read element by element as the network
  function `Cert.NetSpec.net` (`KernelNet`); the reference's generated run is read to the same function (`RefValue`).
  The two word-level and idealized kernel frames are the generated ones; the reference's frame is its run with the
  result dropped; the idealization rewrote nothing, so `preserves` is trivial.
-/
import proofs.«116421_j48893907697790_1_alg».proof.Defs
import proofs.«116421_j48893907697790_1_alg».proof.Proof.Gen.Kernel
import proofs.«116421_j48893907697790_1_alg».proof.Proof.Gen.Kernel.Frame
import proofs.«116421_j48893907697790_1_alg».proof.Proof.Gen.KernelIdeal
import proofs.«116421_j48893907697790_1_alg».proof.Proof.Gen.KernelIdeal.Frame
import proofs.«116421_j48893907697790_1_alg».proof.Proof.Gen.ReferenceIdeal
import proofs.«116421_j48893907697790_1_alg».proof.Proof.Gen.ReferenceIdeal.Run
import proofs.«116421_j48893907697790_1_alg».proof.Proof.Gen.ReferenceIdeal.Read
import proofs.«116421_j48893907697790_1_alg».proof.Proof.Gen.Pre_finite_inputs
import proofs.«116421_j48893907697790_1_alg».proof.Proof.PreFacts
import proofs.«116421_j48893907697790_1_alg».proof.Proof.RefValue
import proofs.«116421_j48893907697790_1_alg».proof.Proof.KernelRun
import proofs.«116421_j48893907697790_1_alg».proof.Proof.KernelHost
import proofs.«116421_j48893907697790_1_alg».proof.Proof.KernelNet
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network function of the arguments in their result arrays. -/
theorem algebraic : Cert.algebraic_KernelIdeal_ReferenceIdeal := by
  intro m ρ m' ρ' hpre hagree
  refine ⟨fun c => Cert.KernelSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelHost.value m ρ c), (h c).2⟩) (Cert.KernelRun.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v149_eq]
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14, e15, e16, e17, e18, e19, e20]
    have hF := Cert.PreFacts.facts_of_pre _ _ _ _ _ _ _ _ _ _ _ _ _ _ _ _ _ _ _ _ _ (hpre c)
    refine funext fun (ic : Cert.KernelIdeal.S4096x12.Idx) => ?_
    obtain ⟨i, cc, rfl⟩ : ∃ (i : Fin 4096) (cc : Fin 12), ic = ix2 i cc := ⟨ic 0, ic 1, eq_ix2 ic⟩
    exact (Cert.RefValue.ref_net _ _ _ _ _ _ _ _ _ _ _ _ _ _ _ _ _ _ _ _ _ hF.f0 hF.f1 hF.f2 hF.f3 hF.f4 hF.f5 hF.f6 hF.f7 hF.f8 hF.f9 hF.f10 hF.f11 hF.f12 hF.f13 hF.f14 hF.f15 hF.f16 hF.f17 hF.f18 hF.f19 hF.f20 hF.nn8 hF.nn12 hF.nn16 i cc).trans
      (Cert.KernelNet.kernel_net _ _ _ _ _ _ _ _ _ _ _ _ _ _ _ _ _ _ _ _ _ i cc).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
